-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : IVec S2x1600000 32) (main_arg2 : FVec F S1600000 .f32) (main_arg3 : FVec F S512x128 .f32) (main_arg4 : FVec F S128 .f32) (main_arg5 : FVec F S128x40 .f32) (main_arg6 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000x1 : Shape := ⟨2, ![1600000, 1]⟩
abbrev S100000x128 : Shape := ⟨2, ![100000, 128]⟩
abbrev S4000x512 : Shape := ⟨2, ![4000, 512]⟩
abbrev S4000x128 : Shape := ⟨2, ![4000, 128]⟩
abbrev S_ : Shape := ⟨0, ![]⟩
abbrev S1600000x128 : Shape := ⟨2, ![1600000, 128]⟩
abbrev S8000x128 : Shape := ⟨2, ![8000, 128]⟩
abbrev S8000x1 : Shape := ⟨2, ![8000, 1]⟩
abbrev S1x128 : Shape := ⟨2, ![1, 128]⟩
abbrev S5000x128 : Shape := ⟨2, ![5000, 128]⟩
abbrev S100000x40 : Shape := ⟨2, ![100000, 40]⟩
abbrev S5000x40 : Shape := ⟨2, ![5000, 40]⟩
abbrev S1600000x40 : Shape := ⟨2, ![1600000, 40]⟩
abbrev S8000x40 : Shape := ⟨2, ![8000, 40]⟩
abbrev S1x40 : Shape := ⟨2, ![1, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 46
  | .vmem => 32
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S1600000, .f32⟩
  | .hbm, ⟨3, _⟩ => ⟨S512x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1600000x1, .f32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x40, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x40, .f32⟩
  | .hbm, ⟨39, _⟩ => ⟨S1600000x40, .f32⟩
  | .hbm, ⟨40, _⟩ => ⟨S_, .f32⟩
  | .hbm, ⟨41, _⟩ => ⟨S100000x40, .f32⟩
  | .hbm, ⟨42, _⟩ => ⟨S1600000x1, .i32⟩
  | .hbm, ⟨43, _⟩ => ⟨S100000x40, .f32⟩
  | .hbm, ⟨44, _⟩ => ⟨S1x40, .f32⟩
  | .hbm, ⟨45, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x128, .f32⟩
  | .local _ .vmem, ⟨4, _⟩ => ⟨S4000x128, .f32⟩
  | .local _ .vmem, ⟨5, _⟩ => ⟨S8000x128, .f32⟩
  | .local _ .vmem, ⟨6, _⟩ => ⟨S8000x128, .f32⟩
  | .local _ .vmem, ⟨7, _⟩ => ⟨S8000x1, .f32⟩
  | .local _ .vmem, ⟨8, _⟩ => ⟨S8000x1, .f32⟩
  | .local _ .vmem, ⟨9, _⟩ => ⟨S8000x128, .f32⟩
  | .local _ .vmem, ⟨10, _⟩ => ⟨S8000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x40, .f32⟩
  | .local _ .vmem, ⟨19, _⟩ => ⟨S5000x40, .f32⟩
  | .local _ .vmem, ⟨20, _⟩ => ⟨S5000x40, .f32⟩
  | .local _ .vmem, ⟨21, _⟩ => ⟨S8000x40, .f32⟩
  | .local _ .vmem, ⟨22, _⟩ => ⟨S8000x40, .f32⟩
  | .local _ .vmem, ⟨23, _⟩ => ⟨S8000x1, .f32⟩
  | .local _ .vmem, ⟨24, _⟩ => ⟨S8000x1, .f32⟩
  | .local _ .vmem, ⟨25, _⟩ => ⟨S8000x40, .f32⟩
  | .local _ .vmem, ⟨26, _⟩ => ⟨S8000x40, .f32⟩
  | .local _ .vmem, ⟨27, _⟩ => ⟨S10000x40, .f32⟩
  | .local _ .vmem, ⟨28, _⟩ => ⟨S10000x40, .f32⟩
  | .local _ .vmem, ⟨29, _⟩ => ⟨S1x40, .f32⟩
  | .local _ .vmem, ⟨30, _⟩ => ⟨S10000x40, .f32⟩
  | .local _ .vmem, ⟨31, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000_S1600000x1 : S1600000.ShapeCasts S1600000x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x128_S4000x128_0_0 : ∀ a, (![0, 0] : Fin 2 → Nat) a + S4000x128.size a ≤ S4000x128.size a
  h_S4000x128 : 0 < S4000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  inb_S8000x40_S8000x40_0_0 : ∀ a, (![0, 0] : Fin 2 → Nat) a + S8000x40.size a ≤ S8000x40.size a
  h_S8000x40 : 0 < S8000x40.numel
  shapeCasts_S8000x40_S8000x40 : S8000x40.ShapeCasts S8000x40
  broadcasts_S8000x1_S8000x40 : S8000x1.Broadcasts S8000x40
  bcast_S_S100000x40 : S_.BroadcastsInDim S100000x40 (![] : Fin 0 → Fin S100000x40.rank)
  shapeCasts_S40_S1x40 : S40.ShapeCasts S1x40
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  dot_S4000x512_S512x128_S4000x128_1_0_0_1_n_n_wf : DotDims.WF S4000x512 S512x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1600000x128.size a
  hwx1_0 : ∀ i : grid1.Coords, EltTy.bits .f32 = 32 ∨ (Rect.block (s := S1600000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S1600000x128.size a
  hwx1_2 : ∀ i : grid1.Coords, EltTy.bits .f32 = 32 ∨ (Rect.block (s := S1600000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x40.size a ≤ S1600000x40.size a
  hwx4_0 : ∀ i : grid4.Coords, EltTy.bits .f32 = 32 ∨ (Rect.block (s := S1600000x40) S8000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S1600000x1.size a
  hwx4_1 : ∀ i : grid4.Coords, EltTy.bits .f32 = 32 ∨ (Rect.block (s := S1600000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x40.size a ≤ S1600000x40.size a
  hwx4_2 : ∀ i : grid4.Coords, EltTy.bits .f32 = 32 ∨ (Rect.block (s := S1600000x40) S8000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x40.size a ≤ S100000x40.size a
  hwx5_0 : ∀ i : grid5.Coords, EltTy.bits .f32 = 32 ∨ (Rect.block (s := S100000x40) S10000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x40.size a ≤ S100000x40.size a
  hwx5_2 : ∀ i : grid5.Coords, EltTy.bits .f32 = 32 ∨ (Rect.block (s := S100000x40) S10000x40.size (cc5_transform_2 i) (hinb5_2 i)).WholeWords (EltTy.packing .f32)

variable [Facts₀]

def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v16) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v18) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v26) S8000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S8000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v30) S10000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v32) S10000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 69
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S1600000, .f32⟩
  | .hbm, ⟨3, _⟩ => ⟨S512x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x40, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x40, .f32⟩
  | .hbm, ⟨44, _⟩ => ⟨S1600000x1, .f32⟩
  | .hbm, ⟨45, _⟩ => ⟨S1600000x40, .f32⟩
  | .hbm, ⟨46, _⟩ => ⟨S1600000x40, .f32⟩
  | .hbm, ⟨47, _⟩ => ⟨S_, .f32⟩
  | .hbm, ⟨48, _⟩ => ⟨S100000x40, .f32⟩
  | .hbm, ⟨49, _⟩ => ⟨S1600000x1, .i32⟩
  | .hbm, ⟨50, _⟩ => ⟨S100000x40, .f32⟩
  | .hbm, ⟨51, _⟩ => ⟨S1x40, .f32⟩
  | .hbm, ⟨52, _⟩ => ⟨S100000x40, .f32⟩
  | .hbm, ⟨53, _⟩ => ⟨S100000x40, .f32⟩
  | .hbm, ⟨54, _⟩ => ⟨S_, .f32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x40, .f32⟩
  | .hbm, ⟨61, _⟩ => ⟨S100000x40, .f32⟩
  | .hbm, ⟨62, _⟩ => ⟨S100000x40, .f32⟩
  | .hbm, ⟨63, _⟩ => ⟨S_, .f32⟩
  | .hbm, ⟨64, _⟩ => ⟨S100000, .f32⟩
  | .hbm, ⟨65, _⟩ => ⟨S100000x1, .f32⟩
  | .hbm, ⟨66, _⟩ => ⟨S100000x1, .f32⟩
  | .hbm, ⟨67, _⟩ => ⟨S100000x40, .f32⟩
  | .hbm, ⟨68, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_cst : Ref sig .tc := ⟨.hbm, 54, rfl⟩
abbrev main_call1_v0 : Ref sig .tc := ⟨.hbm, 55, rfl⟩
abbrev main_call1_cst_0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_cst_1 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_v39 : Ref sig .tc := ⟨.hbm, 68, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run with its result named. Every weakly fair execution of @main — five stretches of host
  operations and six kernel regions — terminates without a fault, the arguments end as launched, and the result buffer
  ends at what the last region's boundary contents hold there: the fold of the host stretches and of the regions'
  write-backs from the launch memory.
-/
import proofs.«168604_j28321014350089_1_alg».proof.Proof.Gen.KernelIdeal.Frame

set_option maxRecDepth 16384

noncomputable section

namespace Cert.KernelIdeal.Named

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the seven arguments unchanged. -/
theorem run_named : θ_run defs (onTc (τ := τ) (main (F := F))) ⟨m, fun _ => 0, ρ⟩ (fun r => ∀ c : Dev nD,
      r.2.mem ((c.tc : Thread nD τ).loc main_v32) = W11 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v32 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.Named

end
-- ==== Proof.Spec.lean ====
/-
  A two-layer graph convolution, entry by entry, on arrays of extended reals.

  One layer takes node features `H : [N, d]`, multiplies them by a weight matrix, sends along every edge `e` the
  source node's row scaled by the edge's weight, sums at every node the rows arriving there, and adds a bias row.
  Which row an edge reads and which node it adds to is decided by the edge list; the two operations that consult
  the list — `gat`, reading a row per edge, and `sca`, summing the edges' rows per node — stay parameters here,
  because both programs apply the very same ones. Everything else is spelt out below: the matrix product, the
  scaling of row `e` by the weight `w e`, the bias added to every row, the positive part, and the logarithm of the
  row-wise softmax taken about the row's maximum.
-/
import Idealize.ShloMosaic.PureOps.Ideal
import Idealize.ShloMosaic.Lib.ValueIdx

noncomputable section

namespace Cert.Gcn

open Idealize.ShloMosaic Idealize.ShloMosaic.ValueIdx

/-- The product of an `[n, k]` and a `[k, f]` matrix: entry `(r, c)` is `∑ j, A (r, j) * B (j, c)`. -/
def matProd {n k f : ℕ} (A : (⟨2, ![n, k]⟩ : Shape).Idx → EReal) (B : (⟨2, ![k, f]⟩ : Shape).Idx → EReal) :
    (⟨2, ![n, f]⟩ : Shape).Idx → EReal :=
  fun i => ∑ j : Fin k, A (ix2 (i 0) j) * B (ix2 j (i 1))

/-- Row `r` of `U` multiplied by the weight of row `r`, the weights given as a one-column matrix. -/
def scaleByCol {e f : ℕ} (U : (⟨2, ![e, f]⟩ : Shape).Idx → EReal) (wc : (⟨2, ![e, 1]⟩ : Shape).Idx → EReal) :
    (⟨2, ![e, f]⟩ : Shape).Idx → EReal :=
  fun i => U i * wc (ix2 (i 0) (0 : Fin 1))

/-- A row vector, given as a one-row matrix, added to every row of `A`. -/
def addRow {n f : ℕ} (A : (⟨2, ![n, f]⟩ : Shape).Idx → EReal) (br : (⟨2, ![1, f]⟩ : Shape).Idx → EReal) :
    (⟨2, ![n, f]⟩ : Shape).Idx → EReal :=
  fun i => A i + br (ix2 (0 : Fin 1) (i 1))

/-- The positive part, entry by entry. -/
def posPart {s : Shape} (A : s.Idx → EReal) : s.Idx → EReal := fun i => max (A i) 0

/-- The largest entry of row `r` (`⊥` for an empty row). -/
def rowMax {n f : ℕ} (x : (⟨2, ![n, f]⟩ : Shape).Idx → EReal) (r : Fin n) : EReal :=
  (Finset.univ : Finset (Fin f)).fold max ⊥ fun k => x (ix2 r k)

/-- The logarithm of the softmax of every row, taken about the row's maximum `M`:
    `x (r, c) - M - log (∑ k, exp (x (r, k) - M))`. -/
def logSoftmaxRows {n f : ℕ} (x : (⟨2, ![n, f]⟩ : Shape).Idx → EReal) : (⟨2, ![n, f]⟩ : Shape).Idx → EReal :=
  fun i => x i - rowMax x (i 0) - Ideal.log (∑ k : Fin f, Ideal.exp (x (ix2 (i 0) k) - rowMax x (i 0)))

/-- An entry of `addRow`, the index written by its coordinates. -/
theorem addRow_ix2 {n f : ℕ} (A : (⟨2, ![n, f]⟩ : Shape).Idx → EReal) (br : (⟨2, ![1, f]⟩ : Shape).Idx → EReal)
    (r : Fin n) (k : Fin f) : addRow A br (ix2 r k) = A (ix2 r k) + br (ix2 (0 : Fin 1) k) := rfl

/-- The log-softmax of a row reads that row only: two matrices, of any heights, that agree on a row of each have the
    same log-softmax along it. -/
theorem logSoftmaxRows_congr_row {n n' f : ℕ} (x : (⟨2, ![n, f]⟩ : Shape).Idx → EReal)
    (x' : (⟨2, ![n', f]⟩ : Shape).Idx → EReal) (r : Fin n) (r' : Fin n')
    (h : ∀ k : Fin f, x (ix2 r k) = x' (ix2 r' k)) (q : Fin f) :
    logSoftmaxRows x (ix2 r q) = logSoftmaxRows x' (ix2 r' q) := by
  have hM : rowMax x r = rowMax x' r' := by
    unfold rowMax
    exact congrArg (fun g => (Finset.univ : Finset (Fin f)).fold max ⊥ g) (funext h)
  show x (ix2 r q) - rowMax x r - Ideal.log (∑ k : Fin f, Ideal.exp (x (ix2 r k) - rowMax x r))
     = x' (ix2 r' q) - rowMax x' r' - Ideal.log (∑ k : Fin f, Ideal.exp (x' (ix2 r' k) - rowMax x' r'))
  rw [hM, h q]
  exact congrArg (fun s => x' (ix2 r' q) - rowMax x' r' - Ideal.log s)
    (Finset.sum_congr rfl fun k _ => by rw [h k])

/-- The network: two layers (`gat₁`, `sca₁` over 128 features; `gat₂`, `sca₂` over 40), the positive part between
    them, the row-wise log-softmax at the end. `wc` holds the edge weights as a column, `b1` and `b2` the biases as rows. -/
def net
    (gat₁ : ((⟨2, ![100000, 128]⟩ : Shape).Idx → EReal) → (⟨2, ![1600000, 128]⟩ : Shape).Idx → EReal)
    (sca₁ : ((⟨2, ![1600000, 128]⟩ : Shape).Idx → EReal) → (⟨2, ![100000, 128]⟩ : Shape).Idx → EReal)
    (gat₂ : ((⟨2, ![100000, 40]⟩ : Shape).Idx → EReal) → (⟨2, ![1600000, 40]⟩ : Shape).Idx → EReal)
    (sca₂ : ((⟨2, ![1600000, 40]⟩ : Shape).Idx → EReal) → (⟨2, ![100000, 40]⟩ : Shape).Idx → EReal)
    (X : (⟨2, ![100000, 512]⟩ : Shape).Idx → EReal) (wc : (⟨2, ![1600000, 1]⟩ : Shape).Idx → EReal)
    (W1 : (⟨2, ![512, 128]⟩ : Shape).Idx → EReal) (b1 : (⟨2, ![1, 128]⟩ : Shape).Idx → EReal)
    (W2 : (⟨2, ![128, 40]⟩ : Shape).Idx → EReal) (b2 : (⟨2, ![1, 40]⟩ : Shape).Idx → EReal) :
    (⟨2, ![100000, 40]⟩ : Shape).Idx → EReal :=
  logSoftmaxRows (addRow (sca₂ (scaleByCol (gat₂ (matProd (posPart (addRow (sca₁ (scaleByCol (gat₁ (matProd X W1)) wc)) b1)) W2)) wc)) b2)

end Cert.Gcn

end
-- ==== Proof.KernelHost.lean ====
/-
  The host operations between the kernel regions, read as functions. From any buffer contents `W`: the first stretch
  cuts the edge list into its row of source nodes and its row of target nodes and lays the edge weights out as a column;
  the stretch before each edge-weighting region wraps negative source nodes around (`s < 0 ↦ s + 100000`) and reads the
  source node's row of the features for every edge; the stretch after it adds every edge's row into its target node's
  row of a zero matrix, and lays the bias out as a row. No stretch writes a buffer a later one still reads.
-/
import proofs.«168604_j28321014350089_1_alg».proof.Proof.Gen.KernelIdeal.Launch
import Idealize.ShloMosaic.Lib.StableHlo.Run

noncomputable section

namespace Cert.KernelIdeal.HostOps

open Cert.KernelIdeal Cert.KernelIdeal.Gen Idealize.ShloMosaic Idealize.ShloMosaic.TcCoe Idealize.SL.Sem
open Idealize.ShloMosaic.StableHlo

variable {F : FTy → Type} [FloatOps F]

/-- Row `0` of the `[2, E]` edge list, as a vector: the edges' source nodes. -/
def srcRow (idx : (⟨S2x1600000, .i32⟩ : BufTy).Contents (Elt F)) : (⟨S1600000, .i32⟩ : BufTy).Contents (Elt F) :=
  shapeCast S1600000 (extractStridedSlice S1x1600000 ![0, 0] idx slices_S2x1600000_S1x1600000_0_0) shapeCasts_S1x1600000_S1600000

/-- Row `1` of the edge list: the edges' target nodes. -/
def dstRow (idx : (⟨S2x1600000, .i32⟩ : BufTy).Contents (Elt F)) : (⟨S1600000, .i32⟩ : BufTy).Contents (Elt F) :=
  shapeCast S1600000 (extractStridedSlice S1x1600000 ![1, 0] idx slices_S2x1600000_S1x1600000_1_0) shapeCasts_S1x1600000_S1600000

/-- The source nodes with the negative ones wrapped around (`s < 0 ↦ s + 100000`), as a column of row indices. -/
def wrapCol (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- A vector of nodes as a column of row indices. -/
def asCol (d : (⟨S1600000, .i32⟩ : BufTy).Contents (Elt F)) : (⟨S1600000x1, .i32⟩ : BufTy).Contents (Elt F) :=
  broadcastInDim S1600000x1 ![0] bcast_S1600000_S1600000x1_0 d

/-! ## Before the first region -/

theorem host0_v1 (W : Valuation τ sig (Elt F)) :
    after (hostOps0 (F := F)) W (Proc.devRef .tc main_v1) = srcRow (F := F) (W (Proc.devRef .tc main_arg1)) := by
  dsimp only [hostOps0]; after_results; rfl
theorem host0_v3 (W : Valuation τ sig (Elt F)) :
    after (hostOps0 (F := F)) W (Proc.devRef .tc main_v3) = dstRow (F := F) (W (Proc.devRef .tc main_arg1)) := by
  dsimp only [hostOps0]; after_results; rfl
theorem host0_v4 (W : Valuation τ sig (Elt F)) :
    after (hostOps0 (F := F)) W (Proc.devRef .tc main_v4)
      = (shapeCast S1600000x1 (W (Proc.devRef .tc main_arg2)) shapeCasts_S1600000_S1600000x1 : (⟨S1600000x1, .f32⟩ : BufTy).Contents (Elt F)) := by
  dsimp only [hostOps0]; after_results; rfl
theorem host0_keep_arg0 (W : Valuation τ sig (Elt F)) :
    after (hostOps0 (F := F)) W (Proc.devRef .tc main_arg0) = W (Proc.devRef .tc main_arg0) := by
  dsimp only [hostOps0]; after_results
theorem host0_keep_arg3 (W : Valuation τ sig (Elt F)) :
    after (hostOps0 (F := F)) W (Proc.devRef .tc main_arg3) = W (Proc.devRef .tc main_arg3) := by
  dsimp only [hostOps0]; after_results
theorem host0_keep_arg4 (W : Valuation τ sig (Elt F)) :
    after (hostOps0 (F := F)) W (Proc.devRef .tc main_arg4) = W (Proc.devRef .tc main_arg4) := by
  dsimp only [hostOps0]; after_results
theorem host0_keep_arg5 (W : Valuation τ sig (Elt F)) :
    after (hostOps0 (F := F)) W (Proc.devRef .tc main_arg5) = W (Proc.devRef .tc main_arg5) := by
  dsimp only [hostOps0]; after_results
theorem host0_keep_arg6 (W : Valuation τ sig (Elt F)) :
    after (hostOps0 (F := F)) W (Proc.devRef .tc main_arg6) = W (Proc.devRef .tc main_arg6) := by
  dsimp only [hostOps0]; after_results

/-! ## Before the first edge-weighting region: the source nodes' rows of the first product -/

theorem host1_v12 (W : Valuation τ sig (Elt F)) :
    after (hostOps1 (F := F)) W (Proc.devRef .tc main_v12)
      = Host.gather gather_S100000x128_S1600000x1_S1600000x128_1_0_n_n_0_1_1128 (W (Proc.devRef .tc main_v5))
          (wrapCol (F := F) (W (Proc.devRef .tc main_v1))) := by
  dsimp only [hostOps1]; after_results; rfl
theorem host1_keep_v1 (W : Valuation τ sig (Elt F)) :
    after (hostOps1 (F := F)) W (Proc.devRef .tc main_v1) = W (Proc.devRef .tc main_v1) := by
  dsimp only [hostOps1]; after_results
theorem host1_keep_v3 (W : Valuation τ sig (Elt F)) :
    after (hostOps1 (F := F)) W (Proc.devRef .tc main_v3) = W (Proc.devRef .tc main_v3) := by
  dsimp only [hostOps1]; after_results
theorem host1_keep_v4 (W : Valuation τ sig (Elt F)) :
    after (hostOps1 (F := F)) W (Proc.devRef .tc main_v4) = W (Proc.devRef .tc main_v4) := by
  dsimp only [hostOps1]; after_results
theorem host1_keep_arg4 (W : Valuation τ sig (Elt F)) :
    after (hostOps1 (F := F)) W (Proc.devRef .tc main_arg4) = W (Proc.devRef .tc main_arg4) := by
  dsimp only [hostOps1]; after_results
theorem host1_keep_arg5 (W : Valuation τ sig (Elt F)) :
    after (hostOps1 (F := F)) W (Proc.devRef .tc main_arg5) = W (Proc.devRef .tc main_arg5) := by
  dsimp only [hostOps1]; after_results
theorem host1_keep_arg6 (W : Valuation τ sig (Elt F)) :
    after (hostOps1 (F := F)) W (Proc.devRef .tc main_arg6) = W (Proc.devRef .tc main_arg6) := by
  dsimp only [hostOps1]; after_results

/-! ## After it: the edges' rows summed at their target nodes, and the first bias as a row -/

theorem host2_v16 (W : Valuation τ sig (Elt F)) :
    after (hostOps2 (F := F)) W (Proc.devRef .tc main_v16)
      = Host.scatterAdd scatter_S100000x128_S1600000x1_S1600000x128_1_0_0_1
          (broadcastInDim S100000x128 ![] bcast_S_S100000x128 (constant (F := F) S_ .f32 0x00000000#32))
          (asCol (F := F) (W (Proc.devRef .tc main_v3))) (W (Proc.devRef .tc main_v13)) := by
  dsimp only [hostOps2]; after_results; rfl
theorem host2_v17 (W : Valuation τ sig (Elt F)) :
    after (hostOps2 (F := F)) W (Proc.devRef .tc main_v17)
      = (shapeCast S1x128 (W (Proc.devRef .tc main_arg4)) shapeCasts_S128_S1x128 : (⟨S1x128, .f32⟩ : BufTy).Contents (Elt F)) := by
  dsimp only [hostOps2]; after_results; rfl
theorem host2_keep_v1 (W : Valuation τ sig (Elt F)) :
    after (hostOps2 (F := F)) W (Proc.devRef .tc main_v1) = W (Proc.devRef .tc main_v1) := by
  dsimp only [hostOps2]; after_results
theorem host2_keep_v3 (W : Valuation τ sig (Elt F)) :
    after (hostOps2 (F := F)) W (Proc.devRef .tc main_v3) = W (Proc.devRef .tc main_v3) := by
  dsimp only [hostOps2]; after_results
theorem host2_keep_v4 (W : Valuation τ sig (Elt F)) :
    after (hostOps2 (F := F)) W (Proc.devRef .tc main_v4) = W (Proc.devRef .tc main_v4) := by
  dsimp only [hostOps2]; after_results
theorem host2_keep_arg5 (W : Valuation τ sig (Elt F)) :
    after (hostOps2 (F := F)) W (Proc.devRef .tc main_arg5) = W (Proc.devRef .tc main_arg5) := by
  dsimp only [hostOps2]; after_results
theorem host2_keep_arg6 (W : Valuation τ sig (Elt F)) :
    after (hostOps2 (F := F)) W (Proc.devRef .tc main_arg6) = W (Proc.devRef .tc main_arg6) := by
  dsimp only [hostOps2]; after_results

/-! ## Before the second edge-weighting region: the source nodes' rows of the second product -/

theorem host4_v26 (W : Valuation τ sig (Elt F)) :
    after (hostOps4 (F := F)) W (Proc.devRef .tc main_v26)
      = Host.gather gather_S100000x40_S1600000x1_S1600000x40_1_0_n_n_0_1_140 (W (Proc.devRef .tc main_v19))
          (wrapCol (F := F) (W (Proc.devRef .tc main_v1))) := by
  dsimp only [hostOps4]; after_results; rfl
theorem host4_keep_v3 (W : Valuation τ sig (Elt F)) :
    after (hostOps4 (F := F)) W (Proc.devRef .tc main_v3) = W (Proc.devRef .tc main_v3) := by
  dsimp only [hostOps4]; after_results
theorem host4_keep_v4 (W : Valuation τ sig (Elt F)) :
    after (hostOps4 (F := F)) W (Proc.devRef .tc main_v4) = W (Proc.devRef .tc main_v4) := by
  dsimp only [hostOps4]; after_results
theorem host4_keep_arg6 (W : Valuation τ sig (Elt F)) :
    after (hostOps4 (F := F)) W (Proc.devRef .tc main_arg6) = W (Proc.devRef .tc main_arg6) := by
  dsimp only [hostOps4]; after_results

/-! ## After it: the edges' rows summed at their target nodes, and the second bias as a row -/

theorem host5_v30 (W : Valuation τ sig (Elt F)) :
    after (hostOps5 (F := F)) W (Proc.devRef .tc main_v30)
      = Host.scatterAdd scatter_S100000x40_S1600000x1_S1600000x40_1_0_0_1
          (broadcastInDim S100000x40 ![] bcast_S_S100000x40 (constant (F := F) S_ .f32 0x00000000#32))
          (asCol (F := F) (W (Proc.devRef .tc main_v3))) (W (Proc.devRef .tc main_v27)) := by
  dsimp only [hostOps5]; after_results; rfl
theorem host5_v31 (W : Valuation τ sig (Elt F)) :
    after (hostOps5 (F := F)) W (Proc.devRef .tc main_v31)
      = (shapeCast S1x40 (W (Proc.devRef .tc main_arg6)) shapeCasts_S40_S1x40 : (⟨S1x40, .f32⟩ : BufTy).Contents (Elt F)) := by
  dsimp only [hostOps5]; after_results; rfl

end Cert.KernelIdeal.HostOps

end
-- ==== Proof.MatMul0.lean ====
/-
  A matrix product computed 4000 rows at a time. The grid has 25 points; point `t` holds rows `4000 t … 4000 t + 3999` of the
  left factor `[100000, 512]`, the whole right factor `[512, 128]`, and writes back the same rows of the product. An entry of
  the product only needs its own row of the left factor, so the array the region leaves is the product of the two arrays
  it found: on the extended reals the body's product into a zero accumulator is the plain sum over the 512 inner indices.
-/
import proofs.«168604_j28321014350089_1_alg».proof.Proof.Gen.KernelIdeal.Frame
import proofs.«168604_j28321014350089_1_alg».proof.Proof.Spec
import Idealize.ShloMosaic.Lib.Pipeline.Value
import Idealize.ShloMosaic.Lib.ValueIdx
import Idealize.ShloMosaic.PureOps.Ideal.Laws

noncomputable section

namespace Cert.KernelIdeal.MatMul0

open Cert.KernelIdeal Cert.KernelIdeal.Gen Idealize.ShloMosaic Idealize.ShloMosaic.TcCoe Idealize.SL.Sem
open Idealize.ShloMosaic.ValueIdx
open Idealize.ShloMosaic.Pipeline (Dat)

-- the contents of the TensorCore's buffers when the region is entered: a parameter
variable (V : (c : Dev nD) → (b : Ref sig .tc) → Buf (Elt Ideal) ((c : Thread nD τ).loc b))

theorem hz : (![0, 0] : Fin 2 → Nat) = fun _ => 0 := funext fun a => by fin_cases a <;> rfl

/-! The inner index of the body's product runs over the second axis of the left block and the first of the right. -/

theorem lhs0 (i : S4000x128.Idx) (q : dot_S4000x512_S512x128_S4000x128_1_0_0_1_n_n.contr.Idx) : (dot_S4000x512_S512x128_S4000x128_1_0_0_1_n_n.lhsIdx i q 0).val = (i 0).val := by
  unfold DotDims.lhsIdx
  rw [dif_neg (show ¬(0 : Fin S4000x512.rank) ∈ dot_S4000x512_S512x128_S4000x128_1_0_0_1_n_n.lhsBatch by decide), dif_pos (show (0 : Fin S4000x512.rank) ∈ dot_S4000x512_S512x128_S4000x128_1_0_0_1_n_n.lhsNonContracting by decide)]
  rfl
theorem lhs1 (i : S4000x128.Idx) (q : dot_S4000x512_S512x128_S4000x128_1_0_0_1_n_n.contr.Idx) : (dot_S4000x512_S512x128_S4000x128_1_0_0_1_n_n.lhsIdx i q 1).val = (q ⟨0, by decide⟩).val :=
  dot_S4000x512_S512x128_S4000x128_1_0_0_1_n_n.lhsIdx_val_of_single rfl i q
theorem rhs0 (i : S4000x128.Idx) (q : dot_S4000x512_S512x128_S4000x128_1_0_0_1_n_n.contr.Idx) : (dot_S4000x512_S512x128_S4000x128_1_0_0_1_n_n.rhsIdx i q 0).val = (q ⟨0, by decide⟩).val :=
  dot_S4000x512_S512x128_S4000x128_1_0_0_1_n_n.rhsIdx_val_of_single rfl i q
theorem rhs1 (i : S4000x128.Idx) (q : dot_S4000x512_S512x128_S4000x128_1_0_0_1_n_n.contr.Idx) : (dot_S4000x512_S512x128_S4000x128_1_0_0_1_n_n.rhsIdx i q 1).val = (i 1).val := by
  unfold DotDims.rhsIdx
  rw [dif_neg (show ¬(1 : Fin S512x128.rank) ∈ dot_S4000x512_S512x128_S4000x128_1_0_0_1_n_n.rhsBatch by decide), dif_pos (show (1 : Fin S512x128.rank) ∈ dot_S4000x512_S512x128_S4000x128_1_0_0_1_n_n.rhsNonContracting by decide)]
  rfl

/-- The body's product at an entry of the block: the sum over the inner index of the row's entries times the column's.
    (The change of format on the way in is the identity on the extended reals.) -/
theorem pay_apply (x0 : Vec Ideal S4000x512 .f32) (x1 : Vec Ideal S512x128 .f32) (p : Fin 4000) (q : Fin 128) :
    k0_pay1 x0 x1 (ix2 p q) = ∑ j : Fin 512, x0 (ix2 p j) * x1 (ix2 j q) := by
  show FloatOps.matmul dot_S4000x512_S512x128_S4000x128_1_0_0_1_n_n none (truncf .bf16 x0 bitsLt_bf16_f32)
      (truncf .bf16 x1 bitsLt_bf16_f32) (constant (F := Ideal) S4000x128 .f32 0x00000000#32) (ix2 p q) = _
  refine (Ideal.matmul_constant_zero_apply dot_S4000x512_S512x128_S4000x128_1_0_0_1_n_n none _ _ (ix2 p q)).trans ?_
  rw [← Equiv.sum_comp (ValueIdx.contrEquiv1 dot_S4000x512_S512x128_S4000x128_1_0_0_1_n_n 512 rfl rfl).symm]
  refine Finset.sum_congr rfl fun j _ => ?_
  have hk := ValueIdx.contrEquiv1_symm_val dot_S4000x512_S512x128_S4000x128_1_0_0_1_n_n 512 rfl rfl j
  have el : dot_S4000x512_S512x128_S4000x128_1_0_0_1_n_n.lhsIdx (ix2 p q) ((ValueIdx.contrEquiv1 dot_S4000x512_S512x128_S4000x128_1_0_0_1_n_n 512 rfl rfl).symm j) = ix2 p j :=
    funext fun a => Fin.ext (by
      match a with
      | ⟨0, _⟩ => exact lhs0 _ _
      | ⟨1, _⟩ => exact (lhs1 _ _).trans hk)
  have er : dot_S4000x512_S512x128_S4000x128_1_0_0_1_n_n.rhsIdx (ix2 p q) ((ValueIdx.contrEquiv1 dot_S4000x512_S512x128_S4000x128_1_0_0_1_n_n 512 rfl rfl).symm j) = ix2 j q :=
    funext fun a => Fin.ext (by
      match a with
      | ⟨0, _⟩ => exact (rhs0 _ _).trans hk
      | ⟨1, _⟩ => exact rhs1 _ _)
  rw [el, er]
  rfl

/-- The left factor's blocks and the result's move together down the rows (block `t` starts at row `4000 t`); the right
    factor is one block, the same at every point. Decided over the 25 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays. -/
theorem flushed_eq (c : Dev nD) (t : Fin cfg0.N) :
    (dat0 V c).flushed 2 t
      = ((cfg0.win 2).blk t).view.read (Elt Ideal) (Cert.Gcn.matProd (V c main_arg0) (V c main_arg3)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x128) hz]
  obtain ⟨e0, e1, e2, e3, e4, e5⟩ := idx_facts t
  refine funext fun (j : S4000x128.Idx) => ?_
  obtain ⟨p, q, rfl⟩ : ∃ (p : Fin 4000) (q : Fin 128), j = ix2 p q := ⟨j 0, j 1, eq_ix2 j⟩
  show k0_pay1 (iblk0 V c 0 t) (iblk0 V c 1 t) (ix2 p q)
    = Cert.Gcn.matProd (V c main_arg0) (V c main_arg3) (((cfg0.win 2).blk t).view.emb (ix2 p q))
  refine (pay_apply (iblk0 V c 0 t) (iblk0 V c 1 t) p q).trans ?_
  refine Finset.sum_congr rfl fun j _ => ?_
  have h0 : ((cfg0.win 0).blk t).view.emb (ix2 p j)
      = ix2 ((((cfg0.win 2).blk t).view.emb (ix2 p q)) 0) j := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 512 + 1 * j.val = j.val; omega
  have h1 : ((cfg0.win 1).blk t).view.emb (ix2 j q)
      = ix2 j ((((cfg0.win 2).blk t).view.emb (ix2 p q)) 1) := by
    funext a; apply Fin.ext
    match a with
    | ⟨0, _⟩ => show win0_1.index t (0 : Fin 2) * 512 + 1 * j.val = j.val; omega
    | ⟨1, _⟩ => show win0_1.index t (1 : Fin 2) * 128 + 1 * q.val = win0_2.index t (1 : Fin 2) * 128 + 1 * q.val; omega
  have r0 : iblk0 V c 0 t (ix2 p j)
      = (V c main_arg0 : S100000x512.Idx → EReal) (ix2 ((((cfg0.win 2).blk t).view.emb (ix2 p q)) 0) j) := by
    exact congrArg (V c main_arg0 : S100000x512.Idx → EReal) h0
  have r1 : iblk0 V c 1 t (ix2 j q)
      = (V c main_arg3 : S512x128.Idx → EReal) (ix2 j ((((cfg0.win 2).blk t).view.emb (ix2 p q)) 1)) := by
    exact congrArg (V c main_arg3 : S512x128.Idx → EReal) h1
  rw [r0, r1] <;> rfl

/-- An index of the result is in point `t`'s block iff each coordinate lies in the block's range on its axis. -/
theorem mem_blk (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v5).slice (win0_2.rect t)).set ↔ _
  rw [View.set_slice_whole, Rect.mem_set_unit]
  exact Iff.rfl

/-- Every row lies in the block of its quotient by 4000: the blocks cover the whole result. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 25 := N_0
  have ht : (i 0).val / 4000 < cfg0.N := by show (i 0).val / 4000 < grid0.N; rw [hN]; omega
  obtain ⟨e0, e1, e2, e3, e4, e5⟩ := idx_facts ⟨(i 0).val / 4000, ht⟩
  refine ⟨⟨(i 0).val / 4000, ht⟩, flush0_2 _, ?_⟩
  rw [mem_blk]
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, ht⟩ (1 : Fin 2) * 128 ≤ (i 1).val
      ∧ (i 1).val < win0_2.index ⟨(i 0).val / 4000, ht⟩ (1 : Fin 2) * 128 + 128
    rw [e5]; omega

/-- The array the region leaves: the product of the two arrays it found. -/
theorem final (c : Dev nD) :
    (dat0 V c).arrAt 2 cfg0.N = Cert.Gcn.matProd (V c main_arg0) (V c main_arg3) :=
  (dat0 V c).arrAt_eq_of_cover 2 _ (fun t _ => flushed_eq V c t) cover

end Cert.KernelIdeal.MatMul0

end
-- ==== Proof.LibKeepdims.lean ====
/-
  Layout operations a keepdims reduction meets, read at an index written by coordinates: a vector cast to a one-column
  matrix, a one-column matrix broadcast along its rows, a vector seen as a [1, 1, a] block and back, and a load through a
  unit-stride rectangle that offsets only the last axis of a rank-3 block.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` block cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` vector cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A load through the unit-stride rectangle of sizes `[n0, n1, m]` at offsets `[0, 0, o]` of an `[n0, n1, n2]` block
    reads, at `(a, b, j)`, the block at `(a, b, o + j)`. -/
theorem ld_last3_apply {Val : EltTy → Type} {e : EltTy} {n0 n1 n2 m : ℕ} (o : ℕ) (X : (⟨3, ![n0, n1, n2]⟩ : Shape).Idx → Val e)
    (inb : ∀ a, (![0, 0, o] : Fin 3 → ℕ) a + (![n0, n1, m] : Fin 3 → ℕ) a ≤ (⟨3, ![n0, n1, n2]⟩ : Shape).size a)
    (a : Fin n0) (b : Fin n1) (j : Fin m) (k : Fin n2) (hk : k.val = o + j.val) :
    View.ld X (Rect.unit (s := ⟨3, ![n0, n1, n2]⟩) ![0, 0, o] ![n0, n1, m] inb) (ix3 a b j) = X (ix3 a b k) := by
  show X _ = X _
  refine congrArg X (funext fun ax => Fin.ext ?_)
  match ax with
  | ⟨0, _⟩ => show 0 + 1 * a.val = a.val; omega
  | ⟨1, _⟩ => show 0 + 1 * b.val = b.val; omega
  | ⟨2, _⟩ => show o + 1 * j.val = k.val; omega

end Idealize.ShloMosaic.Keepdims
-- ==== Proof.Scale1.lean ====
/-
  The edge-weighting step over 128 features. The grid has 200 points; point `t` holds rows `8000 t … 8000 t + 7999` of the
  gathered rows `[1600000, 128]` and of the weight column `[1600000, 1]`, and writes back the same rows of the result: every
  entry times the weight of its row. So the array the region leaves is `scaleByCol` of the two arrays it found.
-/
import proofs.«168604_j28321014350089_1_alg».proof.Proof.Gen.KernelIdeal.Frame
import proofs.«168604_j28321014350089_1_alg».proof.Proof.Spec
import proofs.«168604_j28321014350089_1_alg».proof.Proof.LibKeepdims
import Idealize.ShloMosaic.Lib.Pipeline.Value
import Idealize.ShloMosaic.Lib.ValueIdx
import Idealize.ShloMosaic.PureOps.Ideal.Laws

noncomputable section

namespace Cert.KernelIdeal.Scale1

open Cert.KernelIdeal Cert.KernelIdeal.Gen Idealize.ShloMosaic Idealize.ShloMosaic.TcCoe Idealize.SL.Sem
open Idealize.ShloMosaic.ValueIdx
open Idealize.ShloMosaic.Pipeline (Dat)

-- the contents of the TensorCore's buffers when the region is entered: a parameter
variable (V : (c : Dev nD) → (b : Ref sig .tc) → Buf (Elt Ideal) ((c : Thread nD τ).loc b))

theorem hz : (![0, 0] : Fin 2 → Nat) = fun _ => 0 := funext fun a => by fin_cases a <;> rfl

/-- The body's product at an entry of the block: the entry times the weight in its row. -/
theorem pay_apply (x0 : Vec Ideal S8000x128 .f32) (x1 : Vec Ideal S8000x1 .f32) (p : Fin 8000) (q : Fin 128) :
    k1_pay1 x0 x1 (ix2 p q) = x0 (ix2 p q) * x1 (ix2 p (0 : Fin 1)) := by
  unfold k1_pay1
  show shapeCast S8000x128 x0 _ (ix2 p q) * broadcastTo S8000x128 (shapeCast S8000x1 x1 _) _ (ix2 p q) = _
  rw [shapeCast_self, Keepdims.broadcastTo_a1_ab_apply, shapeCast_self]

/-- The three windows move together down the rows: block `t` of each starts at row `8000 t`; the weight column and the
    result have one block across. Decided over the 200 points. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the rows scaled by their weights. -/
theorem flushed_eq (c : Dev nD) (t : Fin cfg1.N) :
    (dat1 V c).flushed 2 t
      = ((cfg1.win 2).blk t).view.read (Elt Ideal) (Cert.Gcn.scaleByCol (V c main_v12) (V c main_v4)) := by
  show (cfg1.win 2).cut (grid1.coords t) ((dat1 V c).after 2 t) = _
  rw [after1_2]
  unfold out1_2
  rw [View.canon_unit_zero hz]
  simp only [View.ld_unit_zero (S := S8000x128) hz, View.ld_unit_zero (S := S8000x1) hz]
  obtain ⟨e0, e1, e2, e3, e4, e5⟩ := idx_facts t
  refine funext fun (j : S8000x128.Idx) => ?_
  obtain ⟨p, q, rfl⟩ : ∃ (p : Fin 8000) (q : Fin 128), j = ix2 p q := ⟨j 0, j 1, eq_ix2 j⟩
  show k1_pay1 (iblk1 V c 0 t) (iblk1 V c 1 t) (ix2 p q)
    = Cert.Gcn.scaleByCol (V c main_v12) (V c main_v4) (((cfg1.win 2).blk t).view.emb (ix2 p q))
  refine (pay_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 8000 + 1 * p.val = win1_2.index t (0 : Fin 2) * 8000 + 1 * p.val; omega
    | ⟨1, _⟩ => show win1_0.index t (1 : Fin 2) * 128 + 1 * q.val = win1_2.index t (1 : Fin 2) * 128 + 1 * q.val; omega
  have h1 : ((cfg1.win 1).blk t).view.emb (ix2 p (0 : Fin 1))
      = ix2 ((((cfg1.win 2).blk t).view.emb (ix2 p q)) 0) (0 : Fin 1) := by
    funext a; apply Fin.ext
    match a with
    | ⟨0, _⟩ => show win1_1.index t (0 : Fin 2) * 8000 + 1 * p.val = win1_2.index t (0 : Fin 2) * 8000 + 1 * p.val; omega
    | ⟨1, _⟩ => show win1_1.index t (1 : Fin 2) * 1 + 1 * 0 = 0; omega
  -- the two blocks' entries are the arrays' entries at the result's row
  have r0 : iblk1 V c 0 t (ix2 p q)
      = (V c main_v12 : S1600000x128.Idx → EReal) (((cfg1.win 2).blk t).view.emb (ix2 p q)) := by
    exact congrArg (V c main_v12 : S1600000x128.Idx → EReal) h0
  have r1 : iblk1 V c 1 t (ix2 p (0 : Fin 1))
      = (V c main_v4 : S1600000x1.Idx → EReal) (ix2 ((((cfg1.win 2).blk t).view.emb (ix2 p q)) 0) (0 : Fin 1)) := by
    exact congrArg (V c main_v4 : S1600000x1.Idx → EReal) h1
  rw [r0, r1] <;> rfl

/-- An index of the result is in point `t`'s block iff each coordinate lies in the block's range on its axis. -/
theorem mem_blk (t : Fin cfg1.N) (i : S1600000x128.Idx) :
    i ∈ ((cfg1.win 2).blk t).view.set ↔ ∀ a : Fin 2, win1_2.index t a * S8000x128.size a ≤ (i a).val
      ∧ (i a).val < win1_2.index t a * S8000x128.size a + S8000x128.size a := by
  show i ∈ ((View.whole main_v13).slice (win1_2.rect t)).set ↔ _
  rw [View.set_slice_whole, Rect.mem_set_unit]
  exact Iff.rfl

/-- Every row lies in exactly the block of its quotient by 8000: the blocks cover the whole result. -/
theorem cover (i : S1600000x128.Idx) :
    ∃ t : Fin cfg1.N, (cfg1.win 2).flush t = true ∧ i ∈ ((cfg1.win 2).blk t).view.set := by
  have hi0 : (i 0).val < 1600000 := (i 0).isLt
  have hi1 : (i 1).val < 128 := (i 1).isLt
  have hN : grid1.N = 200 := N_1
  have ht : (i 0).val / 8000 < cfg1.N := by show (i 0).val / 8000 < grid1.N; rw [hN]; omega
  obtain ⟨e0, e1, e2, e3, e4, e5⟩ := idx_facts ⟨(i 0).val / 8000, ht⟩
  refine ⟨⟨(i 0).val / 8000, ht⟩, flush1_2 _, ?_⟩
  rw [mem_blk]
  intro a
  match a with
  | ⟨0, _⟩ =>
    show win1_2.index ⟨(i 0).val / 8000, ht⟩ (0 : Fin 2) * 8000 ≤ (i 0).val
      ∧ (i 0).val < win1_2.index ⟨(i 0).val / 8000, ht⟩ (0 : Fin 2) * 8000 + 8000
    rw [e4]; show (i 0).val / 8000 * 8000 ≤ (i 0).val ∧ (i 0).val < (i 0).val / 8000 * 8000 + 8000; omega
  | ⟨1, _⟩ =>
    show win1_2.index ⟨(i 0).val / 8000, ht⟩ (1 : Fin 2) * 128 ≤ (i 1).val
      ∧ (i 1).val < win1_2.index ⟨(i 0).val / 8000, ht⟩ (1 : Fin 2) * 128 + 128
    rw [e5]; omega

/-- The array the region leaves: every gathered row times its edge's weight. -/
theorem final (c : Dev nD) :
    (dat1 V c).arrAt 2 cfg1.N = Cert.Gcn.scaleByCol (V c main_v12) (V c main_v4) :=
  (dat1 V c).arrAt_eq_of_cover 2 _ (fun t _ => flushed_eq V c t) cover

end Cert.KernelIdeal.Scale1

end
-- ==== Proof.BiasRelu2.lean ====
/-
  The bias and the positive part over 128 features. The grid has 20 points; point `t` holds rows `5000 t … 5000 t + 4999` of
  the aggregated rows `[100000, 128]` and the whole bias row `[1, 128]`, and writes back the same rows of the result: every
  entry plus its column's bias, or zero if that is below zero. So the array the region leaves is the positive part of
  the array it found with the bias row added to every row.
-/
import proofs.«168604_j28321014350089_1_alg».proof.Proof.Gen.KernelIdeal.Frame
import proofs.«168604_j28321014350089_1_alg».proof.Proof.Spec
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.BiasRelu2

open Cert.KernelIdeal Cert.KernelIdeal.Gen Idealize.ShloMosaic Idealize.ShloMosaic.TcCoe Idealize.SL.Sem
open Idealize.ShloMosaic.ValueIdx
open Idealize.ShloMosaic.Pipeline (Dat)

-- the contents of the TensorCore's buffers when the region is entered: a parameter
variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block: the entry plus its column's bias, cut off below at zero. -/
theorem pay_apply (x0 : FVec Ideal S5000x128 .f32) (x1 : FVec Ideal S1x128 .f32) (p : Fin 5000) (q : Fin 128) :
    k2_pay1 x0 x1 (ix2 p q) = max (x0 (ix2 p q) + x1 (ix2 (0 : Fin 1) q)) 0 := by
  show max (shapeCast S5000x128 x0 shapeCasts_S5000x128_S5000x128 (ix2 p q)
      + broadcastTo S5000x128 (shapeCast S1x128 x1 shapeCasts_S1x128_S1x128) broadcasts_S1x128_S5000x128 (ix2 p q))
    (Ideal.ofBits .f32 0x00000000#32) = _
  rw [shapeCast_self, broadcastTo_1b_ab_apply, shapeCast_self, Ideal.ofBits_zero_f32]

/-- The aggregated rows' blocks and the result's move together down the rows (block `t` starts at row `5000 t`); the bias
    row is one block, the same at every point. Decided over the 20 points. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the positive part of the biased rows. -/
theorem flushed_eq (c : Dev nD) (t : Fin cfg2.N) :
    (dat2 V c).flushed 2 t
      = ((cfg2.win 2).blk t).view.read (Elt Ideal) (Cert.Gcn.posPart (Cert.Gcn.addRow (V c main_v16) (V c main_v17))) := by
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  obtain ⟨e0, e1, e2, e3, e4, e5⟩ := idx_facts t
  refine funext fun (j : S5000x128.Idx) => ?_
  obtain ⟨p, q, rfl⟩ : ∃ (p : Fin 5000) (q : Fin 128), j = ix2 p q := ⟨j 0, j 1, eq_ix2 j⟩
  show k2_pay1 (iblk2 V c 0 t) (iblk2 V c 1 t) (ix2 p q)
    = Cert.Gcn.posPart (Cert.Gcn.addRow (V c main_v16) (V c main_v17)) (((cfg2.win 2).blk t).view.emb (ix2 p q))
  refine (pay_apply (iblk2 V c 0 t) (iblk2 V c 1 t) p q).trans ?_
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * q.val = win2_2.index t (1 : Fin 2) * 128 + 1 * q.val; omega
  have h1 : ((cfg2.win 1).blk t).view.emb (ix2 (0 : Fin 1) q)
      = ix2 (0 : Fin 1) ((((cfg2.win 2).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 128 + 1 * q.val = win2_2.index t (1 : Fin 2) * 128 + 1 * q.val; omega
  have r0 : iblk2 V c 0 t (ix2 p q)
      = (V c main_v16 : S100000x128.Idx → EReal) (((cfg2.win 2).blk t).view.emb (ix2 p q)) := by
    exact congrArg (V c main_v16 : S100000x128.Idx → EReal) h0
  have r1 : iblk2 V c 1 t (ix2 (0 : Fin 1) q)
      = (V c main_v17 : S1x128.Idx → EReal) (ix2 (0 : Fin 1) ((((cfg2.win 2).blk t).view.emb (ix2 p q)) 1)) := by
    exact congrArg (V c main_v17 : S1x128.Idx → EReal) h1
  rw [r0, r1] <;> rfl

/-- An index of the result is in point `t`'s block iff each coordinate lies in the block's range on its axis. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v18).slice (win2_2.rect t)).set ↔ _
  rw [View.set_slice_whole, Rect.mem_set_unit]
  exact Iff.rfl

/-- Every row lies in the block of its quotient by 5000: the blocks cover the whole result. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 20 := N_2
  have ht : (i 0).val / 5000 < cfg2.N := by show (i 0).val / 5000 < grid2.N; rw [hN]; omega
  obtain ⟨e0, e1, e2, e3, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]; omega

/-- The array the region leaves: the positive part of the aggregated rows plus the bias row. -/
theorem final (c : Dev nD) :
    (dat2 V c).arrAt 2 cfg2.N = Cert.Gcn.posPart (Cert.Gcn.addRow (V c main_v16) (V c main_v17)) :=
  (dat2 V c).arrAt_eq_of_cover 2 _ (fun t _ => flushed_eq V c t) cover

end Cert.KernelIdeal.BiasRelu2

end
-- ==== Proof.MatMul3.lean ====
/-
  A matrix product computed 5000 rows at a time. The grid has 20 points; point `t` holds rows `5000 t … 5000 t + 4999` of the
  left factor `[100000, 128]`, the whole right factor `[128, 40]`, and writes back the same rows of the product. An entry of
  the product only needs its own row of the left factor, so the array the region leaves is the product of the two arrays
  it found: on the extended reals the body's product into a zero accumulator is the plain sum over the 128 inner indices.
-/
import proofs.«168604_j28321014350089_1_alg».proof.Proof.Gen.KernelIdeal.Frame
import proofs.«168604_j28321014350089_1_alg».proof.Proof.Spec
import Idealize.ShloMosaic.Lib.Pipeline.Value
import Idealize.ShloMosaic.Lib.ValueIdx
import Idealize.ShloMosaic.PureOps.Ideal.Laws

noncomputable section

namespace Cert.KernelIdeal.MatMul3

open Cert.KernelIdeal Cert.KernelIdeal.Gen Idealize.ShloMosaic Idealize.ShloMosaic.TcCoe Idealize.SL.Sem
open Idealize.ShloMosaic.ValueIdx
open Idealize.ShloMosaic.Pipeline (Dat)

-- the contents of the TensorCore's buffers when the region is entered: a parameter
variable (V : (c : Dev nD) → (b : Ref sig .tc) → Buf (Elt Ideal) ((c : Thread nD τ).loc b))

theorem hz : (![0, 0] : Fin 2 → Nat) = fun _ => 0 := funext fun a => by fin_cases a <;> rfl

/-! The inner index of the body's product runs over the second axis of the left block and the first of the right. -/

theorem lhs0 (i : S5000x40.Idx) (q : dot_S5000x128_S128x40_S5000x40_1_0_0_1_n_n.contr.Idx) : (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs1 (i : S5000x40.Idx) (q : dot_S5000x128_S128x40_S5000x40_1_0_0_1_n_n.contr.Idx) : (dot_S5000x128_S128x40_S5000x40_1_0_0_1_n_n.lhsIdx i q 1).val = (q ⟨0, by decide⟩).val :=
  dot_S5000x128_S128x40_S5000x40_1_0_0_1_n_n.lhsIdx_val_of_single rfl i q
theorem rhs0 (i : S5000x40.Idx) (q : dot_S5000x128_S128x40_S5000x40_1_0_0_1_n_n.contr.Idx) : (dot_S5000x128_S128x40_S5000x40_1_0_0_1_n_n.rhsIdx i q 0).val = (q ⟨0, by decide⟩).val :=
  dot_S5000x128_S128x40_S5000x40_1_0_0_1_n_n.rhsIdx_val_of_single rfl i q
theorem rhs1 (i : S5000x40.Idx) (q : dot_S5000x128_S128x40_S5000x40_1_0_0_1_n_n.contr.Idx) : (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The body's product at an entry of the block: the sum over the inner index of the row's entries times the column's.
    (The change of format on the way in is the identity on the extended reals.) -/
theorem pay_apply (x0 : Vec Ideal S5000x128 .f32) (x1 : Vec Ideal S128x40 .f32) (p : Fin 5000) (q : Fin 40) :
    k3_pay1 x0 x1 (ix2 p q) = ∑ j : Fin 128, x0 (ix2 p j) * x1 (ix2 j q) := by
  show FloatOps.matmul dot_S5000x128_S128x40_S5000x40_1_0_0_1_n_n none (truncf .bf16 (shapeCast S5000x128 x0 shapeCasts_S5000x128_S5000x128) bitsLt_bf16_f32)
      (truncf .bf16 x1 bitsLt_bf16_f32) (constant (F := Ideal) S5000x40 .f32 0x00000000#32) (ix2 p q) = _
  refine (Ideal.matmul_constant_zero_apply dot_S5000x128_S128x40_S5000x40_1_0_0_1_n_n none _ _ (ix2 p q)).trans ?_
  rw [← Equiv.sum_comp (ValueIdx.contrEquiv1 dot_S5000x128_S128x40_S5000x40_1_0_0_1_n_n 128 rfl rfl).symm]
  refine Finset.sum_congr rfl fun j _ => ?_
  have hk := ValueIdx.contrEquiv1_symm_val dot_S5000x128_S128x40_S5000x40_1_0_0_1_n_n 128 rfl rfl j
  have el : dot_S5000x128_S128x40_S5000x40_1_0_0_1_n_n.lhsIdx (ix2 p q) ((ValueIdx.contrEquiv1 dot_S5000x128_S128x40_S5000x40_1_0_0_1_n_n 128 rfl rfl).symm j) = ix2 p j :=
    funext fun a => Fin.ext (by
      match a with
      | ⟨0, _⟩ => exact lhs0 _ _
      | ⟨1, _⟩ => exact (lhs1 _ _).trans hk)
  have er : dot_S5000x128_S128x40_S5000x40_1_0_0_1_n_n.rhsIdx (ix2 p q) ((ValueIdx.contrEquiv1 dot_S5000x128_S128x40_S5000x40_1_0_0_1_n_n 128 rfl rfl).symm j) = ix2 j q :=
    funext fun a => Fin.ext (by
      match a with
      | ⟨0, _⟩ => exact (rhs0 _ _).trans hk
      | ⟨1, _⟩ => exact rhs1 _ _)
  rw [el, er]
  show shapeCast S5000x128 x0 shapeCasts_S5000x128_S5000x128 (ix2 p j) * x1 (ix2 j q) = _
  rw [shapeCast_self]

/-- The left factor's blocks and the result's move together down the rows (block `t` starts at row `5000 t`); the right
    factor is one block, the same at every point. Decided over the 20 points. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the two arrays. -/
theorem flushed_eq (c : Dev nD) (t : Fin cfg3.N) :
    (dat3 V c).flushed 2 t
      = ((cfg3.win 2).blk t).view.read (Elt Ideal) (Cert.Gcn.matProd (V c main_v18) (V c main_arg5)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x40) hz]
  obtain ⟨e0, e1, e2, e3, e4, e5⟩ := idx_facts t
  refine funext fun (j : S5000x40.Idx) => ?_
  obtain ⟨p, q, rfl⟩ : ∃ (p : Fin 5000) (q : Fin 40), j = ix2 p q := ⟨j 0, j 1, eq_ix2 j⟩
  show k3_pay1 (iblk3 V c 0 t) (iblk3 V c 1 t) (ix2 p q)
    = Cert.Gcn.matProd (V c main_v18) (V c main_arg5) (((cfg3.win 2).blk t).view.emb (ix2 p q))
  refine (pay_apply (iblk3 V c 0 t) (iblk3 V c 1 t) p q).trans ?_
  refine Finset.sum_congr rfl fun j _ => ?_
  have h0 : ((cfg3.win 0).blk t).view.emb (ix2 p j)
      = ix2 ((((cfg3.win 2).blk t).view.emb (ix2 p q)) 0) j := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * j.val = j.val; omega
  have h1 : ((cfg3.win 1).blk t).view.emb (ix2 j q)
      = ix2 j ((((cfg3.win 2).blk t).view.emb (ix2 p q)) 1) := by
    funext a; apply Fin.ext
    match a with
    | ⟨0, _⟩ => show win3_1.index t (0 : Fin 2) * 128 + 1 * j.val = j.val; omega
    | ⟨1, _⟩ => show win3_1.index t (1 : Fin 2) * 40 + 1 * q.val = win3_2.index t (1 : Fin 2) * 40 + 1 * q.val; omega
  have r0 : iblk3 V c 0 t (ix2 p j)
      = (V c main_v18 : S100000x128.Idx → EReal) (ix2 ((((cfg3.win 2).blk t).view.emb (ix2 p q)) 0) j) := by
    exact congrArg (V c main_v18 : S100000x128.Idx → EReal) h0
  have r1 : iblk3 V c 1 t (ix2 j q)
      = (V c main_arg5 : S128x40.Idx → EReal) (ix2 j ((((cfg3.win 2).blk t).view.emb (ix2 p q)) 1)) := by
    exact congrArg (V c main_arg5 : S128x40.Idx → EReal) h1
  rw [r0, r1] <;> rfl

/-- An index of the result is in point `t`'s block iff each coordinate lies in the block's range on its axis. -/
theorem mem_blk (t : Fin cfg3.N) (i : S100000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v19).slice (win3_2.rect t)).set ↔ _
  rw [View.set_slice_whole, Rect.mem_set_unit]
  exact Iff.rfl

/-- Every row lies in the block of its quotient by 5000: the blocks cover the whole result. -/
theorem cover (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  have hN : grid3.N = 20 := N_3
  have ht : (i 0).val / 5000 < cfg3.N := by show (i 0).val / 5000 < grid3.N; rw [hN]; omega
  obtain ⟨e0, e1, e2, e3, e4, e5⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 40 ≤ (i 1).val
      ∧ (i 1).val < win3_2.index ⟨(i 0).val / 5000, ht⟩ (1 : Fin 2) * 40 + 40
    rw [e5]; omega

/-- The array the region leaves: the product of the two arrays it found. -/
theorem final (c : Dev nD) :
    (dat3 V c).arrAt 2 cfg3.N = Cert.Gcn.matProd (V c main_v18) (V c main_arg5) :=
  (dat3 V c).arrAt_eq_of_cover 2 _ (fun t _ => flushed_eq V c t) cover

end Cert.KernelIdeal.MatMul3

end
-- ==== Proof.Scale4.lean ====
/-
  The edge-weighting step over 40 features. The grid has 200 points; point `t` holds rows `8000 t … 8000 t + 7999` of the
  gathered rows `[1600000, 40]` and of the weight column `[1600000, 1]`, and writes back the same rows of the result: every
  entry times the weight of its row. So the array the region leaves is `scaleByCol` of the two arrays it found.
-/
import proofs.«168604_j28321014350089_1_alg».proof.Proof.Gen.KernelIdeal.Frame
import proofs.«168604_j28321014350089_1_alg».proof.Proof.Spec
import proofs.«168604_j28321014350089_1_alg».proof.Proof.LibKeepdims
import Idealize.ShloMosaic.Lib.Pipeline.Value
import Idealize.ShloMosaic.Lib.ValueIdx
import Idealize.ShloMosaic.PureOps.Ideal.Laws

noncomputable section

namespace Cert.KernelIdeal.Scale4

open Cert.KernelIdeal Cert.KernelIdeal.Gen Idealize.ShloMosaic Idealize.ShloMosaic.TcCoe Idealize.SL.Sem
open Idealize.ShloMosaic.ValueIdx
open Idealize.ShloMosaic.Pipeline (Dat)

-- the contents of the TensorCore's buffers when the region is entered: a parameter
variable (V : (c : Dev nD) → (b : Ref sig .tc) → Buf (Elt Ideal) ((c : Thread nD τ).loc b))

theorem hz : (![0, 0] : Fin 2 → Nat) = fun _ => 0 := funext fun a => by fin_cases a <;> rfl

/-- The body's product at an entry of the block: the entry times the weight in its row. -/
theorem pay_apply (x0 : Vec Ideal S8000x40 .f32) (x1 : Vec Ideal S8000x1 .f32) (p : Fin 8000) (q : Fin 40) :
    k4_pay1 x0 x1 (ix2 p q) = x0 (ix2 p q) * x1 (ix2 p (0 : Fin 1)) := by
  unfold k4_pay1
  show shapeCast S8000x40 x0 _ (ix2 p q) * broadcastTo S8000x40 (shapeCast S8000x1 x1 _) _ (ix2 p q) = _
  rw [shapeCast_self, Keepdims.broadcastTo_a1_ab_apply, shapeCast_self]

/-- The three windows move together down the rows: block `t` of each starts at row `8000 t`; the weight column and the
    result have one block across. Decided over the 200 points. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the rows scaled by their weights. -/
theorem flushed_eq (c : Dev nD) (t : Fin cfg4.N) :
    (dat4 V c).flushed 2 t
      = ((cfg4.win 2).blk t).view.read (Elt Ideal) (Cert.Gcn.scaleByCol (V c main_v26) (V c main_v4)) := by
  show (cfg4.win 2).cut (grid4.coords t) ((dat4 V c).after 2 t) = _
  rw [after4_2]
  unfold out4_2
  rw [View.canon_unit_zero hz]
  simp only [View.ld_unit_zero (S := S8000x40) hz, View.ld_unit_zero (S := S8000x1) hz]
  obtain ⟨e0, e1, e2, e3, e4, e5⟩ := idx_facts t
  refine funext fun (j : S8000x40.Idx) => ?_
  obtain ⟨p, q, rfl⟩ : ∃ (p : Fin 8000) (q : Fin 40), j = ix2 p q := ⟨j 0, j 1, eq_ix2 j⟩
  show k4_pay1 (iblk4 V c 0 t) (iblk4 V c 1 t) (ix2 p q)
    = Cert.Gcn.scaleByCol (V c main_v26) (V c main_v4) (((cfg4.win 2).blk t).view.emb (ix2 p q))
  refine (pay_apply (iblk4 V c 0 t) (iblk4 V c 1 t) p q).trans ?_
  have h0 : ((cfg4.win 0).blk t).view.emb (ix2 p q) = ((cfg4.win 2).blk t).view.emb (ix2 p q) := by
    funext a; apply Fin.ext
    match a with
    | ⟨0, _⟩ => show win4_0.index t (0 : Fin 2) * 8000 + 1 * p.val = win4_2.index t (0 : Fin 2) * 8000 + 1 * p.val; omega
    | ⟨1, _⟩ => show win4_0.index t (1 : Fin 2) * 40 + 1 * q.val = win4_2.index t (1 : Fin 2) * 40 + 1 * q.val; omega
  have h1 : ((cfg4.win 1).blk t).view.emb (ix2 p (0 : Fin 1))
      = ix2 ((((cfg4.win 2).blk t).view.emb (ix2 p q)) 0) (0 : Fin 1) := by
    funext a; apply Fin.ext
    match a with
    | ⟨0, _⟩ => show win4_1.index t (0 : Fin 2) * 8000 + 1 * p.val = win4_2.index t (0 : Fin 2) * 8000 + 1 * p.val; omega
    | ⟨1, _⟩ => show win4_1.index t (1 : Fin 2) * 1 + 1 * 0 = 0; omega
  -- the two blocks' entries are the arrays' entries at the result's row
  have r0 : iblk4 V c 0 t (ix2 p q)
      = (V c main_v26 : S1600000x40.Idx → EReal) (((cfg4.win 2).blk t).view.emb (ix2 p q)) := by
    exact congrArg (V c main_v26 : S1600000x40.Idx → EReal) h0
  have r1 : iblk4 V c 1 t (ix2 p (0 : Fin 1))
      = (V c main_v4 : S1600000x1.Idx → EReal) (ix2 ((((cfg4.win 2).blk t).view.emb (ix2 p q)) 0) (0 : Fin 1)) := by
    exact congrArg (V c main_v4 : S1600000x1.Idx → EReal) h1
  rw [r0, r1] <;> rfl

/-- An index of the result is in point `t`'s block iff each coordinate lies in the block's range on its axis. -/
theorem mem_blk (t : Fin cfg4.N) (i : S1600000x40.Idx) :
    i ∈ ((cfg4.win 2).blk t).view.set ↔ ∀ a : Fin 2, win4_2.index t a * S8000x40.size a ≤ (i a).val
      ∧ (i a).val < win4_2.index t a * S8000x40.size a + S8000x40.size a := by
  show i ∈ ((View.whole main_v27).slice (win4_2.rect t)).set ↔ _
  rw [View.set_slice_whole, Rect.mem_set_unit]
  exact Iff.rfl

/-- Every row lies in exactly the block of its quotient by 8000: the blocks cover the whole result. -/
theorem cover (i : S1600000x40.Idx) :
    ∃ t : Fin cfg4.N, (cfg4.win 2).flush t = true ∧ i ∈ ((cfg4.win 2).blk t).view.set := by
  have hi0 : (i 0).val < 1600000 := (i 0).isLt
  have hi1 : (i 1).val < 40 := (i 1).isLt
  have hN : grid4.N = 200 := N_4
  have ht : (i 0).val / 8000 < cfg4.N := by show (i 0).val / 8000 < grid4.N; rw [hN]; omega
  obtain ⟨e0, e1, e2, e3, e4, e5⟩ := idx_facts ⟨(i 0).val / 8000, ht⟩
  refine ⟨⟨(i 0).val / 8000, ht⟩, flush4_2 _, ?_⟩
  rw [mem_blk]
  intro a
  match a with
  | ⟨0, _⟩ =>
    show win4_2.index ⟨(i 0).val / 8000, ht⟩ (0 : Fin 2) * 8000 ≤ (i 0).val
      ∧ (i 0).val < win4_2.index ⟨(i 0).val / 8000, ht⟩ (0 : Fin 2) * 8000 + 8000
    rw [e4]; show (i 0).val / 8000 * 8000 ≤ (i 0).val ∧ (i 0).val < (i 0).val / 8000 * 8000 + 8000; omega
  | ⟨1, _⟩ =>
    show win4_2.index ⟨(i 0).val / 8000, ht⟩ (1 : Fin 2) * 40 ≤ (i 1).val
      ∧ (i 1).val < win4_2.index ⟨(i 0).val / 8000, ht⟩ (1 : Fin 2) * 40 + 40
    rw [e5]; omega

/-- The array the region leaves: every gathered row times its edge's weight. -/
theorem final (c : Dev nD) :
    (dat4 V c).arrAt 2 cfg4.N = Cert.Gcn.scaleByCol (V c main_v26) (V c main_v4) :=
  (dat4 V c).arrAt_eq_of_cover 2 _ (fun t _ => flushed_eq V c t) cover

end Cert.KernelIdeal.Scale4

end
-- ==== Proof.LogSoftmax5.lean ====
/-
  The last bias and the row-wise log-softmax over 40 classes. The grid has 10 points; point `t` holds rows
  `10000 t … 10000 t + 9999` of the aggregated rows `[100000, 40]` and the whole bias row `[1, 40]`. The body adds the bias,
  takes each row's maximum `M` (from `-∞`), and writes `x - M - log (∑ exp (x - M))` along the row. A row's result reads that
  row only, so the array the region leaves is the row-wise log-softmax of the array it found plus the bias row.
-/
import proofs.«168604_j28321014350089_1_alg».proof.Proof.Gen.KernelIdeal.Frame
import proofs.«168604_j28321014350089_1_alg».proof.Proof.Spec
import proofs.«168604_j28321014350089_1_alg».proof.Proof.LibKeepdims
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.LogSoftmax5

open Cert.KernelIdeal Cert.KernelIdeal.Gen Idealize.ShloMosaic Idealize.ShloMosaic.TcCoe Idealize.SL.Sem
open Idealize.ShloMosaic.ValueIdx
open Idealize.ShloMosaic.Pipeline (Dat)

-- the contents of the TensorCore's buffers when the region is entered: a parameter
variable (V : (c : Dev nD) → (b : Ref sig .tc) → Buf (Elt Ideal) ((c : Thread nD τ).loc b))

theorem hz : (![0, 0] : Fin 2 → Nat) = fun _ => 0 := funext fun a => by fin_cases a <;> rfl

/-! ## The body on one block, piece by piece -/

/-- The block with the bias row added. -/
def biased (x0 : FVec Ideal S10000x40 .f32) (x1 : FVec Ideal S1x40 .f32) : FVec Ideal S10000x40 .f32 :=
  addf (shapeCast S10000x40 x0 shapeCasts_S10000x40_S10000x40)
    (broadcastTo S10000x40 (shapeCast S1x40 x1 shapeCasts_S1x40_S1x40) broadcasts_S1x40_S10000x40)

/-- Each row's maximum, as the body reduces it over the 40 lanes from `-∞`. -/
def rowMaxV (y : FVec Ideal S10000x40 .f32) : FVec Ideal S10000 .f32 :=
  multiReduction .maximumf [1] S10000 y 0xFF800000#32 reduces_S10000x40_S10000 (.inl rfl) rfl

/-- The block minus each row's maximum. -/
def shifted (y : FVec Ideal S10000x40 .f32) : FVec Ideal S10000x40 .f32 :=
  subf y (broadcastTo S10000x40 (shapeCast S10000x1 (rowMaxV y) shapeCasts_S10000_S10000x1) broadcasts_S10000x1_S10000x40)

/-- Each row's sum of exponentials of the shifted entries. -/
def rowSumV (y : FVec Ideal S10000x40 .f32) : FVec Ideal S10000 .f32 :=
  multiReduction .add [1] S10000 (exp (shifted y)) 0x00000000#32 reduces_S10000x40_S10000 (.inl rfl) rfl

/-- The body's stored value is the shifted block minus the logarithm of the row sums. -/
theorem pay_eq (x0 : FVec Ideal S10000x40 .f32) (x1 : FVec Ideal S1x40 .f32) :
    k5_pay1 x0 x1 = subf (shifted (biased x0 x1))
      (broadcastTo S10000x40 (log (shapeCast S10000x1 (rowSumV (biased x0 x1)) shapeCasts_S10000_S10000x1))
        broadcasts_S10000x1_S10000x40) := rfl

/-- Row `p` with lane `k` inserted is the entry `(p, k)`. -/
theorem hlift (p : Fin 10000) (k : Fin 40) : reduces_S10000x40_S10000.lift (ix1 p) k = ix2 p k :=
  funext fun a => Fin.ext (by
    match a with
    | ⟨0, _⟩ => rfl
    | ⟨1, _⟩ => rfl)

theorem biased_eq (x0 : FVec Ideal S10000x40 .f32) (x1 : FVec Ideal S1x40 .f32) :
    biased x0 x1 = Cert.Gcn.addRow x0 x1 := by
  funext j
  obtain ⟨p, q, rfl⟩ : ∃ (p : Fin 10000) (q : Fin 40), j = ix2 p q := ⟨j 0, j 1, eq_ix2 j⟩
  show shapeCast S10000x40 x0 shapeCasts_S10000x40_S10000x40 (ix2 p q)
      + broadcastTo S10000x40 (shapeCast S1x40 x1 shapeCasts_S1x40_S1x40) broadcasts_S1x40_S10000x40 (ix2 p q)
    = x0 (ix2 p q) + x1 (ix2 (0 : Fin 1) q)
  rw [shapeCast_self, broadcastTo_1b_ab_apply, shapeCast_self]

/-- The reduced maximum of row `p` is the fold of `max` from `⊥` over the row. -/
theorem rowMaxV_apply (y : FVec Ideal S10000x40 .f32) (p : Fin 10000) :
    rowMaxV y (ix1 p) = Cert.Gcn.rowMax y p := by
  refine (Ideal.multiReduction_maximumf_single y 0xFF800000#32 reduces_S10000x40_S10000 (.inl rfl) rfl (ix1 p)).trans ?_
  show (Finset.univ : Finset (Fin 40)).fold max (Ideal.ofBits .f32 0xFF800000#32)
      (fun k => y (reduces_S10000x40_S10000.lift (ix1 p) k))
    = (Finset.univ : Finset (Fin 40)).fold max ⊥ fun k => y (ix2 p k)
  rw [show Ideal.ofBits .f32 0xFF800000#32 = (⊥ : EReal) by simp [Ideal.ofBits, Ideal.ieee]]
  exact congrArg (fun g : Fin 40 → EReal => (Finset.univ : Finset (Fin 40)).fold max ⊥ g)
    (funext fun k => congrArg y (hlift p k))

theorem shifted_apply (y : FVec Ideal S10000x40 .f32) (p : Fin 10000) (q : Fin 40) :
    shifted y (ix2 p q) = y (ix2 p q) - Cert.Gcn.rowMax y p := by
  show y (ix2 p q) - broadcastTo S10000x40 (shapeCast S10000x1 (rowMaxV y) shapeCasts_S10000_S10000x1)
      broadcasts_S10000x1_S10000x40 (ix2 p q) = _
  rw [Keepdims.broadcastTo_a1_ab_apply, Keepdims.shapeCast_a_a1_apply, rowMaxV_apply]

/-- The reduced sum of row `p`: the sum over the row of the exponentials of the entries minus the row's maximum. -/
theorem rowSumV_apply (y : FVec Ideal S10000x40 .f32) (p : Fin 10000) :
    rowSumV y (ix1 p) = ∑ k : Fin 40, Ideal.exp (y (ix2 p k) - Cert.Gcn.rowMax y p) := by
  refine (Ideal.multiReduction_add_single (exp (shifted y)) 0x00000000#32 reduces_S10000x40_S10000 (.inl rfl) rfl (ix1 p)).trans ?_
  refine Finset.sum_congr rfl fun (k : Fin 40) _ => ?_
  show Ideal.exp (shifted y (reduces_S10000x40_S10000.lift (ix1 p) k)) = _
  rw [hlift p k, shifted_apply]

/-- The body's value at an entry of the block is the log-softmax of the biased block there. -/
theorem pay_apply (x0 : FVec Ideal S10000x40 .f32) (x1 : FVec Ideal S1x40 .f32) (p : Fin 10000) (q : Fin 40) :
    k5_pay1 (F := Ideal) x0 x1 (ix2 p q) = Cert.Gcn.logSoftmaxRows (Cert.Gcn.addRow x0 x1) (ix2 p q) := by
  rw [pay_eq, biased_eq]
  show shifted (Cert.Gcn.addRow x0 x1) (ix2 p q)
      - broadcastTo S10000x40 (log (shapeCast S10000x1 (rowSumV (Cert.Gcn.addRow x0 x1)) shapeCasts_S10000_S10000x1))
          broadcasts_S10000x1_S10000x40 (ix2 p q) = _
  rw [Keepdims.broadcastTo_a1_ab_apply]
  show shifted (Cert.Gcn.addRow x0 x1) (ix2 p q)
      - Ideal.log (shapeCast S10000x1 (rowSumV (Cert.Gcn.addRow x0 x1)) shapeCasts_S10000_S10000x1 (ix2 p (0 : Fin 1))) = _
  rw [Keepdims.shapeCast_a_a1_apply, shifted_apply, rowSumV_apply]
  rfl

/-! ## From blocks to the array -/

/-- The aggregated rows' blocks and the result's move together down the rows (block `t` starts at row `10000 t`); the
    bias row is one block, the same at every point. Decided over the 10 points. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the log-softmax of the biased rows. -/
theorem flushed_eq (c : Dev nD) (t : Fin cfg5.N) :
    (dat5 V c).flushed 2 t
      = ((cfg5.win 2).blk t).view.read (Elt Ideal)
          (Cert.Gcn.logSoftmaxRows (Cert.Gcn.addRow (V c main_v30) (V c main_v31))) := by
  show (cfg5.win 2).cut (grid5.coords t) ((dat5 V c).after 2 t) = _
  rw [after5_2]
  unfold out5_2
  rw [View.canon_unit_zero hz]
  simp only [View.ld_unit_zero (S := S10000x40) hz, View.ld_unit_zero (S := S1x40) hz]
  obtain ⟨e0, e1, e2, e3, e4, e5⟩ := idx_facts t
  refine funext fun (j : S10000x40.Idx) => ?_
  obtain ⟨p, q, rfl⟩ : ∃ (p : Fin 10000) (q : Fin 40), j = ix2 p q := ⟨j 0, j 1, eq_ix2 j⟩
  show k5_pay1 (iblk5 V c 0 t) (iblk5 V c 1 t) (ix2 p q)
    = Cert.Gcn.logSoftmaxRows (Cert.Gcn.addRow (V c main_v30) (V c main_v31)) (((cfg5.win 2).blk t).view.emb (ix2 p q))
  refine (pay_apply (iblk5 V c 0 t) (iblk5 V c 1 t) p q).trans ?_
  -- the result's entry sits in row `10000 t + p` of the array, at column `q`
  have ht : t.val < grid5.N := t.isLt
  rw [N_5] at ht
  have hlt : win5_2.index t (0 : Fin 2) * 10000 + 1 * p.val < 100000 := by have := p.isLt; omega
  obtain ⟨r', hr'⟩ : ∃ r' : Fin 100000, r'.val = win5_2.index t (0 : Fin 2) * 10000 + 1 * p.val := ⟨⟨_, hlt⟩, rfl⟩
  have hE : ((cfg5.win 2).blk t).view.emb (ix2 p q) = ix2 r' q := by
    funext a; apply Fin.ext
    match a with
    | ⟨0, _⟩ => show win5_2.index t (0 : Fin 2) * 10000 + 1 * p.val = r'.val; omega
    | ⟨1, _⟩ => show win5_2.index t (1 : Fin 2) * 40 + 1 * q.val = q.val; omega
  refine Eq.trans ?_ (congrArg (Cert.Gcn.logSoftmaxRows (Cert.Gcn.addRow (V c main_v30) (V c main_v31))) hE.symm)
  refine Cert.Gcn.logSoftmaxRows_congr_row _ _ p r' (fun k => ?_) q
  have h0 : ((cfg5.win 0).blk t).view.emb (ix2 p k) = ix2 r' k := by
    funext a; apply Fin.ext
    match a with
    | ⟨0, _⟩ => show win5_0.index t (0 : Fin 2) * 10000 + 1 * p.val = r'.val; omega
    | ⟨1, _⟩ => show win5_0.index t (1 : Fin 2) * 40 + 1 * k.val = k.val; omega
  have h1 : ((cfg5.win 1).blk t).view.emb (ix2 (0 : Fin 1) k) = ix2 (0 : Fin 1) k := by
    funext a; apply Fin.ext
    match a with
    | ⟨0, _⟩ => show win5_1.index t (0 : Fin 2) * 1 + 1 * 0 = 0; omega
    | ⟨1, _⟩ => show win5_1.index t (1 : Fin 2) * 40 + 1 * k.val = k.val; omega
  have r0 : iblk5 V c 0 t (ix2 p k) = (V c main_v30 : S100000x40.Idx → EReal) (ix2 r' k) := by
    exact congrArg (V c main_v30 : S100000x40.Idx → EReal) h0
  have r1 : iblk5 V c 1 t (ix2 (0 : Fin 1) k) = (V c main_v31 : S1x40.Idx → EReal) (ix2 (0 : Fin 1) k) := by
    exact congrArg (V c main_v31 : S1x40.Idx → EReal) h1
  rw [Cert.Gcn.addRow_ix2, Cert.Gcn.addRow_ix2, r0, r1] <;> rfl

/-- An index of the result is in point `t`'s block iff each coordinate lies in the block's range on its axis. -/
theorem mem_blk (t : Fin cfg5.N) (i : S100000x40.Idx) :
    i ∈ ((cfg5.win 2).blk t).view.set ↔ ∀ a : Fin 2, win5_2.index t a * S10000x40.size a ≤ (i a).val
      ∧ (i a).val < win5_2.index t a * S10000x40.size a + S10000x40.size a := by
  show i ∈ ((View.whole main_v32).slice (win5_2.rect t)).set ↔ _
  rw [View.set_slice_whole, Rect.mem_set_unit]
  exact Iff.rfl

/-- Every row lies in the block of its quotient by 10000: the blocks cover the whole result. -/
theorem cover (i : S100000x40.Idx) :
    ∃ t : Fin cfg5.N, (cfg5.win 2).flush t = true ∧ i ∈ ((cfg5.win 2).blk t).view.set := by
  have hi0 : (i 0).val < 100000 := (i 0).isLt
  have hi1 : (i 1).val < 40 := (i 1).isLt
  have hN : grid5.N = 10 := N_5
  have ht : (i 0).val / 10000 < cfg5.N := by show (i 0).val / 10000 < grid5.N; rw [hN]; omega
  obtain ⟨e0, e1, e2, e3, e4, e5⟩ := idx_facts ⟨(i 0).val / 10000, ht⟩
  refine ⟨⟨(i 0).val / 10000, ht⟩, flush5_2 _, ?_⟩
  rw [mem_blk]
  intro a
  match a with
  | ⟨0, _⟩ =>
    show win5_2.index ⟨(i 0).val / 10000, ht⟩ (0 : Fin 2) * 10000 ≤ (i 0).val
      ∧ (i 0).val < win5_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, ht⟩ (1 : Fin 2) * 40 ≤ (i 1).val
      ∧ (i 1).val < win5_2.index ⟨(i 0).val / 10000, ht⟩ (1 : Fin 2) * 40 + 40
    rw [e5]; omega

/-- The array the region leaves: the row-wise log-softmax of the aggregated rows plus the bias row. -/
theorem final (c : Dev nD) :
    (dat5 V c).arrAt 2 cfg5.N = Cert.Gcn.logSoftmaxRows (Cert.Gcn.addRow (V c main_v30) (V c main_v31)) :=
  (dat5 V c).arrAt_eq_of_cover 2 _ (fun t _ => flushed_eq V c t) cover

end Cert.KernelIdeal.LogSoftmax5

end
-- ==== Proof.KernelValue.lean ====
/-
  The idealized kernel's result as one function of the launch arrays. The buffer contents at each boundary of @main's
  eleven segments are followed from the launch to the return, for the buffers a later segment still reads: a host stretch
  writes what its operations compute of the contents it finds, a region leaves its closed form of the two arrays it
  found, and neither touches the rest. At the last boundary the result buffer holds the two-layer network `net` of the
  features, the edge weights as a column and the biases as rows, the two layers reading rows and summing them along the
  program's own edge lists.
-/
import proofs.«168604_j28321014350089_1_alg».proof.Proof.Gen.KernelIdeal.Frame
import proofs.«168604_j28321014350089_1_alg».proof.Proof.Spec
import proofs.«168604_j28321014350089_1_alg».proof.Proof.KernelHost
import proofs.«168604_j28321014350089_1_alg».proof.Proof.MatMul0
import proofs.«168604_j28321014350089_1_alg».proof.Proof.Scale1
import proofs.«168604_j28321014350089_1_alg».proof.Proof.BiasRelu2
import proofs.«168604_j28321014350089_1_alg».proof.Proof.MatMul3
import proofs.«168604_j28321014350089_1_alg».proof.Proof.Scale4
import proofs.«168604_j28321014350089_1_alg».proof.Proof.LogSoftmax5

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## The values along the way, as terms of the launch arrays -/

/-- The edges' source nodes and target nodes. -/
def kSrc : (⟨S1600000, .i32⟩ : BufTy).Contents (Elt Ideal) := HostOps.srcRow (F := Ideal) (m ((c.tc : Thread nD τ).loc main_arg1))
def kDst : (⟨S1600000, .i32⟩ : BufTy).Contents (Elt Ideal) := HostOps.dstRow (F := Ideal) (m ((c.tc : Thread nD τ).loc main_arg1))
/-- The edge weights as a column, the two biases as rows. -/
def kWc : (⟨2, ![1600000, 1]⟩ : Shape).Idx → EReal := shapeCast S1600000x1 (m ((c.tc : Thread nD τ).loc main_arg2)) shapeCasts_S1600000_S1600000x1
def kB1 : (⟨2, ![1, 128]⟩ : Shape).Idx → EReal := shapeCast S1x128 (m ((c.tc : Thread nD τ).loc main_arg4)) shapeCasts_S128_S1x128
def kB2 : (⟨2, ![1, 40]⟩ : Shape).Idx → EReal := shapeCast S1x40 (m ((c.tc : Thread nD τ).loc main_arg6)) shapeCasts_S40_S1x40

/-- Reading, for every edge, its source node's row; and summing, at every node, the rows of the edges that end there. -/
def gat₁ (M : (⟨2, ![100000, 128]⟩ : Shape).Idx → EReal) : (⟨2, ![1600000, 128]⟩ : Shape).Idx → EReal :=
  Host.gather gather_S100000x128_S1600000x1_S1600000x128_1_0_n_n_0_1_1128 M (HostOps.wrapCol (F := Ideal) (kSrc m c))
def sca₁ (U : (⟨2, ![1600000, 128]⟩ : Shape).Idx → EReal) : (⟨2, ![100000, 128]⟩ : Shape).Idx → EReal :=
  Host.scatterAdd scatter_S100000x128_S1600000x1_S1600000x128_1_0_0_1
    (broadcastInDim S100000x128 ![] bcast_S_S100000x128 (constant (F := Ideal) S_ .f32 0x00000000#32)) (HostOps.asCol (F := Ideal) (kDst m c)) U
def gat₂ (M : (⟨2, ![100000, 40]⟩ : Shape).Idx → EReal) : (⟨2, ![1600000, 40]⟩ : Shape).Idx → EReal :=
  Host.gather gather_S100000x40_S1600000x1_S1600000x40_1_0_n_n_0_1_140 M (HostOps.wrapCol (F := Ideal) (kSrc m c))
def sca₂ (U : (⟨2, ![1600000, 40]⟩ : Shape).Idx → EReal) : (⟨2, ![100000, 40]⟩ : Shape).Idx → EReal :=
  Host.scatterAdd scatter_S100000x40_S1600000x1_S1600000x40_1_0_0_1
    (broadcastInDim S100000x40 ![] bcast_S_S100000x40 (constant (F := Ideal) S_ .f32 0x00000000#32)) (HostOps.asCol (F := Ideal) (kDst m c)) U

def M1 : (⟨2, ![100000, 128]⟩ : Shape).Idx → EReal := Cert.Gcn.matProd (n := 100000) (k := 512) (f := 128) (m ((c.tc : Thread nD τ).loc main_arg0)) (m ((c.tc : Thread nD τ).loc main_arg3))
def G1 : (⟨2, ![1600000, 128]⟩ : Shape).Idx → EReal := gat₁ m c (M1 m c)
def U1 : (⟨2, ![1600000, 128]⟩ : Shape).Idx → EReal := Cert.Gcn.scaleByCol (G1 m c) (kWc m c)
def A1 : (⟨2, ![100000, 128]⟩ : Shape).Idx → EReal := sca₁ m c (U1 m c)
def H : (⟨2, ![100000, 128]⟩ : Shape).Idx → EReal := Cert.Gcn.posPart (Cert.Gcn.addRow (A1 m c) (kB1 m c))
def M2 : (⟨2, ![100000, 40]⟩ : Shape).Idx → EReal := Cert.Gcn.matProd (n := 100000) (k := 128) (f := 40) (H m c) (m ((c.tc : Thread nD τ).loc main_arg5))
def G2 : (⟨2, ![1600000, 40]⟩ : Shape).Idx → EReal := gat₂ m c (M2 m c)
def U2 : (⟨2, ![1600000, 40]⟩ : Shape).Idx → EReal := Cert.Gcn.scaleByCol (G2 m c) (kWc m c)
def A2 : (⟨2, ![100000, 40]⟩ : Shape).Idx → EReal := sca₂ m c (U2 m c)
def OUT : (⟨2, ![100000, 40]⟩ : Shape).Idx → EReal := Cert.Gcn.logSoftmaxRows (Cert.Gcn.addRow (A2 m c) (kB2 m c))

/-- The last value is the network of the launch arrays. -/
theorem OUT_eq : OUT m c = Cert.Gcn.net (gat₁ m c) (sca₁ m c) (gat₂ m c) (sca₂ m c) (m ((c.tc : Thread nD τ).loc main_arg0)) (kWc m c)
    (m ((c.tc : Thread nD τ).loc main_arg3)) (kB1 m c) (m ((c.tc : Thread nD τ).loc main_arg5)) (kB2 m c) := rfl

/-! ## The boundaries, one after the other -/

theorem s1_v1 : W1 m ρ c (Proc.devRef .tc main_v1) = kSrc m c := HostOps.host0_v1 (W0 m ρ c)
theorem s1_v3 : W1 m ρ c (Proc.devRef .tc main_v3) = kDst m c := HostOps.host0_v3 (W0 m ρ c)
theorem s1_v4 : W1 m ρ c (Proc.devRef .tc main_v4) = kWc m c := HostOps.host0_v4 (W0 m ρ c)
theorem s1_arg0 : W1 m ρ c (Proc.devRef .tc main_arg0) = (m ((c.tc : Thread nD τ).loc main_arg0)) := HostOps.host0_keep_arg0 (W0 m ρ c)
theorem s1_arg3 : W1 m ρ c (Proc.devRef .tc main_arg3) = (m ((c.tc : Thread nD τ).loc main_arg3)) := HostOps.host0_keep_arg3 (W0 m ρ c)
theorem s1_arg4 : W1 m ρ c (Proc.devRef .tc main_arg4) = (m ((c.tc : Thread nD τ).loc main_arg4)) := HostOps.host0_keep_arg4 (W0 m ρ c)
theorem s1_arg5 : W1 m ρ c (Proc.devRef .tc main_arg5) = (m ((c.tc : Thread nD τ).loc main_arg5)) := HostOps.host0_keep_arg5 (W0 m ρ c)
theorem s1_arg6 : W1 m ρ c (Proc.devRef .tc main_arg6) = (m ((c.tc : Thread nD τ).loc main_arg6)) := HostOps.host0_keep_arg6 (W0 m ρ c)
theorem s2_v5 : W2 m ρ c (Proc.devRef .tc main_v5) = M1 m c :=
  (W2_arr m ρ c 2).trans ((MatMul0.final (V1 m ρ) c).trans
    (congrArg₂ (Cert.Gcn.matProd (n := 100000) (k := 512) (f := 128)) (s1_arg0 m ρ c) (s1_arg3 m ρ c)))
theorem s2_v1 : W2 m ρ c (Proc.devRef .tc main_v1) = kSrc m c := (W2_of_ne m ρ c main_v1 (by decide)).trans (s1_v1 m ρ c)
theorem s2_v3 : W2 m ρ c (Proc.devRef .tc main_v3) = kDst m c := (W2_of_ne m ρ c main_v3 (by decide)).trans (s1_v3 m ρ c)
theorem s2_v4 : W2 m ρ c (Proc.devRef .tc main_v4) = kWc m c := (W2_of_ne m ρ c main_v4 (by decide)).trans (s1_v4 m ρ c)
theorem s2_arg4 : W2 m ρ c (Proc.devRef .tc main_arg4) = (m ((c.tc : Thread nD τ).loc main_arg4)) := (W2_of_ne m ρ c main_arg4 (by decide)).trans (s1_arg4 m ρ c)
theorem s2_arg5 : W2 m ρ c (Proc.devRef .tc main_arg5) = (m ((c.tc : Thread nD τ).loc main_arg5)) := (W2_of_ne m ρ c main_arg5 (by decide)).trans (s1_arg5 m ρ c)
theorem s2_arg6 : W2 m ρ c (Proc.devRef .tc main_arg6) = (m ((c.tc : Thread nD τ).loc main_arg6)) := (W2_of_ne m ρ c main_arg6 (by decide)).trans (s1_arg6 m ρ c)
theorem s3_v12 : W3 m ρ c (Proc.devRef .tc main_v12) = G1 m c :=
  (HostOps.host1_v12 (W2 m ρ c)).trans (congrArg₂ (fun (A : (⟨2, ![100000, 128]⟩ : Shape).Idx → EReal) (s : (⟨S1600000, .i32⟩ : BufTy).Contents (Elt Ideal)) => Host.gather gather_S100000x128_S1600000x1_S1600000x128_1_0_n_n_0_1_1128 A (HostOps.wrapCol (F := Ideal) s)) (s2_v5 m ρ c) (s2_v1 m ρ c))
theorem s3_v1 : W3 m ρ c (Proc.devRef .tc main_v1) = kSrc m c := (HostOps.host1_keep_v1 (W2 m ρ c)).trans (s2_v1 m ρ c)
theorem s3_v3 : W3 m ρ c (Proc.devRef .tc main_v3) = kDst m c := (HostOps.host1_keep_v3 (W2 m ρ c)).trans (s2_v3 m ρ c)
theorem s3_v4 : W3 m ρ c (Proc.devRef .tc main_v4) = kWc m c := (HostOps.host1_keep_v4 (W2 m ρ c)).trans (s2_v4 m ρ c)
theorem s3_arg4 : W3 m ρ c (Proc.devRef .tc main_arg4) = (m ((c.tc : Thread nD τ).loc main_arg4)) := (HostOps.host1_keep_arg4 (W2 m ρ c)).trans (s2_arg4 m ρ c)
theorem s3_arg5 : W3 m ρ c (Proc.devRef .tc main_arg5) = (m ((c.tc : Thread nD τ).loc main_arg5)) := (HostOps.host1_keep_arg5 (W2 m ρ c)).trans (s2_arg5 m ρ c)
theorem s3_arg6 : W3 m ρ c (Proc.devRef .tc main_arg6) = (m ((c.tc : Thread nD τ).loc main_arg6)) := (HostOps.host1_keep_arg6 (W2 m ρ c)).trans (s2_arg6 m ρ c)
theorem s4_v13 : W4 m ρ c (Proc.devRef .tc main_v13) = U1 m c :=
  (W4_arr m ρ c 2).trans ((Scale1.final (V3 m ρ) c).trans
    (congrArg₂ (Cert.Gcn.scaleByCol (e := 1600000) (f := 128)) (s3_v12 m ρ c) (s3_v4 m ρ c)))
theorem s4_v1 : W4 m ρ c (Proc.devRef .tc main_v1) = kSrc m c := (W4_of_ne m ρ c main_v1 (by decide)).trans (s3_v1 m ρ c)
theorem s4_v3 : W4 m ρ c (Proc.devRef .tc main_v3) = kDst m c := (W4_of_ne m ρ c main_v3 (by decide)).trans (s3_v3 m ρ c)
theorem s4_v4 : W4 m ρ c (Proc.devRef .tc main_v4) = kWc m c :=
  (W4_arr m ρ c 1).trans (((dat1 (V3 m ρ) c).arrAt_in 1 rfl _).trans ((A_eq1 (V3 m ρ) c 1).trans (s3_v4 m ρ c)))
theorem s4_arg4 : W4 m ρ c (Proc.devRef .tc main_arg4) = (m ((c.tc : Thread nD τ).loc main_arg4)) := (W4_of_ne m ρ c main_arg4 (by decide)).trans (s3_arg4 m ρ c)
theorem s4_arg5 : W4 m ρ c (Proc.devRef .tc main_arg5) = (m ((c.tc : Thread nD τ).loc main_arg5)) := (W4_of_ne m ρ c main_arg5 (by decide)).trans (s3_arg5 m ρ c)
theorem s4_arg6 : W4 m ρ c (Proc.devRef .tc main_arg6) = (m ((c.tc : Thread nD τ).loc main_arg6)) := (W4_of_ne m ρ c main_arg6 (by decide)).trans (s3_arg6 m ρ c)
theorem s5_v16 : W5 m ρ c (Proc.devRef .tc main_v16) = A1 m c :=
  (HostOps.host2_v16 (W4 m ρ c)).trans (congrArg₂ (fun (d : (⟨S1600000, .i32⟩ : BufTy).Contents (Elt Ideal)) (U : (⟨2, ![1600000, 128]⟩ : Shape).Idx → EReal) => Host.scatterAdd scatter_S100000x128_S1600000x1_S1600000x128_1_0_0_1 (broadcastInDim S100000x128 ![] bcast_S_S100000x128 (constant (F := Ideal) S_ .f32 0x00000000#32)) (HostOps.asCol (F := Ideal) d) U) (s4_v3 m ρ c) (s4_v13 m ρ c))
theorem s5_v17 : W5 m ρ c (Proc.devRef .tc main_v17) = kB1 m c :=
  (HostOps.host2_v17 (W4 m ρ c)).trans (congrArg (fun (b : (⟨S128, .f32⟩ : BufTy).Contents (Elt Ideal)) => (shapeCast S1x128 b shapeCasts_S128_S1x128 : (⟨S1x128, .f32⟩ : BufTy).Contents (Elt Ideal))) (s4_arg4 m ρ c))
theorem s5_v1 : W5 m ρ c (Proc.devRef .tc main_v1) = kSrc m c := (HostOps.host2_keep_v1 (W4 m ρ c)).trans (s4_v1 m ρ c)
theorem s5_v3 : W5 m ρ c (Proc.devRef .tc main_v3) = kDst m c := (HostOps.host2_keep_v3 (W4 m ρ c)).trans (s4_v3 m ρ c)
theorem s5_v4 : W5 m ρ c (Proc.devRef .tc main_v4) = kWc m c := (HostOps.host2_keep_v4 (W4 m ρ c)).trans (s4_v4 m ρ c)
theorem s5_arg5 : W5 m ρ c (Proc.devRef .tc main_arg5) = (m ((c.tc : Thread nD τ).loc main_arg5)) := (HostOps.host2_keep_arg5 (W4 m ρ c)).trans (s4_arg5 m ρ c)
theorem s5_arg6 : W5 m ρ c (Proc.devRef .tc main_arg6) = (m ((c.tc : Thread nD τ).loc main_arg6)) := (HostOps.host2_keep_arg6 (W4 m ρ c)).trans (s4_arg6 m ρ c)
theorem s6_v18 : W6 m ρ c (Proc.devRef .tc main_v18) = H m c :=
  (W6_arr m ρ c 2).trans ((BiasRelu2.final (V5 m ρ) c).trans
    (congrArg₂ (fun (A : (⟨2, ![100000, 128]⟩ : Shape).Idx → EReal) (b : (⟨2, ![1, 128]⟩ : Shape).Idx → EReal) => Cert.Gcn.posPart (Cert.Gcn.addRow A b)) (s5_v16 m ρ c) (s5_v17 m ρ c)))
theorem s6_v1 : W6 m ρ c (Proc.devRef .tc main_v1) = kSrc m c := (W6_of_ne m ρ c main_v1 (by decide)).trans (s5_v1 m ρ c)
theorem s6_v3 : W6 m ρ c (Proc.devRef .tc main_v3) = kDst m c := (W6_of_ne m ρ c main_v3 (by decide)).trans (s5_v3 m ρ c)
theorem s6_v4 : W6 m ρ c (Proc.devRef .tc main_v4) = kWc m c := (W6_of_ne m ρ c main_v4 (by decide)).trans (s5_v4 m ρ c)
theorem s6_arg5 : W6 m ρ c (Proc.devRef .tc main_arg5) = (m ((c.tc : Thread nD τ).loc main_arg5)) := (W6_of_ne m ρ c main_arg5 (by decide)).trans (s5_arg5 m ρ c)
theorem s6_arg6 : W6 m ρ c (Proc.devRef .tc main_arg6) = (m ((c.tc : Thread nD τ).loc main_arg6)) := (W6_of_ne m ρ c main_arg6 (by decide)).trans (s5_arg6 m ρ c)
theorem s7_v19 : W7 m ρ c (Proc.devRef .tc main_v19) = M2 m c :=
  (W7_arr m ρ c 2).trans ((MatMul3.final (V6 m ρ) c).trans
    (congrArg₂ (Cert.Gcn.matProd (n := 100000) (k := 128) (f := 40)) (s6_v18 m ρ c) (s6_arg5 m ρ c)))
theorem s7_v1 : W7 m ρ c (Proc.devRef .tc main_v1) = kSrc m c := (W7_of_ne m ρ c main_v1 (by decide)).trans (s6_v1 m ρ c)
theorem s7_v3 : W7 m ρ c (Proc.devRef .tc main_v3) = kDst m c := (W7_of_ne m ρ c main_v3 (by decide)).trans (s6_v3 m ρ c)
theorem s7_v4 : W7 m ρ c (Proc.devRef .tc main_v4) = kWc m c := (W7_of_ne m ρ c main_v4 (by decide)).trans (s6_v4 m ρ c)
theorem s7_arg6 : W7 m ρ c (Proc.devRef .tc main_arg6) = (m ((c.tc : Thread nD τ).loc main_arg6)) := (W7_of_ne m ρ c main_arg6 (by decide)).trans (s6_arg6 m ρ c)
theorem s8_v26 : W8 m ρ c (Proc.devRef .tc main_v26) = G2 m c :=
  (HostOps.host4_v26 (W7 m ρ c)).trans (congrArg₂ (fun (A : (⟨2, ![100000, 40]⟩ : Shape).Idx → EReal) (s : (⟨S1600000, .i32⟩ : BufTy).Contents (Elt Ideal)) => Host.gather gather_S100000x40_S1600000x1_S1600000x40_1_0_n_n_0_1_140 A (HostOps.wrapCol (F := Ideal) s)) (s7_v19 m ρ c) (s7_v1 m ρ c))
theorem s8_v3 : W8 m ρ c (Proc.devRef .tc main_v3) = kDst m c := (HostOps.host4_keep_v3 (W7 m ρ c)).trans (s7_v3 m ρ c)
theorem s8_v4 : W8 m ρ c (Proc.devRef .tc main_v4) = kWc m c := (HostOps.host4_keep_v4 (W7 m ρ c)).trans (s7_v4 m ρ c)
theorem s8_arg6 : W8 m ρ c (Proc.devRef .tc main_arg6) = (m ((c.tc : Thread nD τ).loc main_arg6)) := (HostOps.host4_keep_arg6 (W7 m ρ c)).trans (s7_arg6 m ρ c)
theorem s9_v27 : W9 m ρ c (Proc.devRef .tc main_v27) = U2 m c :=
  (W9_arr m ρ c 2).trans ((Scale4.final (V8 m ρ) c).trans
    (congrArg₂ (Cert.Gcn.scaleByCol (e := 1600000) (f := 40)) (s8_v26 m ρ c) (s8_v4 m ρ c)))
theorem s9_v3 : W9 m ρ c (Proc.devRef .tc main_v3) = kDst m c := (W9_of_ne m ρ c main_v3 (by decide)).trans (s8_v3 m ρ c)
theorem s9_arg6 : W9 m ρ c (Proc.devRef .tc main_arg6) = (m ((c.tc : Thread nD τ).loc main_arg6)) := (W9_of_ne m ρ c main_arg6 (by decide)).trans (s8_arg6 m ρ c)
theorem s10_v30 : W10 m ρ c (Proc.devRef .tc main_v30) = A2 m c :=
  (HostOps.host5_v30 (W9 m ρ c)).trans (congrArg₂ (fun (d : (⟨S1600000, .i32⟩ : BufTy).Contents (Elt Ideal)) (U : (⟨2, ![1600000, 40]⟩ : Shape).Idx → EReal) => Host.scatterAdd scatter_S100000x40_S1600000x1_S1600000x40_1_0_0_1 (broadcastInDim S100000x40 ![] bcast_S_S100000x40 (constant (F := Ideal) S_ .f32 0x00000000#32)) (HostOps.asCol (F := Ideal) d) U) (s9_v3 m ρ c) (s9_v27 m ρ c))
theorem s10_v31 : W10 m ρ c (Proc.devRef .tc main_v31) = kB2 m c :=
  (HostOps.host5_v31 (W9 m ρ c)).trans (congrArg (fun (b : (⟨S40, .f32⟩ : BufTy).Contents (Elt Ideal)) => (shapeCast S1x40 b shapeCasts_S40_S1x40 : (⟨S1x40, .f32⟩ : BufTy).Contents (Elt Ideal))) (s9_arg6 m ρ c))
theorem s11_v32 : W11 m ρ c (Proc.devRef .tc main_v32) = OUT m c :=
  (W11_arr m ρ c 2).trans ((LogSoftmax5.final (V10 m ρ) c).trans
    (congrArg₂ (fun (A : (⟨2, ![100000, 40]⟩ : Shape).Idx → EReal) (b : (⟨2, ![1, 40]⟩ : Shape).Idx → EReal) => Cert.Gcn.logSoftmaxRows (Cert.Gcn.addRow A b)) (s10_v30 m ρ c) (s10_v31 m ρ c)))

/-- At the return the result buffer holds the network of the launch arrays. -/
theorem result : W11 m ρ c (Proc.devRef .tc main_v32) = Cert.Gcn.net (gat₁ m c) (sca₁ m c) (gat₂ m c) (sca₂ m c) (m ((c.tc : Thread nD τ).loc main_arg0)) (kWc m c)
    (m ((c.tc : Thread nD τ).loc main_arg3)) (kB1 m c) (m ((c.tc : Thread nD τ).loc main_arg5)) (kB2 m c) :=
  (s11_v32 m ρ c).trans (OUT_eq m c)

end Cert.KernelIdeal.Chain

end
-- ==== Proof.RefStages.lean ====
/-
  The reference program cut into seventeen stages and each stage read as a function. From any buffer contents `W`: the
  edge list's two rows; the first matrix product; the source nodes' rows of it, one per edge (negative nodes wrapped
  around); those rows times the edge weights; their sums at the target nodes; the bias added; the positive part; then
  the same six steps over 40 features; and the logarithm of the row-wise softmax, taken about the row's maximum. Run
  one after the other the stages are the whole program, and no stage writes a buffer a later one still reads.
-/
import proofs.«168604_j28321014350089_1_alg».proof.Proof.RefRunPatched
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Operations run one list after another are their concatenation run as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The pieces the stages are written with -/

/-- Row `0` of the `[2, E]` edge list, as a vector: the edges' source nodes. -/
def srcRow (idx : (⟨S2x1600000, .i32⟩ : BufTy).Contents (Elt F)) : (⟨S1600000, .i32⟩ : BufTy).Contents (Elt F) :=
  shapeCast S1600000 (extractStridedSlice S1x1600000 ![0, 0] idx slices_S2x1600000_S1x1600000_0_0) shapeCasts_S1x1600000_S1600000
/-- Row `1` of the edge list: the edges' target nodes. -/
def dstRow (idx : (⟨S2x1600000, .i32⟩ : BufTy).Contents (Elt F)) : (⟨S1600000, .i32⟩ : BufTy).Contents (Elt F) :=
  shapeCast S1600000 (extractStridedSlice S1x1600000 ![1, 0] idx slices_S2x1600000_S1x1600000_1_0) shapeCasts_S1x1600000_S1600000
/-- The source nodes with the negative ones wrapped around (`s < 0 ↦ s + 100000`), as a column of row indices. -/
def wrapCol (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- A vector of nodes as a column of row indices. -/
def asCol (d : (⟨S1600000, .i32⟩ : BufTy).Contents (Elt F)) : (⟨S1600000x1, .i32⟩ : BufTy).Contents (Elt F) :=
  broadcastInDim S1600000x1 ![0] bcast_S1600000_S1600000x1_0 d
/-- The edge weights as a column; a bias as a row. -/
def colOf (w : (⟨S1600000, .f32⟩ : BufTy).Contents (Elt F)) : (⟨S1600000x1, .f32⟩ : BufTy).Contents (Elt F) :=
  broadcastInDim S1600000x1 ![0] bcast_S1600000_S1600000x1_0 w
def rowOf128 (b : (⟨S128, .f32⟩ : BufTy).Contents (Elt F)) : (⟨S1x128, .f32⟩ : BufTy).Contents (Elt F) := broadcastInDim S1x128 ![1] bcast_S128_S1x128_1 b
def rowOf40 (b : (⟨S40, .f32⟩ : BufTy).Contents (Elt F)) : (⟨S1x40, .f32⟩ : BufTy).Contents (Elt F) := broadcastInDim S1x40 ![1] bcast_S40_S1x40_1 b

/-- Each row's maximum, as the program takes it: the reduction over the 40 columns from `-∞`, then once more against `-∞`. -/
def rowMaxHost (x : (⟨S100000x40, .f32⟩ : BufTy).Contents (Elt F)) : (⟨S100000, .f32⟩ : BufTy).Contents (Elt F) :=
  maximumf (broadcastInDim S100000 ![] bcast_S_S100000 (constant (F := F) S_ .f32 0xFF800000#32))
    (Host.reduce FloatOps.maximumf x (constant (F := F) S_ .f32 0xFF800000#32) reducesTo_S100000x40_S100000_d1 h_S_)
/-- The entries minus their row's maximum. -/
def shiftedHost (x : (⟨S100000x40, .f32⟩ : BufTy).Contents (Elt F)) : (⟨S100000x40, .f32⟩ : BufTy).Contents (Elt F) :=
  subf x (broadcastInDim S100000x40 ![0, 1] bcast_S100000x1_S100000x40_0_1
    (broadcastInDim S100000x1 ![0] bcast_S100000_S100000x1_0 (rowMaxHost (F := F) x)))
/-- The row-wise log-softmax as the program writes it: the shifted entries minus the logarithm of the row's sum of their
    exponentials. -/
def lsmHost (x : (⟨S100000x40, .f32⟩ : BufTy).Contents (Elt F)) : (⟨S100000x40, .f32⟩ : BufTy).Contents (Elt F) :=
  subf (shiftedHost (F := F) x) (broadcastInDim S100000x40 ![0, 1] bcast_S100000x1_S100000x40_0_1
    (Host.log (broadcastInDim S100000x1 ![0] bcast_S100000_S100000x1_0
      (Host.reduceAdd (Host.exp (shiftedHost (F := F) x)) (constant (F := F) S_ .f32 0x00000000#32) reducesTo_S100000x40_S100000_d1 h_S_))))

/-! ## The stages -/

/-- Stage 0 of @main: operations 0 to 3. -/
abbrev seg0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- Stage 1 of @main: operations 4 to 4. -/
abbrev seg1 : List (HloOp τ sig (Elt F)) :=
  [ binary main_arg0 main_arg3 main_v4 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)) ]

/-- Stage 2 of @main: operations 5 to 13. -/
abbrev seg2 : List (HloOp τ sig (Elt F)) :=
  [ nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v1 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_v1 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v1 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_v4 main_v10 main_v11 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ]

/-- Stage 3 of @main: operations 14 to 16. -/
abbrev seg3 : List (HloOp τ sig (Elt F)) :=
  [ unary main_arg2 main_v12 (broadcastInDim S1600000x1 ![0] bcast_S1600000_S1600000x1_0 : (⟨S1600000, .f32⟩ : BufTy).Contents (Elt F) → (⟨S1600000x1, .f32⟩ : BufTy).Contents (Elt F)),
    unary main_v12 main_v13 (broadcastInDim S1600000x128 ![0, 1] bcast_S1600000x1_S1600000x128_0_1 : (⟨S1600000x1, .f32⟩ : BufTy).Contents (Elt F) → (⟨S1600000x128, .f32⟩ : BufTy).Contents (Elt F)),
    binary main_v11 main_v13 main_v14 (mulf : (⟨S1600000x128, .f32⟩ : BufTy).Contents (Elt F) → (⟨S1600000x128, .f32⟩ : BufTy).Contents (Elt F) → (⟨S1600000x128, .f32⟩ : BufTy).Contents (Elt F)) ]

/-- Stage 4 of @main: operations 17 to 20. -/
abbrev seg4 : List (HloOp τ sig (Elt F)) :=
  [ nullary main_cst (constant S_ .f32 0x00000000#32),
    unary main_cst main_v15 (broadcastInDim S100000x128 ![] bcast_S_S100000x128 : (⟨S_, .f32⟩ : BufTy).Contents (Elt F) → (⟨S100000x128, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Stage 5 of @main: operations 21 to 23. -/
abbrev seg5 : List (HloOp τ sig (Elt F)) :=
  [ unary main_arg4 main_v18 (broadcastInDim S1x128 ![1] bcast_S128_S1x128_1 : (⟨S128, .f32⟩ : BufTy).Contents (Elt F) → (⟨S1x128, .f32⟩ : BufTy).Contents (Elt F)),
    unary main_v18 main_v19 (broadcastInDim S100000x128 ![0, 1] bcast_S1x128_S100000x128_0_1 : (⟨S1x128, .f32⟩ : BufTy).Contents (Elt F) → (⟨S100000x128, .f32⟩ : BufTy).Contents (Elt F)),
    binary main_v17 main_v19 main_v20 (addf : (⟨S100000x128, .f32⟩ : BufTy).Contents (Elt F) → (⟨S100000x128, .f32⟩ : BufTy).Contents (Elt F) → (⟨S100000x128, .f32⟩ : BufTy).Contents (Elt F)) ]

/-- Stage 6 of @main: operations 24 to 26. -/
abbrev seg6 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v20) (TRef.of (T := ⟨S100000x128, .f32⟩) main_call0_v0) (TRef.of (T := ⟨S100000x128, .f32⟩) main_v21) maximumf ]

/-- Stage 7 of @main: operations 27 to 27. -/
abbrev seg7 : List (HloOp τ sig (Elt F)) :=
  [ binary main_v21 main_arg5 main_v22 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) ]

/-- Stage 8 of @main: operations 28 to 36. -/
abbrev seg8 : List (HloOp τ sig (Elt F)) :=
  [ nullary main_c_1 (constantI S_ 32 0#32),
    unary main_c_1 main_v23 (broadcastInDim S1600000 ![] bcast_S_S1600000 : (⟨S_, .i32⟩ : BufTy).Contents (Elt F) → (⟨S1600000, .i32⟩ : BufTy).Contents (Elt F)),
    binary main_v1 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v25 (broadcastInDim S1600000 ![] bcast_S_S1600000 : (⟨S_, .i32⟩ : BufTy).Contents (Elt F) → (⟨S1600000, .i32⟩ : BufTy).Contents (Elt F)),
    binary main_v1 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_v1 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v22 main_v28 main_v29 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)) ]

/-- Stage 9 of @main: operations 37 to 39. -/
abbrev seg9 : List (HloOp τ sig (Elt F)) :=
  [ unary main_arg2 main_v30 (broadcastInDim S1600000x1 ![0] bcast_S1600000_S1600000x1_0 : (⟨S1600000, .f32⟩ : BufTy).Contents (Elt F) → (⟨S1600000x1, .f32⟩ : BufTy).Contents (Elt F)),
    unary main_v30 main_v31 (broadcastInDim S1600000x40 ![0, 1] bcast_S1600000x1_S1600000x40_0_1 : (⟨S1600000x1, .f32⟩ : BufTy).Contents (Elt F) → (⟨S1600000x40, .f32⟩ : BufTy).Contents (Elt F)),
    binary main_v29 main_v31 main_v32 (mulf : (⟨S1600000x40, .f32⟩ : BufTy).Contents (Elt F) → (⟨S1600000x40, .f32⟩ : BufTy).Contents (Elt F) → (⟨S1600000x40, .f32⟩ : BufTy).Contents (Elt F)) ]

/-- Stage 10 of @main: operations 40 to 43. -/
abbrev seg10 : List (HloOp τ sig (Elt F)) :=
  [ nullary main_cst_3 (constant S_ .f32 0x00000000#32),
    unary main_cst_3 main_v33 (broadcastInDim S100000x40 ![] bcast_S_S100000x40 : (⟨S_, .f32⟩ : BufTy).Contents (Elt F) → (⟨S100000x40, .f32⟩ : BufTy).Contents (Elt F)),
    unary main_v3 main_v34 (broadcastInDim S1600000x1 ![0] bcast_S1600000_S1600000x1_0 : (⟨S1600000, .i32⟩ : BufTy).Contents (Elt F) → (⟨S1600000x1, .i32⟩ : BufTy).Contents (Elt F)),
    ternary main_v33 main_v34 main_v32 main_v35 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)) ]

/-- Stage 11 of @main: operations 44 to 46. -/
abbrev seg11 : List (HloOp τ sig (Elt F)) :=
  [ unary main_arg6 main_v36 (broadcastInDim S1x40 ![1] bcast_S40_S1x40_1 : (⟨S40, .f32⟩ : BufTy).Contents (Elt F) → (⟨S1x40, .f32⟩ : BufTy).Contents (Elt F)),
    unary main_v36 main_v37 (broadcastInDim S100000x40 ![0, 1] bcast_S1x40_S100000x40_0_1 : (⟨S1x40, .f32⟩ : BufTy).Contents (Elt F) → (⟨S100000x40, .f32⟩ : BufTy).Contents (Elt F)),
    binary main_v35 main_v37 main_v38 (addf : (⟨S100000x40, .f32⟩ : BufTy).Contents (Elt F) → (⟨S100000x40, .f32⟩ : BufTy).Contents (Elt F) → (⟨S100000x40, .f32⟩ : BufTy).Contents (Elt F)) ]

/-- Stage 12 of @main: operations 47 to 48. -/
abbrev seg12 : List (HloOp τ sig (Elt F)) :=
  [ TRef.nullary (TRef.of (T := ⟨S_, .f32⟩) main_call1_cst) (constant S_ .f32 0xFF800000#32),
    TRef.binary (TRef.of (T := ⟨S100000x40, .f32⟩) main_v38) (TRef.of (T := ⟨S_, .f32⟩) main_call1_cst) (TRef.of (T := ⟨S100000, .f32⟩) main_call1_v0) (fun x v => Host.reduce FloatOps.maximumf x v reducesTo_S100000x40_S100000_d1 h_S_) ]

/-- Stage 13 of @main: operations 49 to 51. -/
abbrev seg13 : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf ]

/-- Stage 14 of @main: operations 52 to 54. -/
abbrev seg14 : List (HloOp τ sig (Elt F)) :=
  [ TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v38) (TRef.of (T := ⟨S100000x40, .f32⟩) main_call1_v4) (TRef.of (T := ⟨S100000x40, .f32⟩) main_call1_v5) subf ]

/-- Stage 15 of @main: operations 55 to 57. -/
abbrev seg15 : List (HloOp τ sig (Elt F)) :=
  [ TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_) ]

/-- Stage 16 of @main: operations 58 to 61. -/
abbrev seg16 : List (HloOp τ sig (Elt F)) :=
  [ TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v39) subf ]

/-- The program's operations are the stages, in order. -/
theorem ops_eq : (ValueP.ops (F := F)) = seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16)))))))))))))))) := rfl

end Cert.ReferenceIdeal.Stages

end
-- ==== Proof.RefStagesA.lean ====
/-
  What each stage of the reference's first layer writes, read at any buffer contents `W`, and the buffers it leaves alone: the edge list's rows, the first product, the source nodes' rows, the weighting, the sums at the target nodes, the bias, the positive part.
-/
import proofs.«168604_j28321014350089_1_alg».proof.Proof.RefStages

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.reduce

theorem seg0_v1 (W : Valuation τ sig (Elt F)) :
    after (seg0 (F := F)) W (Proc.devRef .tc main_v1) = srcRow (F := F) (W (Proc.devRef .tc main_arg1)) := by
  dsimp only [seg0]; after_results <;> rfl
theorem seg0_v3 (W : Valuation τ sig (Elt F)) :
    after (seg0 (F := F)) W (Proc.devRef .tc main_v3) = dstRow (F := F) (W (Proc.devRef .tc main_arg1)) := by
  dsimp only [seg0]; after_results <;> rfl
theorem seg0_keep_arg0 (W : Valuation τ sig (Elt F)) :
    after (seg0 (F := F)) W (Proc.devRef .tc main_arg0) = W (Proc.devRef .tc main_arg0) := by
  dsimp only [seg0]; after_results
theorem seg0_keep_arg2 (W : Valuation τ sig (Elt F)) :
    after (seg0 (F := F)) W (Proc.devRef .tc main_arg2) = W (Proc.devRef .tc main_arg2) := by
  dsimp only [seg0]; after_results
theorem seg0_keep_arg3 (W : Valuation τ sig (Elt F)) :
    after (seg0 (F := F)) W (Proc.devRef .tc main_arg3) = W (Proc.devRef .tc main_arg3) := by
  dsimp only [seg0]; after_results
theorem seg0_keep_arg4 (W : Valuation τ sig (Elt F)) :
    after (seg0 (F := F)) W (Proc.devRef .tc main_arg4) = W (Proc.devRef .tc main_arg4) := by
  dsimp only [seg0]; after_results
theorem seg0_keep_arg5 (W : Valuation τ sig (Elt F)) :
    after (seg0 (F := F)) W (Proc.devRef .tc main_arg5) = W (Proc.devRef .tc main_arg5) := by
  dsimp only [seg0]; after_results
theorem seg0_keep_arg6 (W : Valuation τ sig (Elt F)) :
    after (seg0 (F := F)) W (Proc.devRef .tc main_arg6) = W (Proc.devRef .tc main_arg6) := by
  dsimp only [seg0]; after_results

theorem seg1_v4 (W : Valuation τ sig (Elt F)) :
    after (seg1 (F := F)) W (Proc.devRef .tc main_v4) = (Host.dotGeneral dot_S100000x512_S512x128_S100000x128_1_0_0_1_n_n none (W (Proc.devRef .tc main_arg0)) (W (Proc.devRef .tc main_arg3)) : (⟨S100000x128, .f32⟩ : BufTy).Contents (Elt F)) := by
  dsimp only [seg1]; after_results <;> rfl
theorem seg1_keep_v1 (W : Valuation τ sig (Elt F)) :
    after (seg1 (F := F)) W (Proc.devRef .tc main_v1) = W (Proc.devRef .tc main_v1) := by
  dsimp only [seg1]; after_results
theorem seg1_keep_v3 (W : Valuation τ sig (Elt F)) :
    after (seg1 (F := F)) W (Proc.devRef .tc main_v3) = W (Proc.devRef .tc main_v3) := by
  dsimp only [seg1]; after_results
theorem seg1_keep_arg2 (W : Valuation τ sig (Elt F)) :
    after (seg1 (F := F)) W (Proc.devRef .tc main_arg2) = W (Proc.devRef .tc main_arg2) := by
  dsimp only [seg1]; after_results
theorem seg1_keep_arg4 (W : Valuation τ sig (Elt F)) :
    after (seg1 (F := F)) W (Proc.devRef .tc main_arg4) = W (Proc.devRef .tc main_arg4) := by
  dsimp only [seg1]; after_results
theorem seg1_keep_arg5 (W : Valuation τ sig (Elt F)) :
    after (seg1 (F := F)) W (Proc.devRef .tc main_arg5) = W (Proc.devRef .tc main_arg5) := by
  dsimp only [seg1]; after_results
theorem seg1_keep_arg6 (W : Valuation τ sig (Elt F)) :
    after (seg1 (F := F)) W (Proc.devRef .tc main_arg6) = W (Proc.devRef .tc main_arg6) := by
  dsimp only [seg1]; after_results

theorem seg2_v11 (W : Valuation τ sig (Elt F)) :
    after (seg2 (F := F)) W (Proc.devRef .tc main_v11) = (Host.gather gather_S100000x128_S1600000x1_S1600000x128_1_0_n_n_0_1_1128 (W (Proc.devRef .tc main_v4)) (wrapCol (F := F) (W (Proc.devRef .tc main_v1))) : (⟨S1600000x128, .f32⟩ : BufTy).Contents (Elt F)) := by
  dsimp only [seg2]; after_results <;> rfl
theorem seg2_keep_v1 (W : Valuation τ sig (Elt F)) :
    after (seg2 (F := F)) W (Proc.devRef .tc main_v1) = W (Proc.devRef .tc main_v1) := by
  dsimp only [seg2]; after_results
theorem seg2_keep_v3 (W : Valuation τ sig (Elt F)) :
    after (seg2 (F := F)) W (Proc.devRef .tc main_v3) = W (Proc.devRef .tc main_v3) := by
  dsimp only [seg2]; after_results
theorem seg2_keep_arg2 (W : Valuation τ sig (Elt F)) :
    after (seg2 (F := F)) W (Proc.devRef .tc main_arg2) = W (Proc.devRef .tc main_arg2) := by
  dsimp only [seg2]; after_results
theorem seg2_keep_arg4 (W : Valuation τ sig (Elt F)) :
    after (seg2 (F := F)) W (Proc.devRef .tc main_arg4) = W (Proc.devRef .tc main_arg4) := by
  dsimp only [seg2]; after_results
theorem seg2_keep_arg5 (W : Valuation τ sig (Elt F)) :
    after (seg2 (F := F)) W (Proc.devRef .tc main_arg5) = W (Proc.devRef .tc main_arg5) := by
  dsimp only [seg2]; after_results
theorem seg2_keep_arg6 (W : Valuation τ sig (Elt F)) :
    after (seg2 (F := F)) W (Proc.devRef .tc main_arg6) = W (Proc.devRef .tc main_arg6) := by
  dsimp only [seg2]; after_results

theorem seg3_v14 (W : Valuation τ sig (Elt F)) :
    after (seg3 (F := F)) W (Proc.devRef .tc main_v14) = (mulf (W (Proc.devRef .tc main_v11)) (broadcastInDim S1600000x128 ![0, 1] bcast_S1600000x1_S1600000x128_0_1 (colOf (F := F) (W (Proc.devRef .tc main_arg2)))) : (⟨S1600000x128, .f32⟩ : BufTy).Contents (Elt F)) := by
  dsimp only [seg3]; after_results <;> rfl
theorem seg3_keep_v1 (W : Valuation τ sig (Elt F)) :
    after (seg3 (F := F)) W (Proc.devRef .tc main_v1) = W (Proc.devRef .tc main_v1) := by
  dsimp only [seg3]; after_results
theorem seg3_keep_v3 (W : Valuation τ sig (Elt F)) :
    after (seg3 (F := F)) W (Proc.devRef .tc main_v3) = W (Proc.devRef .tc main_v3) := by
  dsimp only [seg3]; after_results
theorem seg3_keep_arg2 (W : Valuation τ sig (Elt F)) :
    after (seg3 (F := F)) W (Proc.devRef .tc main_arg2) = W (Proc.devRef .tc main_arg2) := by
  dsimp only [seg3]; after_results
theorem seg3_keep_arg4 (W : Valuation τ sig (Elt F)) :
    after (seg3 (F := F)) W (Proc.devRef .tc main_arg4) = W (Proc.devRef .tc main_arg4) := by
  dsimp only [seg3]; after_results
theorem seg3_keep_arg5 (W : Valuation τ sig (Elt F)) :
    after (seg3 (F := F)) W (Proc.devRef .tc main_arg5) = W (Proc.devRef .tc main_arg5) := by
  dsimp only [seg3]; after_results
theorem seg3_keep_arg6 (W : Valuation τ sig (Elt F)) :
    after (seg3 (F := F)) W (Proc.devRef .tc main_arg6) = W (Proc.devRef .tc main_arg6) := by
  dsimp only [seg3]; after_results

theorem seg4_v17 (W : Valuation τ sig (Elt F)) :
    after (seg4 (F := F)) W (Proc.devRef .tc main_v17) = (Host.scatterAdd scatter_S100000x128_S1600000x1_S1600000x128_1_0_0_1 (broadcastInDim S100000x128 ![] bcast_S_S100000x128 (constant (F := F) S_ .f32 0x00000000#32)) (asCol (F := F) (W (Proc.devRef .tc main_v3))) (W (Proc.devRef .tc main_v14)) : (⟨S100000x128, .f32⟩ : BufTy).Contents (Elt F)) := by
  dsimp only [seg4]; after_results <;> rfl
theorem seg4_keep_v1 (W : Valuation τ sig (Elt F)) :
    after (seg4 (F := F)) W (Proc.devRef .tc main_v1) = W (Proc.devRef .tc main_v1) := by
  dsimp only [seg4]; after_results
theorem seg4_keep_v3 (W : Valuation τ sig (Elt F)) :
    after (seg4 (F := F)) W (Proc.devRef .tc main_v3) = W (Proc.devRef .tc main_v3) := by
  dsimp only [seg4]; after_results
theorem seg4_keep_arg2 (W : Valuation τ sig (Elt F)) :
    after (seg4 (F := F)) W (Proc.devRef .tc main_arg2) = W (Proc.devRef .tc main_arg2) := by
  dsimp only [seg4]; after_results
theorem seg4_keep_arg4 (W : Valuation τ sig (Elt F)) :
    after (seg4 (F := F)) W (Proc.devRef .tc main_arg4) = W (Proc.devRef .tc main_arg4) := by
  dsimp only [seg4]; after_results
theorem seg4_keep_arg5 (W : Valuation τ sig (Elt F)) :
    after (seg4 (F := F)) W (Proc.devRef .tc main_arg5) = W (Proc.devRef .tc main_arg5) := by
  dsimp only [seg4]; after_results
theorem seg4_keep_arg6 (W : Valuation τ sig (Elt F)) :
    after (seg4 (F := F)) W (Proc.devRef .tc main_arg6) = W (Proc.devRef .tc main_arg6) := by
  dsimp only [seg4]; after_results

theorem seg5_v20 (W : Valuation τ sig (Elt F)) :
    after (seg5 (F := F)) W (Proc.devRef .tc main_v20) = (addf (W (Proc.devRef .tc main_v17)) (broadcastInDim S100000x128 ![0, 1] bcast_S1x128_S100000x128_0_1 (rowOf128 (F := F) (W (Proc.devRef .tc main_arg4)))) : (⟨S100000x128, .f32⟩ : BufTy).Contents (Elt F)) := by
  dsimp only [seg5]; after_results <;> rfl
theorem seg5_keep_v1 (W : Valuation τ sig (Elt F)) :
    after (seg5 (F := F)) W (Proc.devRef .tc main_v1) = W (Proc.devRef .tc main_v1) := by
  dsimp only [seg5]; after_results
theorem seg5_keep_v3 (W : Valuation τ sig (Elt F)) :
    after (seg5 (F := F)) W (Proc.devRef .tc main_v3) = W (Proc.devRef .tc main_v3) := by
  dsimp only [seg5]; after_results
theorem seg5_keep_arg2 (W : Valuation τ sig (Elt F)) :
    after (seg5 (F := F)) W (Proc.devRef .tc main_arg2) = W (Proc.devRef .tc main_arg2) := by
  dsimp only [seg5]; after_results
theorem seg5_keep_arg5 (W : Valuation τ sig (Elt F)) :
    after (seg5 (F := F)) W (Proc.devRef .tc main_arg5) = W (Proc.devRef .tc main_arg5) := by
  dsimp only [seg5]; after_results
theorem seg5_keep_arg6 (W : Valuation τ sig (Elt F)) :
    after (seg5 (F := F)) W (Proc.devRef .tc main_arg6) = W (Proc.devRef .tc main_arg6) := by
  dsimp only [seg5]; after_results

theorem seg6_v21 (W : Valuation τ sig (Elt F)) :
    after (seg6 (F := F)) W (Proc.devRef .tc main_v21) = (maximumf (W (Proc.devRef .tc main_v20)) (broadcastInDim S100000x128 ![] bcast_S_S100000x128 (constant (F := F) S_ .f32 0x00000000#32)) : (⟨S100000x128, .f32⟩ : BufTy).Contents (Elt F)) := by
  dsimp only [seg6]; after_results <;> rfl
theorem seg6_keep_v1 (W : Valuation τ sig (Elt F)) :
    after (seg6 (F := F)) W (Proc.devRef .tc main_v1) = W (Proc.devRef .tc main_v1) := by
  dsimp only [seg6]; after_results
theorem seg6_keep_v3 (W : Valuation τ sig (Elt F)) :
    after (seg6 (F := F)) W (Proc.devRef .tc main_v3) = W (Proc.devRef .tc main_v3) := by
  dsimp only [seg6]; after_results
theorem seg6_keep_arg2 (W : Valuation τ sig (Elt F)) :
    after (seg6 (F := F)) W (Proc.devRef .tc main_arg2) = W (Proc.devRef .tc main_arg2) := by
  dsimp only [seg6]; after_results
theorem seg6_keep_arg5 (W : Valuation τ sig (Elt F)) :
    after (seg6 (F := F)) W (Proc.devRef .tc main_arg5) = W (Proc.devRef .tc main_arg5) := by
  dsimp only [seg6]; after_results
theorem seg6_keep_arg6 (W : Valuation τ sig (Elt F)) :
    after (seg6 (F := F)) W (Proc.devRef .tc main_arg6) = W (Proc.devRef .tc main_arg6) := by
  dsimp only [seg6]; after_results

end Cert.ReferenceIdeal.Stages

end
-- ==== Proof.RefStagesB.lean ====
/-
  What each stage of the reference's second layer writes, read at any buffer contents `W`, and the buffers it leaves alone: the second product, the source nodes' rows, the weighting, the sums at the target nodes, the bias.
-/
import proofs.«168604_j28321014350089_1_alg».proof.Proof.RefStages

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.reduce

theorem seg7_v22 (W : Valuation τ sig (Elt F)) :
    after (seg7 (F := F)) W (Proc.devRef .tc main_v22) = (Host.dotGeneral dot_S100000x128_S128x40_S100000x40_1_0_0_1_n_n none (W (Proc.devRef .tc main_v21)) (W (Proc.devRef .tc main_arg5)) : (⟨S100000x40, .f32⟩ : BufTy).Contents (Elt F)) := by
  dsimp only [seg7]; after_results <;> rfl
theorem seg7_keep_v1 (W : Valuation τ sig (Elt F)) :
    after (seg7 (F := F)) W (Proc.devRef .tc main_v1) = W (Proc.devRef .tc main_v1) := by
  dsimp only [seg7]; after_results
theorem seg7_keep_v3 (W : Valuation τ sig (Elt F)) :
    after (seg7 (F := F)) W (Proc.devRef .tc main_v3) = W (Proc.devRef .tc main_v3) := by
  dsimp only [seg7]; after_results
theorem seg7_keep_arg2 (W : Valuation τ sig (Elt F)) :
    after (seg7 (F := F)) W (Proc.devRef .tc main_arg2) = W (Proc.devRef .tc main_arg2) := by
  dsimp only [seg7]; after_results
theorem seg7_keep_arg6 (W : Valuation τ sig (Elt F)) :
    after (seg7 (F := F)) W (Proc.devRef .tc main_arg6) = W (Proc.devRef .tc main_arg6) := by
  dsimp only [seg7]; after_results

theorem seg8_v29 (W : Valuation τ sig (Elt F)) :
    after (seg8 (F := F)) W (Proc.devRef .tc main_v29) = (Host.gather gather_S100000x40_S1600000x1_S1600000x40_1_0_n_n_0_1_140 (W (Proc.devRef .tc main_v22)) (wrapCol (F := F) (W (Proc.devRef .tc main_v1))) : (⟨S1600000x40, .f32⟩ : BufTy).Contents (Elt F)) := by
  dsimp only [seg8]; after_results <;> rfl
theorem seg8_keep_v3 (W : Valuation τ sig (Elt F)) :
    after (seg8 (F := F)) W (Proc.devRef .tc main_v3) = W (Proc.devRef .tc main_v3) := by
  dsimp only [seg8]; after_results
theorem seg8_keep_arg2 (W : Valuation τ sig (Elt F)) :
    after (seg8 (F := F)) W (Proc.devRef .tc main_arg2) = W (Proc.devRef .tc main_arg2) := by
  dsimp only [seg8]; after_results
theorem seg8_keep_arg6 (W : Valuation τ sig (Elt F)) :
    after (seg8 (F := F)) W (Proc.devRef .tc main_arg6) = W (Proc.devRef .tc main_arg6) := by
  dsimp only [seg8]; after_results

theorem seg9_v32 (W : Valuation τ sig (Elt F)) :
    after (seg9 (F := F)) W (Proc.devRef .tc main_v32) = (mulf (W (Proc.devRef .tc main_v29)) (broadcastInDim S1600000x40 ![0, 1] bcast_S1600000x1_S1600000x40_0_1 (colOf (F := F) (W (Proc.devRef .tc main_arg2)))) : (⟨S1600000x40, .f32⟩ : BufTy).Contents (Elt F)) := by
  dsimp only [seg9]; after_results <;> rfl
theorem seg9_keep_v3 (W : Valuation τ sig (Elt F)) :
    after (seg9 (F := F)) W (Proc.devRef .tc main_v3) = W (Proc.devRef .tc main_v3) := by
  dsimp only [seg9]; after_results
theorem seg9_keep_arg6 (W : Valuation τ sig (Elt F)) :
    after (seg9 (F := F)) W (Proc.devRef .tc main_arg6) = W (Proc.devRef .tc main_arg6) := by
  dsimp only [seg9]; after_results

theorem seg10_v35 (W : Valuation τ sig (Elt F)) :
    after (seg10 (F := F)) W (Proc.devRef .tc main_v35) = (Host.scatterAdd scatter_S100000x40_S1600000x1_S1600000x40_1_0_0_1 (broadcastInDim S100000x40 ![] bcast_S_S100000x40 (constant (F := F) S_ .f32 0x00000000#32)) (asCol (F := F) (W (Proc.devRef .tc main_v3))) (W (Proc.devRef .tc main_v32)) : (⟨S100000x40, .f32⟩ : BufTy).Contents (Elt F)) := by
  dsimp only [seg10]; after_results <;> rfl
theorem seg10_keep_arg6 (W : Valuation τ sig (Elt F)) :
    after (seg10 (F := F)) W (Proc.devRef .tc main_arg6) = W (Proc.devRef .tc main_arg6) := by
  dsimp only [seg10]; after_results

theorem seg11_v38 (W : Valuation τ sig (Elt F)) :
    after (seg11 (F := F)) W (Proc.devRef .tc main_v38) = (addf (W (Proc.devRef .tc main_v35)) (broadcastInDim S100000x40 ![0, 1] bcast_S1x40_S100000x40_0_1 (rowOf40 (F := F) (W (Proc.devRef .tc main_arg6)))) : (⟨S100000x40, .f32⟩ : BufTy).Contents (Elt F)) := by
  dsimp only [seg11]; after_results <;> rfl

end Cert.ReferenceIdeal.Stages

end
-- ==== Proof.RefStagesC.lean ====
/-
  The reference's log-softmax, five short stages read at any buffer contents `W`: the row maxima from `-∞`; their maximum with `-∞`; the entries minus their row's maximum; the row sums of the exponentials; the shifted entries minus the logarithm of their row's sum.
-/
import proofs.«168604_j28321014350089_1_alg».proof.Proof.RefStages

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.reduce

theorem seg12_call1_v0 (W : Valuation τ sig (Elt F)) :
    after (seg12 (F := F)) W (Proc.devRef .tc main_call1_v0) = (Host.reduce FloatOps.maximumf (W (Proc.devRef .tc main_v38)) (constant (F := F) S_ .f32 0xFF800000#32) reducesTo_S100000x40_S100000_d1 h_S_ : (⟨S100000, .f32⟩ : BufTy).Contents (Elt F)) := by
  dsimp only [seg12]; after_results <;> rfl
theorem seg12_keep_v38 (W : Valuation τ sig (Elt F)) :
    after (seg12 (F := F)) W (Proc.devRef .tc main_v38) = W (Proc.devRef .tc main_v38) := by
  dsimp only [seg12]; after_results

theorem seg13_call1_v2 (W : Valuation τ sig (Elt F)) :
    after (seg13 (F := F)) W (Proc.devRef .tc main_call1_v2) = (maximumf (broadcastInDim S100000 ![] bcast_S_S100000 (constant (F := F) S_ .f32 0xFF800000#32)) (W (Proc.devRef .tc main_call1_v0)) : (⟨S100000, .f32⟩ : BufTy).Contents (Elt F)) := by
  dsimp only [seg13]; after_results <;> rfl
theorem seg13_keep_v38 (W : Valuation τ sig (Elt F)) :
    after (seg13 (F := F)) W (Proc.devRef .tc main_v38) = W (Proc.devRef .tc main_v38) := by
  dsimp only [seg13]; after_results

theorem seg14_call1_v5 (W : Valuation τ sig (Elt F)) :
    after (seg14 (F := F)) W (Proc.devRef .tc main_call1_v5) = (subf (W (Proc.devRef .tc main_v38)) (broadcastInDim S100000x40 ![0, 1] bcast_S100000x1_S100000x40_0_1 (broadcastInDim S100000x1 ![0] bcast_S100000_S100000x1_0 (W (Proc.devRef .tc main_call1_v2)))) : (⟨S100000x40, .f32⟩ : BufTy).Contents (Elt F)) := by
  dsimp only [seg14]; after_results <;> rfl

theorem seg15_call1_v7 (W : Valuation τ sig (Elt F)) :
    after (seg15 (F := F)) W (Proc.devRef .tc main_call1_v7) = (Host.reduceAdd (Host.exp (W (Proc.devRef .tc main_call1_v5))) (constant (F := F) S_ .f32 0x00000000#32) reducesTo_S100000x40_S100000_d1 h_S_ : (⟨S100000, .f32⟩ : BufTy).Contents (Elt F)) := by
  dsimp only [seg15]; after_results <;> rfl
theorem seg15_keep_call1_v5 (W : Valuation τ sig (Elt F)) :
    after (seg15 (F := F)) W (Proc.devRef .tc main_call1_v5) = W (Proc.devRef .tc main_call1_v5) := by
  dsimp only [seg15]; after_results

theorem seg16_v39 (W : Valuation τ sig (Elt F)) :
    after (seg16 (F := F)) W (Proc.devRef .tc main_v39) = (subf (W (Proc.devRef .tc main_call1_v5)) (broadcastInDim S100000x40 ![0, 1] bcast_S100000x1_S100000x40_0_1 (Host.log (broadcastInDim S100000x1 ![0] bcast_S100000_S100000x1_0 (W (Proc.devRef .tc main_call1_v7))))) : (⟨S100000x40, .f32⟩ : BufTy).Contents (Elt F)) := by
  dsimp only [seg16]; after_results <;> rfl

end Cert.ReferenceIdeal.Stages

end
-- ==== Proof.RefLawsDot.lean ====
/-
  The reference's two products of matrices, on the extended reals: the host's product of an `[n, k]` and a `[k, f]` matrix, read at an entry, is the plain sum over the `k` inner indices, so it is the matrix product of the specification.
-/
import proofs.«168604_j28321014350089_1_alg».proof.Proof.RefStages
import proofs.«168604_j28321014350089_1_alg».proof.Proof.Spec
import Idealize.ShloMosaic.Lib.Pipeline.Value
import Idealize.ShloMosaic.Lib.ValueIdx
import Idealize.ShloMosaic.PureOps.Ideal.Laws

noncomputable section

namespace Cert.ReferenceIdeal.Laws

open Cert.ReferenceIdeal Cert.ReferenceIdeal.Gen Idealize.ShloMosaic Idealize.ShloMosaic.TcCoe Idealize.SL.Sem
open Idealize.ShloMosaic.ValueIdx Cert.ReferenceIdeal.Stages

/-! ## The two products -/

theorem dot1_lhs0 (i : S100000x128.Idx) (q : dot_S100000x512_S512x128_S100000x128_1_0_0_1_n_n.contr.Idx) : (dot_S100000x512_S512x128_S100000x128_1_0_0_1_n_n.lhsIdx i q 0).val = (i 0).val := by
  unfold DotDims.lhsIdx
  rw [dif_neg (show ¬(0 : Fin S100000x512.rank) ∈ dot_S100000x512_S512x128_S100000x128_1_0_0_1_n_n.lhsBatch by decide), dif_pos (show (0 : Fin S100000x512.rank) ∈ dot_S100000x512_S512x128_S100000x128_1_0_0_1_n_n.lhsNonContracting by decide)]
  rfl
theorem dot1_lhs1 (i : S100000x128.Idx) (q : dot_S100000x512_S512x128_S100000x128_1_0_0_1_n_n.contr.Idx) : (dot_S100000x512_S512x128_S100000x128_1_0_0_1_n_n.lhsIdx i q 1).val = (q ⟨0, by decide⟩).val :=
  dot_S100000x512_S512x128_S100000x128_1_0_0_1_n_n.lhsIdx_val_of_single rfl i q
theorem dot1_rhs0 (i : S100000x128.Idx) (q : dot_S100000x512_S512x128_S100000x128_1_0_0_1_n_n.contr.Idx) : (dot_S100000x512_S512x128_S100000x128_1_0_0_1_n_n.rhsIdx i q 0).val = (q ⟨0, by decide⟩).val :=
  dot_S100000x512_S512x128_S100000x128_1_0_0_1_n_n.rhsIdx_val_of_single rfl i q
theorem dot1_rhs1 (i : S100000x128.Idx) (q : dot_S100000x512_S512x128_S100000x128_1_0_0_1_n_n.contr.Idx) : (dot_S100000x512_S512x128_S100000x128_1_0_0_1_n_n.rhsIdx i q 1).val = (i 1).val := by
  unfold DotDims.rhsIdx
  rw [dif_neg (show ¬(1 : Fin S512x128.rank) ∈ dot_S100000x512_S512x128_S100000x128_1_0_0_1_n_n.rhsBatch by decide), dif_pos (show (1 : Fin S512x128.rank) ∈ dot_S100000x512_S512x128_S100000x128_1_0_0_1_n_n.rhsNonContracting by decide)]
  rfl

/-- The host's product of an `[100000, 512]` and a `[512, 128]` matrix is the matrix product: on the extended reals it is the
    plain sum over the 512 inner indices. -/
theorem dot1_eq (A : FVec Ideal S100000x512 .f32) (B : FVec Ideal S512x128 .f32) :
    Host.dotGeneral dot_S100000x512_S512x128_S100000x128_1_0_0_1_n_n none A B = Cert.Gcn.matProd (n := 100000) (k := 512) (f := 128) A B := by
  funext i
  obtain ⟨r, c, rfl⟩ : ∃ (r : Fin 100000) (c : Fin 128), i = ix2 r c := ⟨i 0, i 1, eq_ix2 i⟩
  show _ = ∑ j : Fin 512, A (ix2 r j) * B (ix2 j c)
  simp only [Host.dotGeneral]
  rw [Ideal.dotGeneral_apply, ← Equiv.sum_comp (ValueIdx.contrEquiv1 dot_S100000x512_S512x128_S100000x128_1_0_0_1_n_n 512 rfl rfl).symm]
  refine Finset.sum_congr rfl fun j _ => ?_
  have hk := ValueIdx.contrEquiv1_symm_val dot_S100000x512_S512x128_S100000x128_1_0_0_1_n_n 512 rfl rfl j
  have el : dot_S100000x512_S512x128_S100000x128_1_0_0_1_n_n.lhsIdx (ix2 r c) ((ValueIdx.contrEquiv1 dot_S100000x512_S512x128_S100000x128_1_0_0_1_n_n 512 rfl rfl).symm j) = ix2 r j :=
    funext fun a => Fin.ext (by
      match a with
      | ⟨0, _⟩ => exact dot1_lhs0 _ _
      | ⟨1, _⟩ => exact (dot1_lhs1 _ _).trans hk)
  have er : dot_S100000x512_S512x128_S100000x128_1_0_0_1_n_n.rhsIdx (ix2 r c) ((ValueIdx.contrEquiv1 dot_S100000x512_S512x128_S100000x128_1_0_0_1_n_n 512 rfl rfl).symm j) = ix2 j c :=
    funext fun a => Fin.ext (by
      match a with
      | ⟨0, _⟩ => exact (dot1_rhs0 _ _).trans hk
      | ⟨1, _⟩ => exact dot1_rhs1 _ _)
  rw [el, er]

theorem dot2_lhs0 (i : S100000x40.Idx) (q : dot_S100000x128_S128x40_S100000x40_1_0_0_1_n_n.contr.Idx) : (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide), dif_pos (show (0 : Fin S100000x128.rank) ∈ dot_S100000x128_S128x40_S100000x40_1_0_0_1_n_n.lhsNonContracting by decide)]
  rfl
theorem dot2_lhs1 (i : S100000x40.Idx) (q : dot_S100000x128_S128x40_S100000x40_1_0_0_1_n_n.contr.Idx) : (dot_S100000x128_S128x40_S100000x40_1_0_0_1_n_n.lhsIdx i q 1).val = (q ⟨0, by decide⟩).val :=
  dot_S100000x128_S128x40_S100000x40_1_0_0_1_n_n.lhsIdx_val_of_single rfl i q
theorem dot2_rhs0 (i : S100000x40.Idx) (q : dot_S100000x128_S128x40_S100000x40_1_0_0_1_n_n.contr.Idx) : (dot_S100000x128_S128x40_S100000x40_1_0_0_1_n_n.rhsIdx i q 0).val = (q ⟨0, by decide⟩).val :=
  dot_S100000x128_S128x40_S100000x40_1_0_0_1_n_n.rhsIdx_val_of_single rfl i q
theorem dot2_rhs1 (i : S100000x40.Idx) (q : dot_S100000x128_S128x40_S100000x40_1_0_0_1_n_n.contr.Idx) : (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide), dif_pos (show (1 : Fin S128x40.rank) ∈ dot_S100000x128_S128x40_S100000x40_1_0_0_1_n_n.rhsNonContracting by decide)]
  rfl

/-- The host's product of an `[100000, 128]` and a `[128, 40]` matrix is the matrix product: on the extended reals it is the
    plain sum over the 128 inner indices. -/
theorem dot2_eq (A : FVec Ideal S100000x128 .f32) (B : FVec Ideal S128x40 .f32) :
    Host.dotGeneral dot_S100000x128_S128x40_S100000x40_1_0_0_1_n_n none A B = Cert.Gcn.matProd (n := 100000) (k := 128) (f := 40) A B := by
  funext i
  obtain ⟨r, c, rfl⟩ : ∃ (r : Fin 100000) (c : Fin 40), i = ix2 r c := ⟨i 0, i 1, eq_ix2 i⟩
  show _ = ∑ j : Fin 128, A (ix2 r j) * B (ix2 j c)
  simp only [Host.dotGeneral]
  rw [Ideal.dotGeneral_apply, ← Equiv.sum_comp (ValueIdx.contrEquiv1 dot_S100000x128_S128x40_S100000x40_1_0_0_1_n_n 128 rfl rfl).symm]
  refine Finset.sum_congr rfl fun j _ => ?_
  have hk := ValueIdx.contrEquiv1_symm_val dot_S100000x128_S128x40_S100000x40_1_0_0_1_n_n 128 rfl rfl j
  have el : dot_S100000x128_S128x40_S100000x40_1_0_0_1_n_n.lhsIdx (ix2 r c) ((ValueIdx.contrEquiv1 dot_S100000x128_S128x40_S100000x40_1_0_0_1_n_n 128 rfl rfl).symm j) = ix2 r j :=
    funext fun a => Fin.ext (by
      match a with
      | ⟨0, _⟩ => exact dot2_lhs0 _ _
      | ⟨1, _⟩ => exact (dot2_lhs1 _ _).trans hk)
  have er : dot_S100000x128_S128x40_S100000x40_1_0_0_1_n_n.rhsIdx (ix2 r c) ((ValueIdx.contrEquiv1 dot_S100000x128_S128x40_S100000x40_1_0_0_1_n_n 128 rfl rfl).symm j) = ix2 j c :=
    funext fun a => Fin.ext (by
      match a with
      | ⟨0, _⟩ => exact (dot2_rhs0 _ _).trans hk
      | ⟨1, _⟩ => exact dot2_rhs1 _ _)
  rw [el, er]

end Cert.ReferenceIdeal.Laws

end
-- ==== Proof.RefLawsRows.lean ====
/-
  The reference's row-wise steps, on the extended reals: multiplying by the weight column broadcast along the features scales each row by its weight; adding the bias row broadcast down the rows adds it to each row; the maximum with the zero matrix is the positive part.
-/
import proofs.«168604_j28321014350089_1_alg».proof.Proof.RefStages
import proofs.«168604_j28321014350089_1_alg».proof.Proof.Spec
import Idealize.ShloMosaic.Lib.Pipeline.Value
import Idealize.ShloMosaic.Lib.ValueIdx
import Idealize.ShloMosaic.PureOps.Ideal.Laws

noncomputable section

namespace Cert.ReferenceIdeal.Laws

open Cert.ReferenceIdeal Cert.ReferenceIdeal.Gen Idealize.ShloMosaic Idealize.ShloMosaic.TcCoe Idealize.SL.Sem
open Idealize.ShloMosaic.ValueIdx Cert.ReferenceIdeal.Stages

/-! ## The weights, the biases, the positive part -/

/-- Multiplying by the weight column broadcast along the 128 features scales every row by its weight. -/
theorem scale128_eq (U : FVec Ideal S1600000x128 .f32) (wc : FVec Ideal S1600000x1 .f32) :
    mulf U (broadcastInDim S1600000x128 ![0, 1] bcast_S1600000x1_S1600000x128_0_1 wc) = Cert.Gcn.scaleByCol U wc := by
  funext i
  obtain ⟨e, f, rfl⟩ : ∃ (e : Fin 1600000) (f : Fin 128), i = ix2 e f := ⟨i 0, i 1, eq_ix2 i⟩
  show U (ix2 e f) * broadcastInDim S1600000x128 ![0, 1] bcast_S1600000x1_S1600000x128_0_1 wc (ix2 e f) = U (ix2 e f) * wc (ix2 e (0 : Fin 1))
  rw [broadcastInDim_apply _ bcast_S1600000x1_S1600000x128_0_1 wc (ix2 e f) (ix2 e (0 : Fin 1)) (fun a => match a with
    | ⟨0, _⟩ => by show e.val = if (1600000 : Nat) = 1 then 0 else e.val; rw [if_neg (by decide)]
    | ⟨1, _⟩ => by show 0 = if (1 : Nat) = 1 then 0 else f.val; rw [if_pos rfl])]

/-- Multiplying by the weight column broadcast along the 40 features scales every row by its weight. -/
theorem scale40_eq (U : FVec Ideal S1600000x40 .f32) (wc : FVec Ideal S1600000x1 .f32) :
    mulf U (broadcastInDim S1600000x40 ![0, 1] bcast_S1600000x1_S1600000x40_0_1 wc) = Cert.Gcn.scaleByCol U wc := by
  funext i
  obtain ⟨e, f, rfl⟩ : ∃ (e : Fin 1600000) (f : Fin 40), i = ix2 e f := ⟨i 0, i 1, eq_ix2 i⟩
  show U (ix2 e f) * broadcastInDim S1600000x40 ![0, 1] bcast_S1600000x1_S1600000x40_0_1 wc (ix2 e f) = U (ix2 e f) * wc (ix2 e (0 : Fin 1))
  rw [broadcastInDim_apply _ bcast_S1600000x1_S1600000x40_0_1 wc (ix2 e f) (ix2 e (0 : Fin 1)) (fun a => match a with
    | ⟨0, _⟩ => by show e.val = if (1600000 : Nat) = 1 then 0 else e.val; rw [if_neg (by decide)]
    | ⟨1, _⟩ => by show 0 = if (1 : Nat) = 1 then 0 else f.val; rw [if_pos rfl])]

/-- Adding the bias row broadcast down the 100000 rows adds it to every row. -/
theorem addRow128_eq (A : FVec Ideal S100000x128 .f32) (br : FVec Ideal S1x128 .f32) :
    addf A (broadcastInDim S100000x128 ![0, 1] bcast_S1x128_S100000x128_0_1 br) = Cert.Gcn.addRow A br := by
  funext i
  obtain ⟨r, f, rfl⟩ : ∃ (r : Fin 100000) (f : Fin 128), i = ix2 r f := ⟨i 0, i 1, eq_ix2 i⟩
  show A (ix2 r f) + broadcastInDim S100000x128 ![0, 1] bcast_S1x128_S100000x128_0_1 br (ix2 r f) = A (ix2 r f) + br (ix2 (0 : Fin 1) f)
  rw [broadcastInDim_apply _ bcast_S1x128_S100000x128_0_1 br (ix2 r f) (ix2 (0 : Fin 1) f) (fun a => match a with
    | ⟨0, _⟩ => by show 0 = if (1 : Nat) = 1 then 0 else r.val; rw [if_pos rfl]
    | ⟨1, _⟩ => by show f.val = if (128 : Nat) = 1 then 0 else f.val; rw [if_neg (by decide)])]

/-- Adding the bias row broadcast down the 100000 rows adds it to every row. -/
theorem addRow40_eq (A : FVec Ideal S100000x40 .f32) (br : FVec Ideal S1x40 .f32) :
    addf A (broadcastInDim S100000x40 ![0, 1] bcast_S1x40_S100000x40_0_1 br) = Cert.Gcn.addRow A br := by
  funext i
  obtain ⟨r, f, rfl⟩ : ∃ (r : Fin 100000) (f : Fin 40), i = ix2 r f := ⟨i 0, i 1, eq_ix2 i⟩
  show A (ix2 r f) + broadcastInDim S100000x40 ![0, 1] bcast_S1x40_S100000x40_0_1 br (ix2 r f) = A (ix2 r f) + br (ix2 (0 : Fin 1) f)
  rw [broadcastInDim_apply _ bcast_S1x40_S100000x40_0_1 br (ix2 r f) (ix2 (0 : Fin 1) f) (fun a => match a with
    | ⟨0, _⟩ => by show 0 = if (1 : Nat) = 1 then 0 else r.val; rw [if_pos rfl]
    | ⟨1, _⟩ => by show f.val = if (40 : Nat) = 1 then 0 else f.val; rw [if_neg (by decide)])]

/-- The maximum with the zero matrix is the positive part. -/
theorem pos_eq (A : FVec Ideal S100000x128 .f32) :
    maximumf A (broadcastInDim S100000x128 ![] bcast_S_S100000x128 (constant (F := Ideal) S_ .f32 0x00000000#32)) = Cert.Gcn.posPart A := by
  funext i
  show max (A i) (broadcastInDim S100000x128 ![] bcast_S_S100000x128 (constant (F := Ideal) S_ .f32 0x00000000#32) i) = max (A i) 0
  rw [broadcastInDim_apply _ bcast_S_S100000x128 (constant (F := Ideal) S_ .f32 0x00000000#32) i ix0 (fun a => a.elim0)]
  show max (A i) (Ideal.ofBits .f32 0x00000000#32) = _
  rw [Ideal.ofBits_zero_f32]

end Cert.ReferenceIdeal.Laws

end
-- ==== Proof.RefLawsLsm.lean ====
/-
  The reference's log-softmax, on the extended reals. Its row maximum is a reduction from `-∞` met once more with `-∞`, which changes nothing, so it is the fold of `max` from `⊥` over the row; the entries minus that maximum, the row sum of their exponentials (from zero), and the shifted entries minus the logarithm of that sum are then the row-wise log-softmax of the specification.
-/
import proofs.«168604_j28321014350089_1_alg».proof.Proof.RefStages
import proofs.«168604_j28321014350089_1_alg».proof.Proof.Spec
import Idealize.ShloMosaic.Lib.Pipeline.Value
import Idealize.ShloMosaic.Lib.ValueIdx
import Idealize.ShloMosaic.PureOps.Ideal.Laws

noncomputable section

namespace Cert.ReferenceIdeal.Laws

open Cert.ReferenceIdeal Cert.ReferenceIdeal.Gen Idealize.ShloMosaic Idealize.ShloMosaic.TcCoe Idealize.SL.Sem
open Idealize.ShloMosaic.ValueIdx Cert.ReferenceIdeal.Stages

attribute [local irreducible] Host.reduce

/-! ## The log-softmax -/

theorem host_log_apply {s : Shape} (v : FVec Ideal s .f32) (i : s.Idx) : Host.log v i = Ideal.log (v i) := rfl
theorem host_exp_apply {s : Shape} (v : FVec Ideal s .f32) (i : s.Idx) : Host.exp v i = Ideal.exp (v i) := rfl

/-- Row `r` with column `k` inserted is the entry `(r, k)`. -/
theorem hlift (h : S100000x40.Reduces [1] S100000) (r : Fin 100000) (k : Fin 40) : h.lift (ix1 r) k = ix2 r k :=
  funext fun a => Fin.ext (by
    match a with
    | ⟨0, _⟩ => rfl
    | ⟨1, _⟩ => rfl)

/-- The program's row maximum is the fold of `max` from `⊥` over the row: the extra maximum with `-∞` changes nothing. -/
theorem rowMaxHost_apply (x : FVec Ideal S100000x40 .f32) (r : Fin 100000) :
    rowMaxHost (F := Ideal) x (ix1 r) = Cert.Gcn.rowMax x r := by
  have hb : Ideal.ofBits .f32 0xFF800000#32 = (⊥ : EReal) := by simp [Ideal.ofBits, Ideal.ieee]
  have hred : S100000x40.Reduces [1] S100000 := by decide
  unfold rowMaxHost
  refine (maximumf_apply _ _ (ix1 r)).trans ?_
  rw [broadcastInDim_apply _ bcast_S_S100000 _ (ix1 r) ix0 (fun a => a.elim0),
    Host.reduce_eq_fold_single (FloatOps.maximumf (F := Ideal) (φ := .f32)) x _ reducesTo_S100000x40_S100000_d1 hred h_S_ (ix1 r)]
  show max (Ideal.ofBits .f32 0xFF800000#32) ((Finset.univ : Finset (Fin 40)).fold max (Ideal.ofBits .f32 0xFF800000#32)
      (fun k => x (hred.lift (ix1 r) k))) = (Finset.univ : Finset (Fin 40)).fold max ⊥ fun k => x (ix2 r k)
  rw [hb, max_eq_right bot_le]
  exact congrArg (fun g : Fin 40 → EReal => (Finset.univ : Finset (Fin 40)).fold max ⊥ g)
    (funext fun k => congrArg x (hlift hred r k))

theorem shiftedHost_apply (x : FVec Ideal S100000x40 .f32) (r : Fin 100000) (c : Fin 40) :
    shiftedHost (F := Ideal) x (ix2 r c) = x (ix2 r c) - Cert.Gcn.rowMax x r := by
  unfold shiftedHost
  refine (subf_apply _ _ (ix2 r c)).trans ?_
  rw [broadcastInDim_apply _ bcast_S100000x1_S100000x40_0_1 _ (ix2 r c) (ix2 r (0 : Fin 1)) (fun a => match a with
      | ⟨0, _⟩ => by show r.val = if (100000 : Nat) = 1 then 0 else r.val; rw [if_neg (by decide)]
      | ⟨1, _⟩ => by show 0 = if (1 : Nat) = 1 then 0 else c.val; rw [if_pos rfl]),
    broadcastInDim_apply _ bcast_S100000_S100000x1_0 _ (ix2 r (0 : Fin 1)) (ix1 r) (fun a => match a with
      | ⟨0, _⟩ => by show r.val = if (100000 : Nat) = 1 then 0 else r.val; rw [if_neg (by decide)]),
    rowMaxHost_apply]

/-- The program's log-softmax is the row-wise log-softmax about the row's maximum. -/
theorem lsm_eq (x : FVec Ideal S100000x40 .f32) : lsmHost (F := Ideal) x = Cert.Gcn.logSoftmaxRows x := by
  have hred : S100000x40.Reduces [1] S100000 := by decide
  funext i
  obtain ⟨r, c, rfl⟩ : ∃ (r : Fin 100000) (c : Fin 40), i = ix2 r c := ⟨i 0, i 1, eq_ix2 i⟩
  unfold lsmHost
  refine (subf_apply _ _ (ix2 r c)).trans ?_
  rw [broadcastInDim_apply _ bcast_S100000x1_S100000x40_0_1 _ (ix2 r c) (ix2 r (0 : Fin 1)) (fun a => match a with
      | ⟨0, _⟩ => by show r.val = if (100000 : Nat) = 1 then 0 else r.val; rw [if_neg (by decide)]
      | ⟨1, _⟩ => by show 0 = if (1 : Nat) = 1 then 0 else c.val; rw [if_pos rfl]),
    host_log_apply,
    broadcastInDim_apply _ bcast_S100000_S100000x1_0 _ (ix2 r (0 : Fin 1)) (ix1 r) (fun a => match a with
      | ⟨0, _⟩ => by show r.val = if (100000 : Nat) = 1 then 0 else r.val; rw [if_neg (by decide)])]
  simp only [Host.reduceAdd, Ideal.hostReduceAdd_def]
  rw [Ideal.hostReduceAdd_single reducesTo_S100000x40_S100000_d1 hred, shiftedHost_apply]
  show x (ix2 r c) - Cert.Gcn.rowMax x r - Ideal.log (Ideal.ofBits .f32 0x00000000#32
      + ∑ k : Fin 40, Ideal.exp (shiftedHost (F := Ideal) x (hred.lift (ix1 r) k)))
    = x (ix2 r c) - Cert.Gcn.rowMax x r - Ideal.log (∑ k : Fin 40, Ideal.exp (x (ix2 r k) - Cert.Gcn.rowMax x r))
  rw [Ideal.ofBits_zero_f32, zero_add]
  refine congrArg (fun s => x (ix2 r c) - Cert.Gcn.rowMax x r - Ideal.log s) (Finset.sum_congr rfl fun (k : Fin 40) _ => ?_)
  rw [hlift hred r k, shiftedHost_apply]

end Cert.ReferenceIdeal.Laws

end
-- ==== Proof.RefValue.lean ====
/-
  The reference's result as one function of the launch arrays. The buffer contents after each of the seventeen stages
  are followed from the launch contents, for the buffers a later stage still reads; after the last stage the result
  buffer holds the stages' composite. On the extended reals that composite is the two-layer network `net` of the
  features, the edge weights as a column and the biases as rows. No stage writes an argument.
-/
import proofs.«168604_j28321014350089_1_alg».proof.Proof.RefStages
import proofs.«168604_j28321014350089_1_alg».proof.Proof.RefStagesA
import proofs.«168604_j28321014350089_1_alg».proof.Proof.RefStagesB
import proofs.«168604_j28321014350089_1_alg».proof.Proof.RefStagesC
import proofs.«168604_j28321014350089_1_alg».proof.Proof.RefLawsDot
import proofs.«168604_j28321014350089_1_alg».proof.Proof.RefLawsRows
import proofs.«168604_j28321014350089_1_alg».proof.Proof.RefLawsLsm
import proofs.«168604_j28321014350089_1_alg».proof.Proof.Spec

noncomputable section

namespace Cert.ReferenceIdeal.Chain

open Cert.ReferenceIdeal Cert.ReferenceIdeal.Gen Idealize.ShloMosaic Idealize.ShloMosaic.TcCoe Idealize.SL.Sem Idealize.ShloMosaic.StableHlo
open Cert.ReferenceIdeal.Stages

variable {F : FTy → Type} [FloatOps F]

/-! ## The contents after each stage -/

def R1 (W : Valuation τ sig (Elt F)) : Valuation τ sig (Elt F) := after (seg0 (F := F)) W
theorem R1_eq (W : Valuation τ sig (Elt F)) : R1 W = after (seg0 (F := F)) W := rfl
def R2 (W : Valuation τ sig (Elt F)) : Valuation τ sig (Elt F) := after (seg1 (F := F)) (R1 W)
theorem R2_eq (W : Valuation τ sig (Elt F)) : R2 W = after (seg1 (F := F)) (R1 W) := rfl
def R3 (W : Valuation τ sig (Elt F)) : Valuation τ sig (Elt F) := after (seg2 (F := F)) (R2 W)
theorem R3_eq (W : Valuation τ sig (Elt F)) : R3 W = after (seg2 (F := F)) (R2 W) := rfl
def R4 (W : Valuation τ sig (Elt F)) : Valuation τ sig (Elt F) := after (seg3 (F := F)) (R3 W)
theorem R4_eq (W : Valuation τ sig (Elt F)) : R4 W = after (seg3 (F := F)) (R3 W) := rfl
def R5 (W : Valuation τ sig (Elt F)) : Valuation τ sig (Elt F) := after (seg4 (F := F)) (R4 W)
theorem R5_eq (W : Valuation τ sig (Elt F)) : R5 W = after (seg4 (F := F)) (R4 W) := rfl
def R6 (W : Valuation τ sig (Elt F)) : Valuation τ sig (Elt F) := after (seg5 (F := F)) (R5 W)
theorem R6_eq (W : Valuation τ sig (Elt F)) : R6 W = after (seg5 (F := F)) (R5 W) := rfl
def R7 (W : Valuation τ sig (Elt F)) : Valuation τ sig (Elt F) := after (seg6 (F := F)) (R6 W)
theorem R7_eq (W : Valuation τ sig (Elt F)) : R7 W = after (seg6 (F := F)) (R6 W) := rfl
def R8 (W : Valuation τ sig (Elt F)) : Valuation τ sig (Elt F) := after (seg7 (F := F)) (R7 W)
theorem R8_eq (W : Valuation τ sig (Elt F)) : R8 W = after (seg7 (F := F)) (R7 W) := rfl
def R9 (W : Valuation τ sig (Elt F)) : Valuation τ sig (Elt F) := after (seg8 (F := F)) (R8 W)
theorem R9_eq (W : Valuation τ sig (Elt F)) : R9 W = after (seg8 (F := F)) (R8 W) := rfl
def R10 (W : Valuation τ sig (Elt F)) : Valuation τ sig (Elt F) := after (seg9 (F := F)) (R9 W)
theorem R10_eq (W : Valuation τ sig (Elt F)) : R10 W = after (seg9 (F := F)) (R9 W) := rfl
def R11 (W : Valuation τ sig (Elt F)) : Valuation τ sig (Elt F) := after (seg10 (F := F)) (R10 W)
theorem R11_eq (W : Valuation τ sig (Elt F)) : R11 W = after (seg10 (F := F)) (R10 W) := rfl
def R12 (W : Valuation τ sig (Elt F)) : Valuation τ sig (Elt F) := after (seg11 (F := F)) (R11 W)
theorem R12_eq (W : Valuation τ sig (Elt F)) : R12 W = after (seg11 (F := F)) (R11 W) := rfl
def R13 (W : Valuation τ sig (Elt F)) : Valuation τ sig (Elt F) := after (seg12 (F := F)) (R12 W)
theorem R13_eq (W : Valuation τ sig (Elt F)) : R13 W = after (seg12 (F := F)) (R12 W) := rfl
def R14 (W : Valuation τ sig (Elt F)) : Valuation τ sig (Elt F) := after (seg13 (F := F)) (R13 W)
theorem R14_eq (W : Valuation τ sig (Elt F)) : R14 W = after (seg13 (F := F)) (R13 W) := rfl
def R15 (W : Valuation τ sig (Elt F)) : Valuation τ sig (Elt F) := after (seg14 (F := F)) (R14 W)
theorem R15_eq (W : Valuation τ sig (Elt F)) : R15 W = after (seg14 (F := F)) (R14 W) := rfl
def R16 (W : Valuation τ sig (Elt F)) : Valuation τ sig (Elt F) := after (seg15 (F := F)) (R15 W)
theorem R16_eq (W : Valuation τ sig (Elt F)) : R16 W = after (seg15 (F := F)) (R15 W) := rfl
def R17 (W : Valuation τ sig (Elt F)) : Valuation τ sig (Elt F) := after (seg16 (F := F)) (R16 W)
theorem R17_eq (W : Valuation τ sig (Elt F)) : R17 W = after (seg16 (F := F)) (R16 W) := rfl

/-- The whole program from contents `W` ends at the contents after the last stage. -/
theorem after_ops (W : Valuation τ sig (Elt F)) : after (ValueP.ops (F := F)) W = R17 W := by
  rw [ops_eq]
  simp only [after_append]
  rfl

attribute [irreducible] R1 R2 R3 R4 R5 R6 R7 R8 R9 R10 R11 R12 R13 R14 R15 R16 R17

/-! ## The values along the way -/

def r4 (W : Valuation τ sig (Elt F)) : (⟨S100000x128, .f32⟩ : BufTy).Contents (Elt F) :=
  Host.dotGeneral dot_S100000x512_S512x128_S100000x128_1_0_0_1_n_n none (W (Proc.devRef .tc main_arg0)) (W (Proc.devRef .tc main_arg3))
def r11 (W : Valuation τ sig (Elt F)) : (⟨S1600000x128, .f32⟩ : BufTy).Contents (Elt F) :=
  Host.gather gather_S100000x128_S1600000x1_S1600000x128_1_0_n_n_0_1_1128 (r4 W) (wrapCol (F := F) (srcRow (F := F) (W (Proc.devRef .tc main_arg1))))
def r14 (W : Valuation τ sig (Elt F)) : (⟨S1600000x128, .f32⟩ : BufTy).Contents (Elt F) :=
  mulf (r11 W) (broadcastInDim S1600000x128 ![0, 1] bcast_S1600000x1_S1600000x128_0_1 (colOf (F := F) (W (Proc.devRef .tc main_arg2))))
def r17 (W : Valuation τ sig (Elt F)) : (⟨S100000x128, .f32⟩ : BufTy).Contents (Elt F) :=
  Host.scatterAdd scatter_S100000x128_S1600000x1_S1600000x128_1_0_0_1 (broadcastInDim S100000x128 ![] bcast_S_S100000x128 (constant (F := F) S_ .f32 0x00000000#32)) (asCol (F := F) (dstRow (F := F) (W (Proc.devRef .tc main_arg1)))) (r14 W)
def r20 (W : Valuation τ sig (Elt F)) : (⟨S100000x128, .f32⟩ : BufTy).Contents (Elt F) :=
  addf (r17 W) (broadcastInDim S100000x128 ![0, 1] bcast_S1x128_S100000x128_0_1 (rowOf128 (F := F) (W (Proc.devRef .tc main_arg4))))
def r21 (W : Valuation τ sig (Elt F)) : (⟨S100000x128, .f32⟩ : BufTy).Contents (Elt F) := maximumf (r20 W) (broadcastInDim S100000x128 ![] bcast_S_S100000x128 (constant (F := F) S_ .f32 0x00000000#32))
def r22 (W : Valuation τ sig (Elt F)) : (⟨S100000x40, .f32⟩ : BufTy).Contents (Elt F) :=
  Host.dotGeneral dot_S100000x128_S128x40_S100000x40_1_0_0_1_n_n none (r21 W) (W (Proc.devRef .tc main_arg5))
def r29 (W : Valuation τ sig (Elt F)) : (⟨S1600000x40, .f32⟩ : BufTy).Contents (Elt F) :=
  Host.gather gather_S100000x40_S1600000x1_S1600000x40_1_0_n_n_0_1_140 (r22 W) (wrapCol (F := F) (srcRow (F := F) (W (Proc.devRef .tc main_arg1))))
def r32 (W : Valuation τ sig (Elt F)) : (⟨S1600000x40, .f32⟩ : BufTy).Contents (Elt F) :=
  mulf (r29 W) (broadcastInDim S1600000x40 ![0, 1] bcast_S1600000x1_S1600000x40_0_1 (colOf (F := F) (W (Proc.devRef .tc main_arg2))))
def r35 (W : Valuation τ sig (Elt F)) : (⟨S100000x40, .f32⟩ : BufTy).Contents (Elt F) :=
  Host.scatterAdd scatter_S100000x40_S1600000x1_S1600000x40_1_0_0_1 (broadcastInDim S100000x40 ![] bcast_S_S100000x40 (constant (F := F) S_ .f32 0x00000000#32)) (asCol (F := F) (dstRow (F := F) (W (Proc.devRef .tc main_arg1)))) (r32 W)
def r38 (W : Valuation τ sig (Elt F)) : (⟨S100000x40, .f32⟩ : BufTy).Contents (Elt F) :=
  addf (r35 W) (broadcastInDim S100000x40 ![0, 1] bcast_S1x40_S100000x40_0_1 (rowOf40 (F := F) (W (Proc.devRef .tc main_arg6))))
def r39 (W : Valuation τ sig (Elt F)) : (⟨S100000x40, .f32⟩ : BufTy).Contents (Elt F) := lsmHost (F := F) (r38 W)
def rc0 (W : Valuation τ sig (Elt F)) : (⟨S100000, .f32⟩ : BufTy).Contents (Elt F) :=
  Host.reduce FloatOps.maximumf (r38 W) (constant (F := F) S_ .f32 0xFF800000#32) reducesTo_S100000x40_S100000_d1 h_S_
def rc7 (W : Valuation τ sig (Elt F)) : (⟨S100000, .f32⟩ : BufTy).Contents (Elt F) :=
  Host.reduceAdd (Host.exp (shiftedHost (F := F) (r38 W))) (constant (F := F) S_ .f32 0x00000000#32) reducesTo_S100000x40_S100000_d1 h_S_

theorem r4_eq (W : Valuation τ sig (Elt F)) : Host.dotGeneral dot_S100000x512_S512x128_S100000x128_1_0_0_1_n_n none (W (Proc.devRef .tc main_arg0)) (W (Proc.devRef .tc main_arg3)) = r4 W := rfl
theorem r11_eq (W : Valuation τ sig (Elt F)) : Host.gather gather_S100000x128_S1600000x1_S1600000x128_1_0_n_n_0_1_1128 (r4 W) (wrapCol (F := F) (srcRow (F := F) (W (Proc.devRef .tc main_arg1)))) = r11 W := rfl
theorem r14_eq (W : Valuation τ sig (Elt F)) : mulf (r11 W) (broadcastInDim S1600000x128 ![0, 1] bcast_S1600000x1_S1600000x128_0_1 (colOf (F := F) (W (Proc.devRef .tc main_arg2)))) = r14 W := rfl
theorem r17_eq (W : Valuation τ sig (Elt F)) : Host.scatterAdd scatter_S100000x128_S1600000x1_S1600000x128_1_0_0_1 (broadcastInDim S100000x128 ![] bcast_S_S100000x128 (constant (F := F) S_ .f32 0x00000000#32)) (asCol (F := F) (dstRow (F := F) (W (Proc.devRef .tc main_arg1)))) (r14 W) = r17 W := rfl
theorem r20_eq (W : Valuation τ sig (Elt F)) : addf (r17 W) (broadcastInDim S100000x128 ![0, 1] bcast_S1x128_S100000x128_0_1 (rowOf128 (F := F) (W (Proc.devRef .tc main_arg4)))) = r20 W := rfl
theorem r21_eq (W : Valuation τ sig (Elt F)) : maximumf (r20 W) (broadcastInDim S100000x128 ![] bcast_S_S100000x128 (constant (F := F) S_ .f32 0x00000000#32)) = r21 W := rfl
theorem r22_eq (W : Valuation τ sig (Elt F)) : Host.dotGeneral dot_S100000x128_S128x40_S100000x40_1_0_0_1_n_n none (r21 W) (W (Proc.devRef .tc main_arg5)) = r22 W := rfl
theorem r29_eq (W : Valuation τ sig (Elt F)) : Host.gather gather_S100000x40_S1600000x1_S1600000x40_1_0_n_n_0_1_140 (r22 W) (wrapCol (F := F) (srcRow (F := F) (W (Proc.devRef .tc main_arg1)))) = r29 W := rfl
theorem r32_eq (W : Valuation τ sig (Elt F)) : mulf (r29 W) (broadcastInDim S1600000x40 ![0, 1] bcast_S1600000x1_S1600000x40_0_1 (colOf (F := F) (W (Proc.devRef .tc main_arg2)))) = r32 W := rfl
theorem r35_eq (W : Valuation τ sig (Elt F)) : Host.scatterAdd scatter_S100000x40_S1600000x1_S1600000x40_1_0_0_1 (broadcastInDim S100000x40 ![] bcast_S_S100000x40 (constant (F := F) S_ .f32 0x00000000#32)) (asCol (F := F) (dstRow (F := F) (W (Proc.devRef .tc main_arg1)))) (r32 W) = r35 W := rfl
theorem r38_eq (W : Valuation τ sig (Elt F)) : addf (r35 W) (broadcastInDim S100000x40 ![0, 1] bcast_S1x40_S100000x40_0_1 (rowOf40 (F := F) (W (Proc.devRef .tc main_arg6)))) = r38 W := rfl
theorem rc0_eq (W : Valuation τ sig (Elt F)) : Host.reduce FloatOps.maximumf (r38 W) (constant (F := F) S_ .f32 0xFF800000#32) reducesTo_S100000x40_S100000_d1 h_S_ = rc0 W := rfl
theorem rmax_eq (W : Valuation τ sig (Elt F)) : maximumf (broadcastInDim S100000 ![] bcast_S_S100000 (constant (F := F) S_ .f32 0xFF800000#32)) (rc0 W) = rowMaxHost (F := F) (r38 W) := rfl
theorem rshift_eq (W : Valuation τ sig (Elt F)) : subf (r38 W) (broadcastInDim S100000x40 ![0, 1] bcast_S100000x1_S100000x40_0_1 (broadcastInDim S100000x1 ![0] bcast_S100000_S100000x1_0 (rowMaxHost (F := F) (r38 W)))) = shiftedHost (F := F) (r38 W) := rfl
theorem rc7_eq (W : Valuation τ sig (Elt F)) : Host.reduceAdd (Host.exp (shiftedHost (F := F) (r38 W))) (constant (F := F) S_ .f32 0x00000000#32) reducesTo_S100000x40_S100000_d1 h_S_ = rc7 W := rfl
theorem r39_eq' (W : Valuation τ sig (Elt F)) : subf (shiftedHost (F := F) (r38 W)) (broadcastInDim S100000x40 ![0, 1] bcast_S100000x1_S100000x40_0_1 (Host.log (broadcastInDim S100000x1 ![0] bcast_S100000_S100000x1_0 (rc7 W)))) = r39 W := rfl

/-! ## The stages, one after the other -/

theorem t1_v1 (W : Valuation τ sig (Elt F)) : R1 W (Proc.devRef .tc main_v1) = srcRow (F := F) (W (Proc.devRef .tc main_arg1)) := (congrFun (R1_eq W) _).trans (seg0_v1 W)
theorem t1_v3 (W : Valuation τ sig (Elt F)) : R1 W (Proc.devRef .tc main_v3) = dstRow (F := F) (W (Proc.devRef .tc main_arg1)) := (congrFun (R1_eq W) _).trans (seg0_v3 W)
theorem t1_arg0 (W : Valuation τ sig (Elt F)) : R1 W (Proc.devRef .tc main_arg0) = (W (Proc.devRef .tc main_arg0)) := (congrFun (R1_eq W) _).trans (seg0_keep_arg0 W)
theorem t1_arg2 (W : Valuation τ sig (Elt F)) : R1 W (Proc.devRef .tc main_arg2) = (W (Proc.devRef .tc main_arg2)) := (congrFun (R1_eq W) _).trans (seg0_keep_arg2 W)
theorem t1_arg3 (W : Valuation τ sig (Elt F)) : R1 W (Proc.devRef .tc main_arg3) = (W (Proc.devRef .tc main_arg3)) := (congrFun (R1_eq W) _).trans (seg0_keep_arg3 W)
theorem t1_arg4 (W : Valuation τ sig (Elt F)) : R1 W (Proc.devRef .tc main_arg4) = (W (Proc.devRef .tc main_arg4)) := (congrFun (R1_eq W) _).trans (seg0_keep_arg4 W)
theorem t1_arg5 (W : Valuation τ sig (Elt F)) : R1 W (Proc.devRef .tc main_arg5) = (W (Proc.devRef .tc main_arg5)) := (congrFun (R1_eq W) _).trans (seg0_keep_arg5 W)
theorem t1_arg6 (W : Valuation τ sig (Elt F)) : R1 W (Proc.devRef .tc main_arg6) = (W (Proc.devRef .tc main_arg6)) := (congrFun (R1_eq W) _).trans (seg0_keep_arg6 W)
theorem t2_v4 (W : Valuation τ sig (Elt F)) : R2 W (Proc.devRef .tc main_v4) = r4 W :=
  (congrFun (R2_eq W) _).trans ((seg1_v4 (R1 W)).trans
    ((congrArg₂ (fun (A : (⟨S100000x512, .f32⟩ : BufTy).Contents (Elt F)) (B : (⟨S512x128, .f32⟩ : BufTy).Contents (Elt F)) => Host.dotGeneral dot_S100000x512_S512x128_S100000x128_1_0_0_1_n_n none A B) (t1_arg0 W) (t1_arg3 W)).trans (r4_eq W)))
theorem t2_v1 (W : Valuation τ sig (Elt F)) : R2 W (Proc.devRef .tc main_v1) = srcRow (F := F) (W (Proc.devRef .tc main_arg1)) := (congrFun (R2_eq W) _).trans ((seg1_keep_v1 (R1 W)).trans (t1_v1 W))
theorem t2_v3 (W : Valuation τ sig (Elt F)) : R2 W (Proc.devRef .tc main_v3) = dstRow (F := F) (W (Proc.devRef .tc main_arg1)) := (congrFun (R2_eq W) _).trans ((seg1_keep_v3 (R1 W)).trans (t1_v3 W))
theorem t2_arg2 (W : Valuation τ sig (Elt F)) : R2 W (Proc.devRef .tc main_arg2) = (W (Proc.devRef .tc main_arg2)) := (congrFun (R2_eq W) _).trans ((seg1_keep_arg2 (R1 W)).trans (t1_arg2 W))
theorem t2_arg4 (W : Valuation τ sig (Elt F)) : R2 W (Proc.devRef .tc main_arg4) = (W (Proc.devRef .tc main_arg4)) := (congrFun (R2_eq W) _).trans ((seg1_keep_arg4 (R1 W)).trans (t1_arg4 W))
theorem t2_arg5 (W : Valuation τ sig (Elt F)) : R2 W (Proc.devRef .tc main_arg5) = (W (Proc.devRef .tc main_arg5)) := (congrFun (R2_eq W) _).trans ((seg1_keep_arg5 (R1 W)).trans (t1_arg5 W))
theorem t2_arg6 (W : Valuation τ sig (Elt F)) : R2 W (Proc.devRef .tc main_arg6) = (W (Proc.devRef .tc main_arg6)) := (congrFun (R2_eq W) _).trans ((seg1_keep_arg6 (R1 W)).trans (t1_arg6 W))
theorem t3_v11 (W : Valuation τ sig (Elt F)) : R3 W (Proc.devRef .tc main_v11) = r11 W :=
  (congrFun (R3_eq W) _).trans ((seg2_v11 (R2 W)).trans
    ((congrArg₂ (fun (A : (⟨S100000x128, .f32⟩ : BufTy).Contents (Elt F)) (s : (⟨S1600000, .i32⟩ : BufTy).Contents (Elt F)) => Host.gather gather_S100000x128_S1600000x1_S1600000x128_1_0_n_n_0_1_1128 A (wrapCol (F := F) s)) (t2_v4 W) (t2_v1 W)).trans (r11_eq W)))
theorem t3_v1 (W : Valuation τ sig (Elt F)) : R3 W (Proc.devRef .tc main_v1) = srcRow (F := F) (W (Proc.devRef .tc main_arg1)) := (congrFun (R3_eq W) _).trans ((seg2_keep_v1 (R2 W)).trans (t2_v1 W))
theorem t3_v3 (W : Valuation τ sig (Elt F)) : R3 W (Proc.devRef .tc main_v3) = dstRow (F := F) (W (Proc.devRef .tc main_arg1)) := (congrFun (R3_eq W) _).trans ((seg2_keep_v3 (R2 W)).trans (t2_v3 W))
theorem t3_arg2 (W : Valuation τ sig (Elt F)) : R3 W (Proc.devRef .tc main_arg2) = (W (Proc.devRef .tc main_arg2)) := (congrFun (R3_eq W) _).trans ((seg2_keep_arg2 (R2 W)).trans (t2_arg2 W))
theorem t3_arg4 (W : Valuation τ sig (Elt F)) : R3 W (Proc.devRef .tc main_arg4) = (W (Proc.devRef .tc main_arg4)) := (congrFun (R3_eq W) _).trans ((seg2_keep_arg4 (R2 W)).trans (t2_arg4 W))
theorem t3_arg5 (W : Valuation τ sig (Elt F)) : R3 W (Proc.devRef .tc main_arg5) = (W (Proc.devRef .tc main_arg5)) := (congrFun (R3_eq W) _).trans ((seg2_keep_arg5 (R2 W)).trans (t2_arg5 W))
theorem t3_arg6 (W : Valuation τ sig (Elt F)) : R3 W (Proc.devRef .tc main_arg6) = (W (Proc.devRef .tc main_arg6)) := (congrFun (R3_eq W) _).trans ((seg2_keep_arg6 (R2 W)).trans (t2_arg6 W))
theorem t4_v14 (W : Valuation τ sig (Elt F)) : R4 W (Proc.devRef .tc main_v14) = r14 W :=
  (congrFun (R4_eq W) _).trans ((seg3_v14 (R3 W)).trans
    ((congrArg₂ (fun (U : (⟨S1600000x128, .f32⟩ : BufTy).Contents (Elt F)) (w : (⟨S1600000, .f32⟩ : BufTy).Contents (Elt F)) => mulf U (broadcastInDim S1600000x128 ![0, 1] bcast_S1600000x1_S1600000x128_0_1 (colOf (F := F) w))) (t3_v11 W) (t3_arg2 W)).trans (r14_eq W)))
theorem t4_v1 (W : Valuation τ sig (Elt F)) : R4 W (Proc.devRef .tc main_v1) = srcRow (F := F) (W (Proc.devRef .tc main_arg1)) := (congrFun (R4_eq W) _).trans ((seg3_keep_v1 (R3 W)).trans (t3_v1 W))
theorem t4_v3 (W : Valuation τ sig (Elt F)) : R4 W (Proc.devRef .tc main_v3) = dstRow (F := F) (W (Proc.devRef .tc main_arg1)) := (congrFun (R4_eq W) _).trans ((seg3_keep_v3 (R3 W)).trans (t3_v3 W))
theorem t4_arg2 (W : Valuation τ sig (Elt F)) : R4 W (Proc.devRef .tc main_arg2) = (W (Proc.devRef .tc main_arg2)) := (congrFun (R4_eq W) _).trans ((seg3_keep_arg2 (R3 W)).trans (t3_arg2 W))
theorem t4_arg4 (W : Valuation τ sig (Elt F)) : R4 W (Proc.devRef .tc main_arg4) = (W (Proc.devRef .tc main_arg4)) := (congrFun (R4_eq W) _).trans ((seg3_keep_arg4 (R3 W)).trans (t3_arg4 W))
theorem t4_arg5 (W : Valuation τ sig (Elt F)) : R4 W (Proc.devRef .tc main_arg5) = (W (Proc.devRef .tc main_arg5)) := (congrFun (R4_eq W) _).trans ((seg3_keep_arg5 (R3 W)).trans (t3_arg5 W))
theorem t4_arg6 (W : Valuation τ sig (Elt F)) : R4 W (Proc.devRef .tc main_arg6) = (W (Proc.devRef .tc main_arg6)) := (congrFun (R4_eq W) _).trans ((seg3_keep_arg6 (R3 W)).trans (t3_arg6 W))
theorem t5_v17 (W : Valuation τ sig (Elt F)) : R5 W (Proc.devRef .tc main_v17) = r17 W :=
  (congrFun (R5_eq W) _).trans ((seg4_v17 (R4 W)).trans
    ((congrArg₂ (fun (d : (⟨S1600000, .i32⟩ : BufTy).Contents (Elt F)) (U : (⟨S1600000x128, .f32⟩ : BufTy).Contents (Elt F)) => Host.scatterAdd scatter_S100000x128_S1600000x1_S1600000x128_1_0_0_1 (broadcastInDim S100000x128 ![] bcast_S_S100000x128 (constant (F := F) S_ .f32 0x00000000#32)) (asCol (F := F) d) U) (t4_v3 W) (t4_v14 W)).trans (r17_eq W)))
theorem t5_v1 (W : Valuation τ sig (Elt F)) : R5 W (Proc.devRef .tc main_v1) = srcRow (F := F) (W (Proc.devRef .tc main_arg1)) := (congrFun (R5_eq W) _).trans ((seg4_keep_v1 (R4 W)).trans (t4_v1 W))
theorem t5_v3 (W : Valuation τ sig (Elt F)) : R5 W (Proc.devRef .tc main_v3) = dstRow (F := F) (W (Proc.devRef .tc main_arg1)) := (congrFun (R5_eq W) _).trans ((seg4_keep_v3 (R4 W)).trans (t4_v3 W))
theorem t5_arg2 (W : Valuation τ sig (Elt F)) : R5 W (Proc.devRef .tc main_arg2) = (W (Proc.devRef .tc main_arg2)) := (congrFun (R5_eq W) _).trans ((seg4_keep_arg2 (R4 W)).trans (t4_arg2 W))
theorem t5_arg4 (W : Valuation τ sig (Elt F)) : R5 W (Proc.devRef .tc main_arg4) = (W (Proc.devRef .tc main_arg4)) := (congrFun (R5_eq W) _).trans ((seg4_keep_arg4 (R4 W)).trans (t4_arg4 W))
theorem t5_arg5 (W : Valuation τ sig (Elt F)) : R5 W (Proc.devRef .tc main_arg5) = (W (Proc.devRef .tc main_arg5)) := (congrFun (R5_eq W) _).trans ((seg4_keep_arg5 (R4 W)).trans (t4_arg5 W))
theorem t5_arg6 (W : Valuation τ sig (Elt F)) : R5 W (Proc.devRef .tc main_arg6) = (W (Proc.devRef .tc main_arg6)) := (congrFun (R5_eq W) _).trans ((seg4_keep_arg6 (R4 W)).trans (t4_arg6 W))
theorem t6_v20 (W : Valuation τ sig (Elt F)) : R6 W (Proc.devRef .tc main_v20) = r20 W :=
  (congrFun (R6_eq W) _).trans ((seg5_v20 (R5 W)).trans
    ((congrArg₂ (fun (A : (⟨S100000x128, .f32⟩ : BufTy).Contents (Elt F)) (b : (⟨S128, .f32⟩ : BufTy).Contents (Elt F)) => addf A (broadcastInDim S100000x128 ![0, 1] bcast_S1x128_S100000x128_0_1 (rowOf128 (F := F) b))) (t5_v17 W) (t5_arg4 W)).trans (r20_eq W)))
theorem t6_v1 (W : Valuation τ sig (Elt F)) : R6 W (Proc.devRef .tc main_v1) = srcRow (F := F) (W (Proc.devRef .tc main_arg1)) := (congrFun (R6_eq W) _).trans ((seg5_keep_v1 (R5 W)).trans (t5_v1 W))
theorem t6_v3 (W : Valuation τ sig (Elt F)) : R6 W (Proc.devRef .tc main_v3) = dstRow (F := F) (W (Proc.devRef .tc main_arg1)) := (congrFun (R6_eq W) _).trans ((seg5_keep_v3 (R5 W)).trans (t5_v3 W))
theorem t6_arg2 (W : Valuation τ sig (Elt F)) : R6 W (Proc.devRef .tc main_arg2) = (W (Proc.devRef .tc main_arg2)) := (congrFun (R6_eq W) _).trans ((seg5_keep_arg2 (R5 W)).trans (t5_arg2 W))
theorem t6_arg5 (W : Valuation τ sig (Elt F)) : R6 W (Proc.devRef .tc main_arg5) = (W (Proc.devRef .tc main_arg5)) := (congrFun (R6_eq W) _).trans ((seg5_keep_arg5 (R5 W)).trans (t5_arg5 W))
theorem t6_arg6 (W : Valuation τ sig (Elt F)) : R6 W (Proc.devRef .tc main_arg6) = (W (Proc.devRef .tc main_arg6)) := (congrFun (R6_eq W) _).trans ((seg5_keep_arg6 (R5 W)).trans (t5_arg6 W))
theorem t7_v21 (W : Valuation τ sig (Elt F)) : R7 W (Proc.devRef .tc main_v21) = r21 W :=
  (congrFun (R7_eq W) _).trans ((seg6_v21 (R6 W)).trans
    ((congrArg (fun (A : (⟨S100000x128, .f32⟩ : BufTy).Contents (Elt F)) => maximumf A (broadcastInDim S100000x128 ![] bcast_S_S100000x128 (constant (F := F) S_ .f32 0x00000000#32))) (t6_v20 W)).trans (r21_eq W)))
theorem t7_v1 (W : Valuation τ sig (Elt F)) : R7 W (Proc.devRef .tc main_v1) = srcRow (F := F) (W (Proc.devRef .tc main_arg1)) := (congrFun (R7_eq W) _).trans ((seg6_keep_v1 (R6 W)).trans (t6_v1 W))
theorem t7_v3 (W : Valuation τ sig (Elt F)) : R7 W (Proc.devRef .tc main_v3) = dstRow (F := F) (W (Proc.devRef .tc main_arg1)) := (congrFun (R7_eq W) _).trans ((seg6_keep_v3 (R6 W)).trans (t6_v3 W))
theorem t7_arg2 (W : Valuation τ sig (Elt F)) : R7 W (Proc.devRef .tc main_arg2) = (W (Proc.devRef .tc main_arg2)) := (congrFun (R7_eq W) _).trans ((seg6_keep_arg2 (R6 W)).trans (t6_arg2 W))
theorem t7_arg5 (W : Valuation τ sig (Elt F)) : R7 W (Proc.devRef .tc main_arg5) = (W (Proc.devRef .tc main_arg5)) := (congrFun (R7_eq W) _).trans ((seg6_keep_arg5 (R6 W)).trans (t6_arg5 W))
theorem t7_arg6 (W : Valuation τ sig (Elt F)) : R7 W (Proc.devRef .tc main_arg6) = (W (Proc.devRef .tc main_arg6)) := (congrFun (R7_eq W) _).trans ((seg6_keep_arg6 (R6 W)).trans (t6_arg6 W))
theorem t8_v22 (W : Valuation τ sig (Elt F)) : R8 W (Proc.devRef .tc main_v22) = r22 W :=
  (congrFun (R8_eq W) _).trans ((seg7_v22 (R7 W)).trans
    ((congrArg₂ (fun (A : (⟨S100000x128, .f32⟩ : BufTy).Contents (Elt F)) (B : (⟨S128x40, .f32⟩ : BufTy).Contents (Elt F)) => Host.dotGeneral dot_S100000x128_S128x40_S100000x40_1_0_0_1_n_n none A B) (t7_v21 W) (t7_arg5 W)).trans (r22_eq W)))
theorem t8_v1 (W : Valuation τ sig (Elt F)) : R8 W (Proc.devRef .tc main_v1) = srcRow (F := F) (W (Proc.devRef .tc main_arg1)) := (congrFun (R8_eq W) _).trans ((seg7_keep_v1 (R7 W)).trans (t7_v1 W))
theorem t8_v3 (W : Valuation τ sig (Elt F)) : R8 W (Proc.devRef .tc main_v3) = dstRow (F := F) (W (Proc.devRef .tc main_arg1)) := (congrFun (R8_eq W) _).trans ((seg7_keep_v3 (R7 W)).trans (t7_v3 W))
theorem t8_arg2 (W : Valuation τ sig (Elt F)) : R8 W (Proc.devRef .tc main_arg2) = (W (Proc.devRef .tc main_arg2)) := (congrFun (R8_eq W) _).trans ((seg7_keep_arg2 (R7 W)).trans (t7_arg2 W))
theorem t8_arg6 (W : Valuation τ sig (Elt F)) : R8 W (Proc.devRef .tc main_arg6) = (W (Proc.devRef .tc main_arg6)) := (congrFun (R8_eq W) _).trans ((seg7_keep_arg6 (R7 W)).trans (t7_arg6 W))
theorem t9_v29 (W : Valuation τ sig (Elt F)) : R9 W (Proc.devRef .tc main_v29) = r29 W :=
  (congrFun (R9_eq W) _).trans ((seg8_v29 (R8 W)).trans
    ((congrArg₂ (fun (A : (⟨S100000x40, .f32⟩ : BufTy).Contents (Elt F)) (s : (⟨S1600000, .i32⟩ : BufTy).Contents (Elt F)) => Host.gather gather_S100000x40_S1600000x1_S1600000x40_1_0_n_n_0_1_140 A (wrapCol (F := F) s)) (t8_v22 W) (t8_v1 W)).trans (r29_eq W)))
theorem t9_v3 (W : Valuation τ sig (Elt F)) : R9 W (Proc.devRef .tc main_v3) = dstRow (F := F) (W (Proc.devRef .tc main_arg1)) := (congrFun (R9_eq W) _).trans ((seg8_keep_v3 (R8 W)).trans (t8_v3 W))
theorem t9_arg2 (W : Valuation τ sig (Elt F)) : R9 W (Proc.devRef .tc main_arg2) = (W (Proc.devRef .tc main_arg2)) := (congrFun (R9_eq W) _).trans ((seg8_keep_arg2 (R8 W)).trans (t8_arg2 W))
theorem t9_arg6 (W : Valuation τ sig (Elt F)) : R9 W (Proc.devRef .tc main_arg6) = (W (Proc.devRef .tc main_arg6)) := (congrFun (R9_eq W) _).trans ((seg8_keep_arg6 (R8 W)).trans (t8_arg6 W))
theorem t10_v32 (W : Valuation τ sig (Elt F)) : R10 W (Proc.devRef .tc main_v32) = r32 W :=
  (congrFun (R10_eq W) _).trans ((seg9_v32 (R9 W)).trans
    ((congrArg₂ (fun (U : (⟨S1600000x40, .f32⟩ : BufTy).Contents (Elt F)) (w : (⟨S1600000, .f32⟩ : BufTy).Contents (Elt F)) => mulf U (broadcastInDim S1600000x40 ![0, 1] bcast_S1600000x1_S1600000x40_0_1 (colOf (F := F) w))) (t9_v29 W) (t9_arg2 W)).trans (r32_eq W)))
theorem t10_v3 (W : Valuation τ sig (Elt F)) : R10 W (Proc.devRef .tc main_v3) = dstRow (F := F) (W (Proc.devRef .tc main_arg1)) := (congrFun (R10_eq W) _).trans ((seg9_keep_v3 (R9 W)).trans (t9_v3 W))
theorem t10_arg6 (W : Valuation τ sig (Elt F)) : R10 W (Proc.devRef .tc main_arg6) = (W (Proc.devRef .tc main_arg6)) := (congrFun (R10_eq W) _).trans ((seg9_keep_arg6 (R9 W)).trans (t9_arg6 W))
theorem t11_v35 (W : Valuation τ sig (Elt F)) : R11 W (Proc.devRef .tc main_v35) = r35 W :=
  (congrFun (R11_eq W) _).trans ((seg10_v35 (R10 W)).trans
    ((congrArg₂ (fun (d : (⟨S1600000, .i32⟩ : BufTy).Contents (Elt F)) (U : (⟨S1600000x40, .f32⟩ : BufTy).Contents (Elt F)) => Host.scatterAdd scatter_S100000x40_S1600000x1_S1600000x40_1_0_0_1 (broadcastInDim S100000x40 ![] bcast_S_S100000x40 (constant (F := F) S_ .f32 0x00000000#32)) (asCol (F := F) d) U) (t10_v3 W) (t10_v32 W)).trans (r35_eq W)))
theorem t11_arg6 (W : Valuation τ sig (Elt F)) : R11 W (Proc.devRef .tc main_arg6) = (W (Proc.devRef .tc main_arg6)) := (congrFun (R11_eq W) _).trans ((seg10_keep_arg6 (R10 W)).trans (t10_arg6 W))
theorem t12_v38 (W : Valuation τ sig (Elt F)) : R12 W (Proc.devRef .tc main_v38) = r38 W :=
  (congrFun (R12_eq W) _).trans ((seg11_v38 (R11 W)).trans
    ((congrArg₂ (fun (A : (⟨S100000x40, .f32⟩ : BufTy).Contents (Elt F)) (b : (⟨S40, .f32⟩ : BufTy).Contents (Elt F)) => addf A (broadcastInDim S100000x40 ![0, 1] bcast_S1x40_S100000x40_0_1 (rowOf40 (F := F) b))) (t11_v35 W) (t11_arg6 W)).trans (r38_eq W)))
theorem t13_call1_v0 (W : Valuation τ sig (Elt F)) : R13 W (Proc.devRef .tc main_call1_v0) = rc0 W :=
  (congrFun (R13_eq W) _).trans ((seg12_call1_v0 (R12 W)).trans
    ((congrArg (fun (x : (⟨S100000x40, .f32⟩ : BufTy).Contents (Elt F)) => Host.reduce FloatOps.maximumf x (constant (F := F) S_ .f32 0xFF800000#32) reducesTo_S100000x40_S100000_d1 h_S_) (t12_v38 W)).trans (rc0_eq W)))
theorem t13_v38 (W : Valuation τ sig (Elt F)) : R13 W (Proc.devRef .tc main_v38) = r38 W := (congrFun (R13_eq W) _).trans ((seg12_keep_v38 (R12 W)).trans (t12_v38 W))
theorem t14_call1_v2 (W : Valuation τ sig (Elt F)) : R14 W (Proc.devRef .tc main_call1_v2) = rowMaxHost (F := F) (r38 W) :=
  (congrFun (R14_eq W) _).trans ((seg13_call1_v2 (R13 W)).trans
    ((congrArg (fun (a : (⟨S100000, .f32⟩ : BufTy).Contents (Elt F)) => maximumf (broadcastInDim S100000 ![] bcast_S_S100000 (constant (F := F) S_ .f32 0xFF800000#32)) a) (t13_call1_v0 W)).trans (rmax_eq W)))
theorem t14_v38 (W : Valuation τ sig (Elt F)) : R14 W (Proc.devRef .tc main_v38) = r38 W := (congrFun (R14_eq W) _).trans ((seg13_keep_v38 (R13 W)).trans (t13_v38 W))
theorem t15_call1_v5 (W : Valuation τ sig (Elt F)) : R15 W (Proc.devRef .tc main_call1_v5) = shiftedHost (F := F) (r38 W) := by
  rw [R15_eq W, seg14_call1_v5 (R14 W), t14_v38 W, t14_call1_v2 W]
  exact rshift_eq W
theorem t16_call1_v7 (W : Valuation τ sig (Elt F)) : R16 W (Proc.devRef .tc main_call1_v7) = rc7 W :=
  (congrFun (R16_eq W) _).trans ((seg15_call1_v7 (R15 W)).trans
    ((congrArg (fun (s : (⟨S100000x40, .f32⟩ : BufTy).Contents (Elt F)) => Host.reduceAdd (Host.exp s) (constant (F := F) S_ .f32 0x00000000#32) reducesTo_S100000x40_S100000_d1 h_S_) (t15_call1_v5 W)).trans (rc7_eq W)))
theorem t16_call1_v5 (W : Valuation τ sig (Elt F)) : R16 W (Proc.devRef .tc main_call1_v5) = shiftedHost (F := F) (r38 W) := (congrFun (R16_eq W) _).trans ((seg15_keep_call1_v5 (R15 W)).trans (t15_call1_v5 W))
theorem t17_v39 (W : Valuation τ sig (Elt F)) : R17 W (Proc.devRef .tc main_v39) = r39 W :=
  (congrFun (R17_eq W) _).trans ((seg16_v39 (R16 W)).trans
    ((congrArg₂ (fun (s : (⟨S100000x40, .f32⟩ : BufTy).Contents (Elt F)) (z : (⟨S100000, .f32⟩ : BufTy).Contents (Elt F)) => subf s (broadcastInDim S100000x40 ![0, 1] bcast_S100000x1_S100000x40_0_1 (Host.log (broadcastInDim S100000x1 ![0] bcast_S100000_S100000x1_0 z)))) (t16_call1_v5 W) (t16_call1_v7 W)).trans (r39_eq' W)))

/-- The result buffer after the whole program. -/
theorem result_raw (W : Valuation τ sig (Elt F)) : after (ValueP.ops (F := F)) W (Proc.devRef .tc main_v39) = r39 W := by
  rw [after_ops]; exact t17_v39 W

/-! ## The arguments are never written -/

theorem ops_keep_arg0 (W : Valuation τ sig (Elt F)) :
    after (ValueP.ops (F := F)) W (Proc.devRef .tc main_arg0) = W (Proc.devRef .tc main_arg0) := by
  after_results_simp
theorem ops_keep_arg1 (W : Valuation τ sig (Elt F)) :
    after (ValueP.ops (F := F)) W (Proc.devRef .tc main_arg1) = W (Proc.devRef .tc main_arg1) := by
  after_results_simp
theorem ops_keep_arg2 (W : Valuation τ sig (Elt F)) :
    after (ValueP.ops (F := F)) W (Proc.devRef .tc main_arg2) = W (Proc.devRef .tc main_arg2) := by
  after_results_simp
theorem ops_keep_arg3 (W : Valuation τ sig (Elt F)) :
    after (ValueP.ops (F := F)) W (Proc.devRef .tc main_arg3) = W (Proc.devRef .tc main_arg3) := by
  after_results_simp
theorem ops_keep_arg4 (W : Valuation τ sig (Elt F)) :
    after (ValueP.ops (F := F)) W (Proc.devRef .tc main_arg4) = W (Proc.devRef .tc main_arg4) := by
  after_results_simp
theorem ops_keep_arg5 (W : Valuation τ sig (Elt F)) :
    after (ValueP.ops (F := F)) W (Proc.devRef .tc main_arg5) = W (Proc.devRef .tc main_arg5) := by
  after_results_simp
theorem ops_keep_arg6 (W : Valuation τ sig (Elt F)) :
    after (ValueP.ops (F := F)) W (Proc.devRef .tc main_arg6) = W (Proc.devRef .tc main_arg6) := by
  after_results_simp

/-! ## On the extended reals the composite is the network -/

/-- Reading a row per edge and summing the edges' rows per node, along the program's edge lists. -/
def gat₁ (W : Valuation τ sig (Elt Ideal)) (M : (⟨2, ![100000, 128]⟩ : Shape).Idx → EReal) : (⟨2, ![1600000, 128]⟩ : Shape).Idx → EReal :=
  Host.gather gather_S100000x128_S1600000x1_S1600000x128_1_0_n_n_0_1_1128 M (wrapCol (F := Ideal) (srcRow (F := Ideal) (W (Proc.devRef .tc main_arg1))))
def sca₁ (W : Valuation τ sig (Elt Ideal)) (U : (⟨2, ![1600000, 128]⟩ : Shape).Idx → EReal) : (⟨2, ![100000, 128]⟩ : Shape).Idx → EReal :=
  Host.scatterAdd scatter_S100000x128_S1600000x1_S1600000x128_1_0_0_1
    (broadcastInDim S100000x128 ![] bcast_S_S100000x128 (constant (F := Ideal) S_ .f32 0x00000000#32)) (asCol (F := Ideal) (dstRow (F := Ideal) (W (Proc.devRef .tc main_arg1)))) U
def gat₂ (W : Valuation τ sig (Elt Ideal)) (M : (⟨2, ![100000, 40]⟩ : Shape).Idx → EReal) : (⟨2, ![1600000, 40]⟩ : Shape).Idx → EReal :=
  Host.gather gather_S100000x40_S1600000x1_S1600000x40_1_0_n_n_0_1_140 M (wrapCol (F := Ideal) (srcRow (F := Ideal) (W (Proc.devRef .tc main_arg1))))
def sca₂ (W : Valuation τ sig (Elt Ideal)) (U : (⟨2, ![1600000, 40]⟩ : Shape).Idx → EReal) : (⟨2, ![100000, 40]⟩ : Shape).Idx → EReal :=
  Host.scatterAdd scatter_S100000x40_S1600000x1_S1600000x40_1_0_0_1
    (broadcastInDim S100000x40 ![] bcast_S_S100000x40 (constant (F := Ideal) S_ .f32 0x00000000#32)) (asCol (F := Ideal) (dstRow (F := Ideal) (W (Proc.devRef .tc main_arg1)))) U

theorem r39_eq (W : Valuation τ sig (Elt Ideal)) :
    r39 (F := Ideal) W = Cert.Gcn.net (gat₁ W) (sca₁ W) (gat₂ W) (sca₂ W) (W (Proc.devRef .tc main_arg0)) (colOf (F := Ideal) (W (Proc.devRef .tc main_arg2)))
      (W (Proc.devRef .tc main_arg3)) (rowOf128 (F := Ideal) (W (Proc.devRef .tc main_arg4))) (W (Proc.devRef .tc main_arg5)) (rowOf40 (F := Ideal) (W (Proc.devRef .tc main_arg6))) := by
  unfold r39 r38 r35 r32 r29 r22 r21 r20 r17 r14 r11 r4
  rw [Laws.lsm_eq, Laws.addRow40_eq, Laws.scale40_eq, Laws.dot2_eq, Laws.pos_eq, Laws.addRow128_eq, Laws.scale128_eq, Laws.dot1_eq]
  rfl

end Cert.ReferenceIdeal.Chain

end
-- ==== Proof.Bridge.lean ====
/-
  The two programs compute the same network. Both read a row per edge and sum rows per node with the same operations
  along the same edge lists, so those agree as soon as the edge lists do; the kernel lays the edge weights out as a
  column and the biases as rows by a reshape, the reference by a broadcast, and either way the column's entry `(e, 0)` is
  the weight of edge `e` and the row's entry `(0, f)` the bias of feature `f`. With equal arguments the two `net`s are
  therefore one term.
-/
import proofs.«168604_j28321014350089_1_alg».proof.Proof.KernelValue
import proofs.«168604_j28321014350089_1_alg».proof.Proof.RefValue
import proofs.«168604_j28321014350089_1_alg».proof.Proof.LibKeepdims
import Idealize.ShloMosaic.Lib.ValueLayout

noncomputable section

namespace Cert.Bridge

open Idealize.ShloMosaic Idealize.ShloMosaic.TcCoe Idealize.SL.Sem Idealize.ShloMosaic.StableHlo
open Idealize.ShloMosaic.ValueIdx

/-! ## The same operations along the same lists -/

theorem gather₁_rec : Cert.KernelIdeal.gather_S100000x128_S1600000x1_S1600000x128_1_0_n_n_0_1_1128
    = Cert.ReferenceIdeal.gather_S100000x128_S1600000x1_S1600000x128_1_0_n_n_0_1_1128 := rfl
theorem gather₂_rec : Cert.KernelIdeal.gather_S100000x40_S1600000x1_S1600000x40_1_0_n_n_0_1_140
    = Cert.ReferenceIdeal.gather_S100000x40_S1600000x1_S1600000x40_1_0_n_n_0_1_140 := rfl
theorem scatter₁_rec : Cert.KernelIdeal.scatter_S100000x128_S1600000x1_S1600000x128_1_0_0_1
    = Cert.ReferenceIdeal.scatter_S100000x128_S1600000x1_S1600000x128_1_0_0_1 := rfl
theorem scatter₂_rec : Cert.KernelIdeal.scatter_S100000x40_S1600000x1_S1600000x40_1_0_0_1
    = Cert.ReferenceIdeal.scatter_S100000x40_S1600000x1_S1600000x40_1_0_0_1 := rfl

/-- The wrapped source nodes and the target nodes, as columns, are the same terms of the edge list in both programs. -/
theorem src_eq (x : (⟨Cert.KernelIdeal.S2x1600000, .i32⟩ : BufTy).Contents (Elt Ideal)) :
    Cert.KernelIdeal.HostOps.wrapCol (F := Ideal) (Cert.KernelIdeal.HostOps.srcRow (F := Ideal) x)
      = Cert.ReferenceIdeal.Stages.wrapCol (F := Ideal) (Cert.ReferenceIdeal.Stages.srcRow (F := Ideal) x) := rfl
theorem dst_eq (x : (⟨Cert.KernelIdeal.S2x1600000, .i32⟩ : BufTy).Contents (Elt Ideal)) :
    Cert.KernelIdeal.HostOps.asCol (F := Ideal) (Cert.KernelIdeal.HostOps.dstRow (F := Ideal) x)
      = Cert.ReferenceIdeal.Stages.asCol (F := Ideal) (Cert.ReferenceIdeal.Stages.dstRow (F := Ideal) x) := rfl

/-! ## A reshape and a broadcast lay a vector out the same way -/

/-- The weights as a column: entry `(e, 0)` is the weight of edge `e`. -/
theorem col_eq (w : FVec Ideal Cert.KernelIdeal.S1600000 .f32) :
    (shapeCast Cert.KernelIdeal.S1600000x1 w Cert.KernelIdeal.Gen.shapeCasts_S1600000_S1600000x1 : (⟨2, ![1600000, 1]⟩ : Shape).Idx → EReal)
      = Cert.ReferenceIdeal.Stages.colOf (F := Ideal) w := by
  funext i
  obtain ⟨e, u, rfl⟩ : ∃ (e : Fin 1600000) (u : Fin 1), i = ix2 e u := ⟨i 0, i 1, eq_ix2 i⟩
  rw [Keepdims.shapeCast_a_a1_apply]
  exact (broadcastInDim_apply _ Cert.ReferenceIdeal.Gen.bcast_S1600000_S1600000x1_0 w (ix2 e u) (ix1 e) (fun a => match a with
    | ⟨0, _⟩ => by show e.val = if (1600000 : Nat) = 1 then 0 else e.val; rw [if_neg (by decide)])).symm

/-- A bias as a row: entry `(0, f)` is the bias of feature `f`. -/
theorem row128_eq (b : FVec Ideal Cert.KernelIdeal.S128 .f32) :
    (shapeCast Cert.KernelIdeal.S1x128 b Cert.KernelIdeal.Gen.shapeCasts_S128_S1x128 : (⟨2, ![1, 128]⟩ : Shape).Idx → EReal)
      = Cert.ReferenceIdeal.Stages.rowOf128 (F := Ideal) b := by
  funext i
  obtain ⟨u, f, rfl⟩ : ∃ (u : Fin 1) (f : Fin 128), i = ix2 u f := ⟨i 0, i 1, eq_ix2 i⟩
  rw [shapeCast_a_1a_apply]
  exact (broadcastInDim_apply _ Cert.ReferenceIdeal.Gen.bcast_S128_S1x128_1 b (ix2 u f) (ix1 f) (fun a => match a with
    | ⟨0, _⟩ => by show f.val = if (128 : Nat) = 1 then 0 else f.val; rw [if_neg (by decide)])).symm
theorem row40_eq (b : FVec Ideal Cert.KernelIdeal.S40 .f32) :
    (shapeCast Cert.KernelIdeal.S1x40 b Cert.KernelIdeal.Gen.shapeCasts_S40_S1x40 : (⟨2, ![1, 40]⟩ : Shape).Idx → EReal)
      = Cert.ReferenceIdeal.Stages.rowOf40 (F := Ideal) b := by
  funext i
  obtain ⟨u, f, rfl⟩ : ∃ (u : Fin 1) (f : Fin 40), i = ix2 u f := ⟨i 0, i 1, eq_ix2 i⟩
  rw [shapeCast_a_1a_apply]
  exact (broadcastInDim_apply _ Cert.ReferenceIdeal.Gen.bcast_S40_S1x40_1 b (ix2 u f) (ix1 f) (fun a => match a with
    | ⟨0, _⟩ => by show f.val = if (40 : Nat) = 1 then 0 else f.val; rw [if_neg (by decide)])).symm

/-! ## The two networks -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- From memories that agree on the seven arguments, the reference's network is the kernel's. -/
theorem net_eq
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))) (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))) (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))) :
    Cert.Gcn.net (Cert.ReferenceIdeal.Chain.gat₁ (launchContents m' c)) (Cert.ReferenceIdeal.Chain.sca₁ (launchContents m' c))
        (Cert.ReferenceIdeal.Chain.gat₂ (launchContents m' c)) (Cert.ReferenceIdeal.Chain.sca₂ (launchContents m' c))
        (launchContents m' c (Proc.devRef .tc Cert.ReferenceIdeal.main_arg0)) (Cert.ReferenceIdeal.Stages.colOf (F := Ideal) (launchContents m' c (Proc.devRef .tc Cert.ReferenceIdeal.main_arg2))) (launchContents m' c (Proc.devRef .tc Cert.ReferenceIdeal.main_arg3))
        (Cert.ReferenceIdeal.Stages.rowOf128 (F := Ideal) (launchContents m' c (Proc.devRef .tc Cert.ReferenceIdeal.main_arg4))) (launchContents m' c (Proc.devRef .tc Cert.ReferenceIdeal.main_arg5)) (Cert.ReferenceIdeal.Stages.rowOf40 (F := Ideal) (launchContents m' c (Proc.devRef .tc Cert.ReferenceIdeal.main_arg6)))
      = Cert.Gcn.net (Cert.KernelIdeal.Chain.gat₁ m c) (Cert.KernelIdeal.Chain.sca₁ m c) (Cert.KernelIdeal.Chain.gat₂ m c) (Cert.KernelIdeal.Chain.sca₂ m c)
        (m ((c.tc : Thread Cert.KernelIdeal.nD Cert.KernelIdeal.τ).loc Cert.KernelIdeal.main_arg0)) (Cert.KernelIdeal.Chain.kWc m c) (m ((c.tc : Thread Cert.KernelIdeal.nD Cert.KernelIdeal.τ).loc Cert.KernelIdeal.main_arg3)) (Cert.KernelIdeal.Chain.kB1 m c) (m ((c.tc : Thread Cert.KernelIdeal.nD Cert.KernelIdeal.τ).loc Cert.KernelIdeal.main_arg5)) (Cert.KernelIdeal.Chain.kB2 m c) := by
  have g1 : Cert.ReferenceIdeal.Chain.gat₁ (launchContents m' c) = Cert.KernelIdeal.Chain.gat₁ m c := by
    funext M
    unfold Cert.ReferenceIdeal.Chain.gat₁ Cert.KernelIdeal.Chain.gat₁ Cert.KernelIdeal.Chain.kSrc
    rw [show (launchContents m' c (Proc.devRef .tc Cert.ReferenceIdeal.main_arg1)) = (m ((c.tc : Thread Cert.KernelIdeal.nD Cert.KernelIdeal.τ).loc Cert.KernelIdeal.main_arg1)) from h1, src_eq, gather₁_rec]
  have s1 : Cert.ReferenceIdeal.Chain.sca₁ (launchContents m' c) = Cert.KernelIdeal.Chain.sca₁ m c := by
    funext U
    unfold Cert.ReferenceIdeal.Chain.sca₁ Cert.KernelIdeal.Chain.sca₁ Cert.KernelIdeal.Chain.kDst
    rw [show (launchContents m' c (Proc.devRef .tc Cert.ReferenceIdeal.main_arg1)) = (m ((c.tc : Thread Cert.KernelIdeal.nD Cert.KernelIdeal.τ).loc Cert.KernelIdeal.main_arg1)) from h1, dst_eq, scatter₁_rec]
  have g2 : Cert.ReferenceIdeal.Chain.gat₂ (launchContents m' c) = Cert.KernelIdeal.Chain.gat₂ m c := by
    funext M
    unfold Cert.ReferenceIdeal.Chain.gat₂ Cert.KernelIdeal.Chain.gat₂ Cert.KernelIdeal.Chain.kSrc
    rw [show (launchContents m' c (Proc.devRef .tc Cert.ReferenceIdeal.main_arg1)) = (m ((c.tc : Thread Cert.KernelIdeal.nD Cert.KernelIdeal.τ).loc Cert.KernelIdeal.main_arg1)) from h1, src_eq, gather₂_rec]
  have s2 : Cert.ReferenceIdeal.Chain.sca₂ (launchContents m' c) = Cert.KernelIdeal.Chain.sca₂ m c := by
    funext U
    unfold Cert.ReferenceIdeal.Chain.sca₂ Cert.KernelIdeal.Chain.sca₂ Cert.KernelIdeal.Chain.kDst
    rw [show (launchContents m' c (Proc.devRef .tc Cert.ReferenceIdeal.main_arg1)) = (m ((c.tc : Thread Cert.KernelIdeal.nD Cert.KernelIdeal.τ).loc Cert.KernelIdeal.main_arg1)) from h1, dst_eq, scatter₂_rec]
  have e0 : (launchContents m' c (Proc.devRef .tc Cert.ReferenceIdeal.main_arg0)) = (m ((c.tc : Thread Cert.KernelIdeal.nD Cert.KernelIdeal.τ).loc Cert.KernelIdeal.main_arg0)) := h0
  have e3 : (launchContents m' c (Proc.devRef .tc Cert.ReferenceIdeal.main_arg3)) = (m ((c.tc : Thread Cert.KernelIdeal.nD Cert.KernelIdeal.τ).loc Cert.KernelIdeal.main_arg3)) := h3
  have e5 : (launchContents m' c (Proc.devRef .tc Cert.ReferenceIdeal.main_arg5)) = (m ((c.tc : Thread Cert.KernelIdeal.nD Cert.KernelIdeal.τ).loc Cert.KernelIdeal.main_arg5)) := h5
  have ew : Cert.ReferenceIdeal.Stages.colOf (F := Ideal) (launchContents m' c (Proc.devRef .tc Cert.ReferenceIdeal.main_arg2)) = Cert.KernelIdeal.Chain.kWc m c := by
    unfold Cert.KernelIdeal.Chain.kWc
    rw [show (launchContents m' c (Proc.devRef .tc Cert.ReferenceIdeal.main_arg2)) = (m ((c.tc : Thread Cert.KernelIdeal.nD Cert.KernelIdeal.τ).loc Cert.KernelIdeal.main_arg2)) from h2]
    exact (col_eq _).symm
  have eb1 : Cert.ReferenceIdeal.Stages.rowOf128 (F := Ideal) (launchContents m' c (Proc.devRef .tc Cert.ReferenceIdeal.main_arg4)) = Cert.KernelIdeal.Chain.kB1 m c := by
    unfold Cert.KernelIdeal.Chain.kB1
    rw [show (launchContents m' c (Proc.devRef .tc Cert.ReferenceIdeal.main_arg4)) = (m ((c.tc : Thread Cert.KernelIdeal.nD Cert.KernelIdeal.τ).loc Cert.KernelIdeal.main_arg4)) from h4]
    exact (row128_eq _).symm
  have eb2 : Cert.ReferenceIdeal.Stages.rowOf40 (F := Ideal) (launchContents m' c (Proc.devRef .tc Cert.ReferenceIdeal.main_arg6)) = Cert.KernelIdeal.Chain.kB2 m c := by
    unfold Cert.KernelIdeal.Chain.kB2
    rw [show (launchContents m' c (Proc.devRef .tc Cert.ReferenceIdeal.main_arg6)) = (m ((c.tc : Thread Cert.KernelIdeal.nD Cert.KernelIdeal.τ).loc Cert.KernelIdeal.main_arg6)) from h6]
    exact (row40_eq _).symm
  rw [g1, s1, g2, s2, e0, e3, e5, ew, eb1, eb2]

end Cert.Bridge

end
-- ==== Proof.lean ====
/-
  A two-layer graph convolution with a row-wise log-softmax: the tiled kernel against its plain reference, on the
  extended reals.

  Both programs compute, for node features `X : [100000, 512]`, an edge list `[2, 1600000]`, edge weights, and two
  weight matrices with their biases,
      log_softmax (A₂ (relu (A₁ (X · W₁) + b₁) · W₂) + b₂),
  where `A (M)` sends along every edge the source node's row of `M` times the edge's weight and sums at every node the
  rows arriving there. The kernel runs the dense steps in six tiled regions — the two products a few thousand rows at a
  time (rounding the factors to a shorter format on the way in, which is the identity on the extended reals), the edge
  weighting 8000 edges at a time, the bias with the positive part, and the bias with the log-softmax — and leaves the
  row reads and the per-node sums to the same host operations the reference uses. Every tiled step writes, block by
  block, exactly the rows of one whole-array function of its inputs, and a row of a product or of a log-softmax needs
  only its own row of the input; so each region leaves the whole-array step, the products are plain sums over the
  inner index on both sides, and the reference's extra maximum with `-∞` around a row's maximum changes nothing. The
  two results are the same term `Cert.Gcn.net` of the arguments. No step uses that the inputs are finite.

  The three frames: the two kernels' are the segment-by-segment frame proofs over their generated proof data; the
  reference writes none of its arguments in its 62 host operations. The kernel's idealization rewrote nothing.
-/
import proofs.«168604_j28321014350089_1_alg».proof.Defs
import proofs.«168604_j28321014350089_1_alg».proof.Proof.Gen.Kernel
import proofs.«168604_j28321014350089_1_alg».proof.Proof.Gen.Kernel.Skeleton
import proofs.«168604_j28321014350089_1_alg».proof.Proof.Gen.Kernel.Launch
import proofs.«168604_j28321014350089_1_alg».proof.Proof.Gen.Kernel.Points
import proofs.«168604_j28321014350089_1_alg».proof.Proof.Gen.Kernel.Frame
import proofs.«168604_j28321014350089_1_alg».proof.Proof.Gen.KernelIdeal
import proofs.«168604_j28321014350089_1_alg».proof.Proof.Gen.KernelIdeal.Skeleton
import proofs.«168604_j28321014350089_1_alg».proof.Proof.Gen.KernelIdeal.Launch
import proofs.«168604_j28321014350089_1_alg».proof.Proof.Gen.KernelIdeal.Points
import proofs.«168604_j28321014350089_1_alg».proof.Proof.Gen.KernelIdeal.Frame
import proofs.«168604_j28321014350089_1_alg».proof.Proof.Gen.ReferenceIdeal
import proofs.«168604_j28321014350089_1_alg».proof.Proof.Gen.Pre_finite_inputs
import proofs.«168604_j28321014350089_1_alg».proof.Proof.KernelRun
import proofs.«168604_j28321014350089_1_alg».proof.Proof.KernelValue
import proofs.«168604_j28321014350089_1_alg».proof.Proof.RefRunPatched
import proofs.«168604_j28321014350089_1_alg».proof.Proof.RefValue
import proofs.«168604_j28321014350089_1_alg».proof.Proof.Bridge
import Idealize.ShloMosaic.Adequacy
import Idealize.ShloMosaic.Init

noncomputable section

namespace Cert.Proof

open Idealize.ShloMosaic Idealize.SL.Sem Idealize.ShloMosaic.StableHlo

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference runs, and none of its operations writes an argument
    intro m ρ _
    exact (θ_run Cert.ReferenceIdeal.defs _ _).mono (fun r h c =>
      ⟨(h c Cert.ReferenceIdeal.main_arg0).trans (Cert.ReferenceIdeal.Chain.ops_keep_arg0 (launchContents m c)),
        (h c Cert.ReferenceIdeal.main_arg1).trans (Cert.ReferenceIdeal.Chain.ops_keep_arg1 (launchContents m c)),
        (h c Cert.ReferenceIdeal.main_arg2).trans (Cert.ReferenceIdeal.Chain.ops_keep_arg2 (launchContents m c)),
        (h c Cert.ReferenceIdeal.main_arg3).trans (Cert.ReferenceIdeal.Chain.ops_keep_arg3 (launchContents m c)),
        (h c Cert.ReferenceIdeal.main_arg4).trans (Cert.ReferenceIdeal.Chain.ops_keep_arg4 (launchContents m c)),
        (h c Cert.ReferenceIdeal.main_arg5).trans (Cert.ReferenceIdeal.Chain.ops_keep_arg5 (launchContents m c)),
        (h c Cert.ReferenceIdeal.main_arg6).trans (Cert.ReferenceIdeal.Chain.ops_keep_arg6 (launchContents m c))⟩)
      (Cert.ReferenceIdeal.ValueP.run (F := Ideal) m ρ)
  · -- both programs end at the network of the arguments
    intro m ρ m' ρ' _ hagree
    refine ⟨fun c => Cert.Gcn.net (Cert.KernelIdeal.Chain.gat₁ m c) (Cert.KernelIdeal.Chain.sca₁ m c) (Cert.KernelIdeal.Chain.gat₂ m c) (Cert.KernelIdeal.Chain.sca₂ m c)
        (m ((c.tc : Thread Cert.KernelIdeal.nD Cert.KernelIdeal.τ).loc Cert.KernelIdeal.main_arg0)) (Cert.KernelIdeal.Chain.kWc m c) (m ((c.tc : Thread Cert.KernelIdeal.nD Cert.KernelIdeal.τ).loc Cert.KernelIdeal.main_arg3)) (Cert.KernelIdeal.Chain.kB1 m c) (m ((c.tc : Thread Cert.KernelIdeal.nD Cert.KernelIdeal.τ).loc Cert.KernelIdeal.main_arg5)) (Cert.KernelIdeal.Chain.kB2 m c), ?_, ?_⟩
    · exact (θ_run Cert.KernelIdeal.defs _ _).mono
        (fun r h c => ⟨(h c).1.trans (Cert.KernelIdeal.Chain.result m ρ c), (h c).2⟩)
        (Cert.KernelIdeal.Named.run_named (F := Ideal) m ρ)
    · refine (θ_run Cert.ReferenceIdeal.defs _ _).mono (fun r h c => ?_) (Cert.ReferenceIdeal.ValueP.run (F := Ideal) m' ρ')
      obtain ⟨a0, a1, a2, a3, a4, a5, a6⟩ := hagree c
      exact ⟨(h c Cert.ReferenceIdeal.main_v39).trans ((Cert.ReferenceIdeal.Chain.result_raw (launchContents m' c)).trans
          ((Cert.ReferenceIdeal.Chain.r39_eq (launchContents m' c)).trans (Cert.Bridge.net_eq m m' c a0 a1 a2 a3 a4 a5 a6))),
        (h c Cert.ReferenceIdeal.main_arg0).trans (Cert.ReferenceIdeal.Chain.ops_keep_arg0 (launchContents m' c)),
        (h c Cert.ReferenceIdeal.main_arg1).trans (Cert.ReferenceIdeal.Chain.ops_keep_arg1 (launchContents m' c)),
        (h c Cert.ReferenceIdeal.main_arg2).trans (Cert.ReferenceIdeal.Chain.ops_keep_arg2 (launchContents m' c)),
        (h c Cert.ReferenceIdeal.main_arg3).trans (Cert.ReferenceIdeal.Chain.ops_keep_arg3 (launchContents m' c)),
        (h c Cert.ReferenceIdeal.main_arg4).trans (Cert.ReferenceIdeal.Chain.ops_keep_arg4 (launchContents m' c)),
        (h c Cert.ReferenceIdeal.main_arg5).trans (Cert.ReferenceIdeal.Chain.ops_keep_arg5 (launchContents m' c)),
        (h c Cert.ReferenceIdeal.main_arg6).trans (Cert.ReferenceIdeal.Chain.ops_keep_arg6 (launchContents m' c))⟩⟩

end Cert.Proof

end
